-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3000000 : Shape := ⟨1, ![3000000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3000000 : S_.BroadcastsInDim S3000000 (![] : Fin 0 → Fin S3000000.rank)
  reducesTo_S3000000_S_d0 : S3000000.ReducesTo [0] S_

variable [Facts]

def fn {F : FTy → Type} [FloatOps F] (main_arg0 : FVec F S100000x64 .f32) (main_arg1 : FVec F S50000x64 .f32) (main_arg2 : FVec F S3000000 .f32) (main_arg3 : IVec S3000000 32) (main_arg4 : IVec S3000000 32) (main_arg5 : IVec S16384 32) (main_arg6 : IVec S16384 32) (main_arg7 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3000000 .f32 := Host.absf main_arg2
  let main_cst_2 : FVec F S_ .f32 := constant S_ .f32 0x7F800000#32
  let main_v10 : FVec F S3000000 .f32 := broadcastInDim S3000000 ![] bcast_S_S3000000 main_cst_2
  let main_v11 : IVec S3000000 1 := cmpf .olt main_v9 main_v10
  let main_c_3 : IVec S_ 1 := constantI S_ 1 1#1
  let main_v12 : IVec S_ 1 := (fun x v => Host.reduce IntOp.andi x v reducesTo_S3000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S3000000 : Shape := ⟨1, ![3000000]⟩
abbrev S16384 : Shape := ⟨1, ![16384]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩
abbrev S12000x1 : Shape := ⟨2, ![12000, 1]⟩
abbrev S12000x64 : Shape := ⟨2, ![12000, 64]⟩
abbrev S16384x1 : Shape := ⟨2, ![16384, 1]⟩
abbrev S16384x64 : Shape := ⟨2, ![16384, 64]⟩
abbrev S1x1 : Shape := ⟨2, ![1, 1]⟩
abbrev S2048x64 : Shape := ⟨2, ![2048, 64]⟩
abbrev S2048 : Shape := ⟨1, ![2048]⟩
abbrev S2048x1 : Shape := ⟨2, ![2048, 1]⟩
abbrev S1 : Shape := ⟨1, ![1]⟩

abbrev nBuf : Space → Nat
  | .hbm => 89
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3000000, .f32⟩
  | .hbm, ⟨3, _⟩ => ⟨S3000000, .i32⟩
  | .hbm, ⟨4, _⟩ => ⟨S3000000, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S150000x64, .f32⟩
  | .hbm, ⟨9, _⟩ => ⟨S3000000x1, .f32⟩
  | .hbm, ⟨10, _⟩ => ⟨S_, .i32⟩
  | .hbm, ⟨11, _⟩ => ⟨S3000000, .i32⟩
  | .hbm, ⟨12, _⟩ => ⟨S3000000, .i1⟩
  | .hbm, ⟨13, _⟩ => ⟨S_, .i32⟩
  | .hbm, ⟨14, _⟩ => ⟨S3000000, .i32⟩
  | .hbm, ⟨15, _⟩ => ⟨S3000000, .i32⟩
  | .hbm, ⟨16, _⟩ => ⟨S3000000, .i32⟩
  | .hbm, ⟨17, _⟩ => ⟨S3000000x1, .i32⟩
  | .hbm, ⟨18, _⟩ => ⟨S3000000x64, .f32⟩
  | .hbm, ⟨19, _⟩ => ⟨S3000000x64, .f32⟩
  | .hbm, ⟨20, _⟩ => ⟨S_, .f32⟩
  | .hbm, ⟨21, _⟩ => ⟨S150000x64, .f32⟩
  | .hbm, ⟨22, _⟩ => ⟨S3000000x1, .i32⟩
  | .hbm, ⟨23, _⟩ => ⟨S150000x64, .f32⟩
  | .hbm, ⟨24, _⟩ => ⟨S150000x64, .f32⟩
  | .hbm, ⟨25, _⟩ => ⟨S_, .i32⟩
  | .hbm, ⟨26, _⟩ => ⟨S3000000, .i32⟩
  | .hbm, ⟨27, _⟩ => ⟨S3000000, .i1⟩
  | .hbm, ⟨28, _⟩ => ⟨S_, .i32⟩
  | .hbm, ⟨29, _⟩ => ⟨S3000000, .i32⟩
  | .hbm, ⟨30, _⟩ => ⟨S3000000, .i32⟩
  | .hbm, ⟨31, _⟩ => ⟨S3000000, .i32⟩
  | .hbm, ⟨32, _⟩ => ⟨S3000000x1, .i32⟩
  | .hbm, ⟨33, _⟩ => ⟨S3000000x64, .f32⟩
  | .hbm, ⟨34, _⟩ => ⟨S3000000x64, .f32⟩
  | .hbm, ⟨35, _⟩ => ⟨S_, .f32⟩
  | .hbm, ⟨36, _⟩ => ⟨S150000x64, .f32⟩
  | .hbm, ⟨37, _⟩ => ⟨S3000000x1, .i32⟩
  | .hbm, ⟨38, _⟩ => ⟨S150000x64, .f32⟩
  | .hbm, ⟨39, _⟩ => ⟨S150000x64, .f32⟩
  | .hbm, ⟨40, _⟩ => ⟨S_, .i32⟩
  | .hbm, ⟨41, _⟩ => ⟨S3000000, .i32⟩
  | .hbm, ⟨42, _⟩ => ⟨S3000000, .i1⟩
  | .hbm, ⟨43, _⟩ => ⟨S_, .i32⟩
  | .hbm, ⟨44, _⟩ => ⟨S3000000, .i32⟩
  | .hbm, ⟨45, _⟩ => ⟨S3000000, .i32⟩
  | .hbm, ⟨46, _⟩ => ⟨S3000000, .i32⟩
  | .hbm, ⟨47, _⟩ => ⟨S3000000x1, .i32⟩
  | .hbm, ⟨48, _⟩ => ⟨S3000000x64, .f32⟩
  | .hbm, ⟨49, _⟩ => ⟨S3000000x64, .f32⟩
  | .hbm, ⟨50, _⟩ => ⟨S_, .f32⟩
  | .hbm, ⟨51, _⟩ => ⟨S150000x64, .f32⟩
  | .hbm, ⟨52, _⟩ => ⟨S3000000x1, .i32⟩
  | .hbm, ⟨53, _⟩ => ⟨S150000x64, .f32⟩
  | .hbm, ⟨54, _⟩ => ⟨S150000x64, .f32⟩
  | .hbm, ⟨55, _⟩ => ⟨S_, .f32⟩
  | .hbm, ⟨56, _⟩ => ⟨S150000x64, .f32⟩
  | .hbm, ⟨57, _⟩ => ⟨S150000x64, .f32⟩
  | .hbm, ⟨58, _⟩ => ⟨S100000x64, .f32⟩
  | .hbm, ⟨59, _⟩ => ⟨S50000x64, .f32⟩
  | .hbm, ⟨60, _⟩ => ⟨S_, .i32⟩
  | .hbm, ⟨61, _⟩ => ⟨S16384, .i32⟩
  | .hbm, ⟨62, _⟩ => ⟨S16384, .i1⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S16384x1, .i32⟩
  | .hbm, ⟨68, _⟩ => ⟨S16384x64, .f32⟩
  | .hbm, ⟨69, _⟩ => ⟨S_, .i32⟩
  | .hbm, ⟨70, _⟩ => ⟨S16384, .i32⟩
  | .hbm, ⟨71, _⟩ => ⟨S16384, .i1⟩
  | .hbm, ⟨72, _⟩ => ⟨S_, .i32⟩
  | .hbm, ⟨73, _⟩ => ⟨S16384, .i32⟩
  | .hbm, ⟨74, _⟩ => ⟨S16384, .i32⟩
  | .hbm, ⟨75, _⟩ => ⟨S16384, .i32⟩
  | .hbm, ⟨76, _⟩ => ⟨S16384x1, .i32⟩
  | .hbm, ⟨77, _⟩ => ⟨S16384x64, .f32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S16384x64, .f32⟩
  | .hbm, ⟨87, _⟩ => ⟨S1x1, .f32⟩
  | .hbm, ⟨88, _⟩ => ⟨S_, .f32⟩
  | .local _ .vmem, ⟨0, _⟩ => ⟨S12000x1, .f32⟩
  | .local _ .vmem, ⟨1, _⟩ => ⟨S12000x1, .f32⟩
  | .local _ .vmem, ⟨2, _⟩ => ⟨S12000x64, .f32⟩
  | .local _ .vmem, ⟨3, _⟩ => ⟨S12000x64, .f32⟩
  | .local _ .vmem, ⟨4, _⟩ => ⟨S12000x64, .f32⟩
  | .local _ .vmem, ⟨5, _⟩ => ⟨S12000x64, .f32⟩
  | .local _ .vmem, ⟨6, _⟩ => ⟨S12000x1, .f32⟩
  | .local _ .vmem, ⟨7, _⟩ => ⟨S12000x1, .f32⟩
  | .local _ .vmem, ⟨8, _⟩ => ⟨S12000x64, .f32⟩
  | .local _ .vmem, ⟨9, _⟩ => ⟨S12000x64, .f32⟩
  | .local _ .vmem, ⟨10, _⟩ => ⟨S12000x64, .f32⟩
  | .local _ .vmem, ⟨11, _⟩ => ⟨S12000x64, .f32⟩
  | .local _ .vmem, ⟨12, _⟩ => ⟨S12000x1, .f32⟩
  | .local _ .vmem, ⟨13, _⟩ => ⟨S12000x1, .f32⟩
  | .local _ .vmem, ⟨14, _⟩ => ⟨S12000x64, .f32⟩
  | .local _ .vmem, ⟨15, _⟩ => ⟨S12000x64, .f32⟩
  | .local _ .vmem, ⟨16, _⟩ => ⟨S12000x64, .f32⟩
  | .local _ .vmem, ⟨17, _⟩ => ⟨S12000x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_scratch0 : Ref sig .tc := ⟨.vmem, 25, rfl⟩
abbrev cc3_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S12000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_25 : BitVec 32 := 0#32
  let v63 : BitVec 1 := Scalar.cmpi .ne v62 c0_i32_25
  v63

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  concatenates_S100000x64_S50000x64_S150000x64_d0 : Shape.Concatenates [S100000x64, S50000x64] S150000x64 0
  shapeCasts_S3000000_S3000000x1 : S3000000.ShapeCasts S3000000x1
  bcast_S_S3000000 : S_.BroadcastsInDim S3000000 (![] : Fin 0 → Fin S3000000.rank)
  bcast_S3000000_S3000000x1_0 : S3000000.BroadcastsInDim S3000000x1 (![0] : Fin 1 → Fin S3000000x1.rank)
  inb_S12000x1_S12000x1_0_0 : ∀ a, (![0, 0] : Fin 2 → Nat) a + S12000x1.size a ≤ S12000x1.size a
  h_S12000x1 : 0 < S12000x1.numel
  shapeCasts_S12000x1_S12000x1 : S12000x1.ShapeCasts S12000x1
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  broadcasts_S12000x1_S12000x64 : S12000x1.Broadcasts S12000x64
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x1.size a ≤ S3000000x1.size a
  hwx0_0 : ∀ i : grid0.Coords, EltTy.bits .f32 = 32 ∨ (Rect.block (s := S3000000x1) S12000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x64.size a ≤ S3000000x64.size a
  hwx0_1 : ∀ i : grid0.Coords, EltTy.bits .f32 = 32 ∨ (Rect.block (s := S3000000x64) S12000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12000x64.size a ≤ S3000000x64.size a
  hwx0_2 : ∀ i : grid0.Coords, EltTy.bits .f32 = 32 ∨ (Rect.block (s := S3000000x64) S12000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x1.size a ≤ S3000000x1.size a
  hwx1_0 : ∀ i : grid1.Coords, EltTy.bits .f32 = 32 ∨ (Rect.block (s := S3000000x1) S12000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x64.size a ≤ S3000000x64.size a
  hwx1_1 : ∀ i : grid1.Coords, EltTy.bits .f32 = 32 ∨ (Rect.block (s := S3000000x64) S12000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x64.size a ≤ S3000000x64.size a
  hwx1_2 : ∀ i : grid1.Coords, EltTy.bits .f32 = 32 ∨ (Rect.block (s := S3000000x64) S12000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12000x1.size a ≤ S3000000x1.size a
  hwx2_0 : ∀ i : grid2.Coords, EltTy.bits .f32 = 32 ∨ (Rect.block (s := S3000000x1) S12000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12000x64.size a ≤ S3000000x64.size a
  hwx2_1 : ∀ i : grid2.Coords, EltTy.bits .f32 = 32 ∨ (Rect.block (s := S3000000x64) S12000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S12000x64.size a ≤ S3000000x64.size a
  hwx2_2 : ∀ i : grid2.Coords, EltTy.bits .f32 = 32 ∨ (Rect.block (s := S3000000x64) S12000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S16384x64.size a
  hwx3_0 : ∀ i : grid3.Coords, EltTy.bits .f32 = 32 ∨ (Rect.block (s := S16384x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S16384x64.size a
  hwx3_1 : ∀ i : grid3.Coords, EltTy.bits .f32 = 32 ∨ (Rect.block (s := S16384x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S16384x64.size a
  hwx3_2 : ∀ i : grid3.Coords, EltTy.bits .f32 = 32 ∨ (Rect.block (s := S16384x64) S2048x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

abbrev win0_0 : Pipeline.Window sig grid0 :=
  Pipeline.Window.ofSpec (Memref.whole main_v1) S12000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S12000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S12000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S12000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S12000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S12000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S12000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S12000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S12000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S50000x64 : Shape := ⟨2, ![50000, 64]⟩
abbrev S3000000 : Shape := ⟨1, ![3000000]⟩
abbrev S16384 : Shape := ⟨1, ![16384]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩
abbrev S16384x1 : Shape := ⟨2, ![16384, 1]⟩
abbrev S16384x64 : Shape := ⟨2, ![16384, 64]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S50000x64, .f32⟩
  | 2 => ⟨S3000000, .f32⟩
  | 3 => ⟨S3000000, .i32⟩
  | 4 => ⟨S3000000, .i32⟩
  | 5 => ⟨S16384, .i32⟩
  | 6 => ⟨S16384, .i32⟩
  | 7 => ⟨S16384, .i32⟩
  | 8 => ⟨S150000x64, .f32⟩
  | 9 => ⟨S3000000x1, .f32⟩
  | 10 => ⟨S_, .i32⟩
  | 11 => ⟨S3000000, .i32⟩
  | 12 => ⟨S3000000, .i1⟩
  | 13 => ⟨S_, .i32⟩
  | 14 => ⟨S3000000, .i32⟩
  | 15 => ⟨S3000000, .i32⟩
  | 16 => ⟨S3000000, .i32⟩
  | 17 => ⟨S3000000x1, .i32⟩
  | 18 => ⟨S3000000x64, .f32⟩
  | 19 => ⟨S3000000x64, .f32⟩
  | 20 => ⟨S3000000x64, .f32⟩
  | 21 => ⟨S_, .f32⟩
  | 22 => ⟨S150000x64, .f32⟩
  | 23 => ⟨S3000000x1, .i32⟩
  | 24 => ⟨S150000x64, .f32⟩
  | 25 => ⟨S150000x64, .f32⟩
  | 26 => ⟨S3000000x1, .f32⟩
  | 27 => ⟨S_, .i32⟩
  | 28 => ⟨S3000000, .i32⟩
  | 29 => ⟨S3000000, .i1⟩
  | 30 => ⟨S_, .i32⟩
  | 31 => ⟨S3000000, .i32⟩
  | 32 => ⟨S3000000, .i32⟩
  | 33 => ⟨S3000000, .i32⟩
  | 34 => ⟨S3000000x1, .i32⟩
  | 35 => ⟨S3000000x64, .f32⟩
  | 36 => ⟨S3000000x64, .f32⟩
  | 37 => ⟨S3000000x64, .f32⟩
  | 38 => ⟨S_, .f32⟩
  | 39 => ⟨S150000x64, .f32⟩
  | 40 => ⟨S3000000x1, .i32⟩
  | 41 => ⟨S150000x64, .f32⟩
  | 42 => ⟨S150000x64, .f32⟩
  | 43 => ⟨S3000000x1, .f32⟩
  | 44 => ⟨S_, .i32⟩
  | 45 => ⟨S3000000, .i32⟩
  | 46 => ⟨S3000000, .i1⟩
  | 47 => ⟨S_, .i32⟩
  | 48 => ⟨S3000000, .i32⟩
  | 49 => ⟨S3000000, .i32⟩
  | 50 => ⟨S3000000, .i32⟩
  | 51 => ⟨S3000000x1, .i32⟩
  | 52 => ⟨S3000000x64, .f32⟩
  | 53 => ⟨S3000000x64, .f32⟩
  | 54 => ⟨S3000000x64, .f32⟩
  | 55 => ⟨S_, .f32⟩
  | 56 => ⟨S150000x64, .f32⟩
  | 57 => ⟨S3000000x1, .i32⟩
  | 58 => ⟨S150000x64, .f32⟩
  | 59 => ⟨S150000x64, .f32⟩
  | 60 => ⟨S_, .f32⟩
  | 61 => ⟨S150000x64, .f32⟩
  | 62 => ⟨S150000x64, .f32⟩
  | 63 => ⟨S100000x64, .f32⟩
  | 64 => ⟨S50000x64, .f32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S16384x64, .f32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S16384x64, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S16384x64, .f32⟩
  | 92 => ⟨S16384x64, .f32⟩
  | 93 => ⟨S_, .f32⟩
  | 94 => ⟨S16384, .f32⟩
  | 95 => ⟨S16384x64, .f32⟩
  | 96 => ⟨S_, .f32⟩
  | 97 => ⟨S16384, .f32⟩
  | 98 => ⟨S16384, .f32⟩
  | 99 => ⟨S16384, .f32⟩
  | 100 => ⟨S_, .f32⟩
  | 101 => ⟨S16384, .f32⟩
  | 102 => ⟨S16384, .f32⟩
  | 103 => ⟨S16384, .f32⟩
  | 104 => ⟨S16384, .f32⟩
  | 105 => ⟨S16384, .i1⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S_, .f32⟩
  | 116 => ⟨S_, .f32⟩
  | 117 => ⟨S_, .f32⟩
  | 118 => ⟨S_, .f32⟩
  | 119 => ⟨S_, .f32⟩
  | 120 => ⟨S16384x64, .f32⟩
  | 121 => ⟨S_, .f32⟩
  | 122 => ⟨S_, .f32⟩
  | 123 => ⟨S_, .f32⟩
  | 124 => ⟨S_, .f32⟩
  | 125 => ⟨S16384x64, .f32⟩
  | 126 => ⟨S_, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S_, .f32⟩
  | 3 => ⟨S16384x64, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_call0_v0 : Ref sig .tc := ⟨.hbm, 99, rfl⟩
abbrev main_call0_call0_cst : Ref sig .tc := ⟨.hbm, 100, rfl⟩
abbrev main_call0_call0_v0 : Ref sig .tc := ⟨.hbm, 101, rfl⟩
abbrev main_call0_call0_v1 : Ref sig .tc := ⟨.hbm, 102, rfl⟩
abbrev main_call0_call0_v2 : Ref sig .tc := ⟨.hbm, 103, rfl⟩
abbrev main_call0_call0_v3 : Ref sig .tc := ⟨.hbm, 104, rfl⟩
abbrev main_call0_call0_v4 : Ref sig .tc := ⟨.hbm, 105, rfl⟩
abbrev main_call0_call0_v5 : Ref sig .tc := ⟨.hbm, 106, rfl⟩
abbrev main_call0_call0_v6 : Ref sig .tc := ⟨.hbm, 107, rfl⟩
abbrev main_call0_call0_v7 : Ref sig .tc := ⟨.hbm, 108, rfl⟩
abbrev main_call0_call0_v8 : Ref sig .tc := ⟨.hbm, 109, rfl⟩
abbrev main_call0_call0_v9 : Ref sig .tc := ⟨.hbm, 110, rfl⟩
abbrev main_call0_call0_v10 : Ref sig .tc := ⟨.hbm, 111, rfl⟩
abbrev main_call0_call0_v11 : Ref sig .tc := ⟨.hbm, 112, rfl⟩
abbrev main_call0_v1 : Ref sig .tc := ⟨.hbm, 113, rfl⟩
abbrev main_v73 : Ref sig .tc := ⟨.hbm, 114, rfl⟩
abbrev main_cst_16 : Ref sig .tc := ⟨.hbm, 115, rfl⟩
abbrev main_v74 : Ref sig .tc := ⟨.hbm, 116, rfl⟩
abbrev main_cst_17 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_18 : Ref sig .tc := ⟨.hbm, 121, rfl⟩
abbrev main_v78 : Ref sig .tc := ⟨.hbm, 122, rfl⟩
abbrev main_cst_19 : Ref sig .tc := ⟨.hbm, 123, rfl⟩
abbrev main_v79 : Ref sig .tc := ⟨.hbm, 124, rfl⟩
abbrev main_v80 : Ref sig .tc := ⟨.hbm, 125, rfl⟩
abbrev main_cst_20 : Ref sig .tc := ⟨.hbm, 126, rfl⟩
abbrev main_v81 : Ref sig .tc := ⟨.hbm, 127, rfl⟩
abbrev main_cst_21 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_22 : Ref sig .tc := ⟨.hbm, 132, rfl⟩
abbrev main_v85 : Ref sig .tc := ⟨.hbm, 133, rfl⟩
abbrev main_cst_23 : Ref sig .tc := ⟨.hbm, 134, rfl⟩
abbrev main_v86 : Ref sig .tc := ⟨.hbm, 135, rfl⟩
abbrev main_v87 : Ref sig .tc := ⟨.hbm, 136, rfl⟩
abbrev main_cst_24 : Ref sig .tc := ⟨.hbm, 137, rfl⟩
abbrev main_v88 : Ref sig .tc := ⟨.hbm, 138, rfl⟩
abbrev main_cst_25 : Ref sig .tc := ⟨.hbm, 139, rfl⟩
abbrev main_v89 : Ref sig .tc := ⟨.hbm, 140, rfl⟩
abbrev main_v90 : Ref sig .tc := ⟨.hbm, 141, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  reducesTo_S16384_S_d0 : S16384.ReducesTo [0] S_
  reducesTo_S16384x64_S_d0_1 : S16384x64.ReducesTo [0, 1] S_
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.EdgeRegionsK.lean ====
/- The class-A halves of regions 0, 1 and 2 of @main (the three edge-weighting kernels `cc0__edge_weight_kernel`,
   `cc1__edge_weight_kernel`, `cc2__edge_weight_kernel`, of one body), each stated at a parameter `V`, the TensorCore's
   buffer contents when the region is entered, at any float instance `F`.
   The body reads its two input blocks whole (a column of 12000 values and a block of 12000x64 values), reads the
   output block (a value nothing uses), and stores ONE whole block: each row of the second input scaled by the
   row's entry of the column. So the output buffer after the body is a function of the two input blocks alone
   (`outK_2`, equal to the product of the broadcast column with the block: `outK_2_eq`), the inputs are left as they
   were, and each pipeline's proof data (`datK`) states exactly that at every grid point. -/
import proofs.«178663_j17334488007154_2_alg».proof.Proof.Gen.Kernel.Launch
import proofs.«178663_j17334488007154_2_alg».proof.Proof.Gen.Kernel.Skeleton
import proofs.«178663_j17334488007154_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__edge_weight_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, at zero offsets -/

abbrev r0_0 : Rect S12000x1 := Rect.unit (s := S12000x1) ![0, 0] S12000x1.size inb_S12000x1_S12000x1_0_0
abbrev r0_1 : Rect S12000x64 := Rect.unit (s := S12000x64) ![0, 0] S12000x64.size inb_S12000x64_S12000x64_0_0

/-! ## What the body leaves in the output window's buffer -/

/-- Window 2's staging buffer after the body, from the input windows' blocks: its one store, of the product's
    payload over the two loaded blocks. -/
def out0_2 (x0 : Vec F S12000x1 .f32) (x1 : Vec F S12000x64 .f32) : Vec F S12000x64 .f32 :=
  View.canon [⟨r0_1, k0_pay1 (View.ld x0 r0_0) (View.ld x1 r0_1)⟩]

/-- The stored block is the column broadcast along the rows times the block, entry by entry: the one store covers
    the buffer, and a whole-buffer load at zero offsets reads the contents. -/
theorem out0_2_eq (x0 : Vec F S12000x1 .f32) (x1 : Vec F S12000x64 .f32) :
    out0_2 x0 x1 = mulf (broadcastTo S12000x64 (shapeCast S12000x1 x0 shapeCasts_S12000x1_S12000x1) broadcasts_S12000x1_S12000x64) (shapeCast S12000x64 x1 shapeCasts_S12000x64_S12000x64) := by
  have hz0 : (![0, 0] : Fin S12000x1.rank → Nat) = fun _ => 0 := funext fun a => by fin_cases a <;> rfl
  have hz1 : (![0, 0] : Fin S12000x64.rank → Nat) = fun _ => 0 := funext fun a => by fin_cases a <;> rfl
  unfold out0_2
  rw [View.canon_unit_zero hz1, View.ld_unit_zero hz0, View.ld_unit_zero hz1]
  rfl

/-- The one store covers the buffer. -/
theorem cover0_2 (p0 : Vec F S12000x64 .f32) (y : S12000x64.Idx) :
    ∃ pc ∈ ([⟨r0_1, p0⟩] : List (View.Piece (Elt F) S12000x64 .f32)), y ∈ pc.1.set :=
  View.cover_of_tiled [⟨r0_1, p0⟩] S12000x64.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords) (arg1 : Memref sig .tc .vmem S12000x1 .f32) (harg1 : arg1.IsWhole) (arg2 : Memref sig .tc .vmem S12000x64 .f32) (harg2 : arg2.IsWhole) (arg3 : Memref sig .tc .vmem S12000x64 .f32) (harg3 : arg3.IsWhole)
    (x0 : Vec F S12000x1 .f32) (x1 : Vec F S12000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__edge_weight_kernel i arg1 harg1 arg2 harg2 arg3 harg3) K := by
  simp only [cc0__edge_weight_kernel_eq_skeleton]; unfold cc0__edge_weight_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__edge_weight_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole, at zero offsets -/

abbrev r1_0 : Rect S12000x1 := Rect.unit (s := S12000x1) ![0, 0] S12000x1.size inb_S12000x1_S12000x1_0_0
abbrev r1_1 : Rect S12000x64 := Rect.unit (s := S12000x64) ![0, 0] S12000x64.size inb_S12000x64_S12000x64_0_0

/-! ## What the body leaves in the output window's buffer -/

/-- Window 2's staging buffer after the body, from the input windows' blocks: its one store, of the product's
    payload over the two loaded blocks. -/
def out1_2 (x0 : Vec F S12000x1 .f32) (x1 : Vec F S12000x64 .f32) : Vec F S12000x64 .f32 :=
  View.canon [⟨r1_1, k1_pay1 (View.ld x0 r1_0) (View.ld x1 r1_1)⟩]

/-- The stored block is the column broadcast along the rows times the block, entry by entry: the one store covers
    the buffer, and a whole-buffer load at zero offsets reads the contents. -/
theorem out1_2_eq (x0 : Vec F S12000x1 .f32) (x1 : Vec F S12000x64 .f32) :
    out1_2 x0 x1 = mulf (broadcastTo S12000x64 (shapeCast S12000x1 x0 shapeCasts_S12000x1_S12000x1) broadcasts_S12000x1_S12000x64) (shapeCast S12000x64 x1 shapeCasts_S12000x64_S12000x64) := by
  have hz0 : (![0, 0] : Fin S12000x1.rank → Nat) = fun _ => 0 := funext fun a => by fin_cases a <;> rfl
  have hz1 : (![0, 0] : Fin S12000x64.rank → Nat) = fun _ => 0 := funext fun a => by fin_cases a <;> rfl
  unfold out1_2
  rw [View.canon_unit_zero hz1, View.ld_unit_zero hz0, View.ld_unit_zero hz1]
  rfl

/-- The one store covers the buffer. -/
theorem cover1_2 (p0 : Vec F S12000x64 .f32) (y : S12000x64.Idx) :
    ∃ pc ∈ ([⟨r1_1, p0⟩] : List (View.Piece (Elt F) S12000x64 .f32)), y ∈ pc.1.set :=
  View.cover_of_tiled [⟨r1_1, p0⟩] S12000x64.size (by rfl) y

/-! ## The body's triple -/

set_option maxHeartbeats 1000000 in
/-- The kernel body on whole staging memrefs, the inputs' at contents `x0`, `x1` and the output's at anything, runs
    to the continuation holding the inputs' as they were and the output's at `out1_2 x0 x1`. -/
theorem sound_kernel1 (c : Dev nD) (E : Set ℕ) (i : grid1.Coords) (arg1 : Memref sig .tc .vmem S12000x1 .f32) (harg1 : arg1.IsWhole) (arg2 : Memref sig .tc .vmem S12000x64 .f32) (harg2 : arg2.IsWhole) (arg3 : Memref sig .tc .vmem S12000x64 .f32) (harg3 : arg3.IsWhole)
    (x0 : Vec F S12000x1 .f32) (x1 : Vec F S12000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__edge_weight_kernel i arg1 harg1 arg2 harg2 arg3 harg3) K := by
  simp only [cc1__edge_weight_kernel_eq_skeleton]; unfold cc1__edge_weight_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so `sound_kernel1`
    applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: `cc2__edge_weight_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole, at zero offsets -/

abbrev r2_0 : Rect S12000x1 := Rect.unit (s := S12000x1) ![0, 0] S12000x1.size inb_S12000x1_S12000x1_0_0
abbrev r2_1 : Rect S12000x64 := Rect.unit (s := S12000x64) ![0, 0] S12000x64.size inb_S12000x64_S12000x64_0_0

/-! ## What the body leaves in the output window's buffer -/

/-- Window 2's staging buffer after the body, from the input windows' blocks: its one store, of the product's
    payload over the two loaded blocks. -/
def out2_2 (x0 : Vec F S12000x1 .f32) (x1 : Vec F S12000x64 .f32) : Vec F S12000x64 .f32 :=
  View.canon [⟨r2_1, k2_pay1 (View.ld x0 r2_0) (View.ld x1 r2_1)⟩]

/-- The stored block is the column broadcast along the rows times the block, entry by entry: the one store covers
    the buffer, and a whole-buffer load at zero offsets reads the contents. -/
theorem out2_2_eq (x0 : Vec F S12000x1 .f32) (x1 : Vec F S12000x64 .f32) :
    out2_2 x0 x1 = mulf (broadcastTo S12000x64 (shapeCast S12000x1 x0 shapeCasts_S12000x1_S12000x1) broadcasts_S12000x1_S12000x64) (shapeCast S12000x64 x1 shapeCasts_S12000x64_S12000x64) := by
  have hz0 : (![0, 0] : Fin S12000x1.rank → Nat) = fun _ => 0 := funext fun a => by fin_cases a <;> rfl
  have hz1 : (![0, 0] : Fin S12000x64.rank → Nat) = fun _ => 0 := funext fun a => by fin_cases a <;> rfl
  unfold out2_2
  rw [View.canon_unit_zero hz1, View.ld_unit_zero hz0, View.ld_unit_zero hz1]
  rfl

/-- The one store covers the buffer. -/
theorem cover2_2 (p0 : Vec F S12000x64 .f32) (y : S12000x64.Idx) :
    ∃ pc ∈ ([⟨r2_1, p0⟩] : List (View.Piece (Elt F) S12000x64 .f32)), y ∈ pc.1.set :=
  View.cover_of_tiled [⟨r2_1, p0⟩] S12000x64.size (by rfl) y

/-! ## The body's triple -/

set_option maxHeartbeats 1000000 in
/-- The kernel body on whole staging memrefs, the inputs' at contents `x0`, `x1` and the output's at anything, runs
    to the continuation holding the inputs' as they were and the output's at `out2_2 x0 x1`. -/
theorem sound_kernel2 (c : Dev nD) (E : Set ℕ) (i : grid2.Coords) (arg1 : Memref sig .tc .vmem S12000x1 .f32) (harg1 : arg1.IsWhole) (arg2 : Memref sig .tc .vmem S12000x64 .f32) (harg2 : arg2.IsWhole) (arg3 : Memref sig .tc .vmem S12000x64 .f32) (harg3 : arg3.IsWhole)
    (x0 : Vec F S12000x1 .f32) (x1 : Vec F S12000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__edge_weight_kernel i arg1 harg1 arg2 harg2 arg3 harg3) K := by
  simp only [cc2__edge_weight_kernel_eq_skeleton]; unfold cc2__edge_weight_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BprSharedK.lean ====
/-
  The loss kernel's region (the fourth pallas_call: eight grid points of 2048 batch rows each), the part its
  three cases share. The body keeps two one-element accumulators in scratch memory across the grid: the sum of
  the log-sigmoids of the score differences, and half the sum of the squared norms. At the first point it
  resets both before adding; at the last point, after adding, it writes the loss into the one-element output
  window, which is idle (untouched, not written back) at every other point. Here: the two branch conditions
  decided over the grid, where the windows are live or idle, the staging and scratch memrefs by name, and the
  region invariant with the two scratch buffers named.
-/
import proofs.«178663_j17334488007154_2_alg».proof.Proof.Gen.Kernel.Launch
import proofs.«178663_j17334488007154_2_alg».proof.Proof.Gen.Kernel.Skeleton
import proofs.«178663_j17334488007154_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- "This is the first grid point": the reset of the two accumulators is under it. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- "This is the last grid point": the store of the loss is under it. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are live and where idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the first point the output window is idle and not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- The same at the six middle points. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At the last point the output window is live: the body stores the loss into it. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of the output window, through which its contents are stated. -/
abbrev VO3_3 : View sig .tc .vmem S1x1 .f32 := (Memref.whole cc3_stg3_0 : Memref sig .tc .vmem S1x1 .f32).view
abbrev ms3_0 (t : Fin cfg3.N) : Memref sig .tc .vmem S2048x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1 .f32 := win3_3.stage (cfg3.slots t 3)
abbrev hs3_3 (t : Fin cfg3.N) : (ms3_3 t).IsWhole := hstage3_3 ((cfg3.slots t 3).cast nbuf3_3)
/-- The two accumulators: whole scoped buffers of the kernel's own. -/
abbrev scM3_0 : Memref sig .tc .vmem S1x1 .f32 := Memref.whole cc3_scratch0
abbrev scM3_1 : Memref sig .tc .vmem S1x1 .f32 := Memref.whole cc3_scratch1
abbrev VS3_0 : View sig .tc .vmem S1x1 .f32 := scM3_0.view
abbrev VS3_1 : View sig .tc .vmem S1x1 .f32 := scM3_1.view

/-- The staging buffers of the other three regions, each whole at some contents: scoped buffers this region never
    touches, which ride through it beside the two accumulators. -/
def Oth (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The class invariant opened: the other regions' staging buffers, the two accumulators as memrefs owned at some
    contents, the generator register at some state. -/
theorem PhiA3_split (c : Dev nD) :
    (Pipeline.ΦA spec3 c : sProp 𝕄)
      ⊢ iprop(Oth (F := F) c ∗ (∃ d, owns (c : Thread nD τ) scM3_0 fullShare d) ∗ (∃ d, owns (c : Thread nD τ) scM3_1 fullShare d) ∗ (∃ r, prngReg c r)) := by
  unfold Pipeline.ΦA Oth; rw [scopedRest3_eq]; simp only [scM3_0, scM3_1, owns_whole]
  iintro ⟨⟨H1, H2, H3, H4, H5, H6, H7, H8, H9, H10, H11, H12, H13, H14, H15, H16, H17, H18, HS0, HS1⟩, Hg⟩
  isplitl [H1 H2 H3 H4 H5 H6 H7 H8 H9 H10 H11 H12 H13 H14 H15 H16 H17 H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [HS0]; · iexact HS0
  isplitl [HS1]; · iexact HS1
  iexact Hg

/-- And closed again. -/
theorem PhiA3_join (c : Dev nD) :
    iprop(Oth (F := F) c ∗ (∃ d, owns (c : Thread nD τ) scM3_0 fullShare d) ∗ (∃ d, owns (c : Thread nD τ) scM3_1 fullShare d) ∗ (∃ r, prngReg c r))
      ⊢ (Pipeline.ΦA spec3 c : sProp 𝕄) := by
  unfold Pipeline.ΦA Oth; rw [scopedRest3_eq]; simp only [scM3_0, scM3_1, owns_whole]
  iintro ⟨⟨H1, H2, H3, H4, H5, H6, H7, H8, H9, H10, H11, H12, H13, H14, H15, H16, H17, H18⟩, HS0, HS1, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    iexact HS1
  iexact Hg

end Cert.Kernel.Hand

end
-- ==== Proof.BprRunAK.lean ====
/-
  The loss kernel's body at the FIRST grid point: the two accumulators are reset to zero, then this point's 2048 rows are added; the output window is left untouched.
-/
import proofs.«178663_j17334488007154_2_alg».proof.Proof.BprSharedK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's buffer and in the two accumulators, as pieces (last store
    first), with the proof that on whole memrefs — the three input blocks at their contents — the body runs to the
    continuation holding the inputs as they were and those pieces written. -/
noncomputable def kernelRun3_A (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) :
    Σ' (L4 : List (View.Piece (Elt F) S1x1 .f32)) (LS5 : List (View.Piece (Elt F) S1x1 .f32)), { LS6 : List (View.Piece (Elt F) S1x1 .f32) //
      ∀ (xi4 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare xi4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare xi4 ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc3__bpr_kernel i arg1 harg1 arg2 harg2 arg3 harg3 arg4 harg4 arg5 harg5 arg6 harg6) K } := by
  refine ⟨[], ?_, ?_, fun xi4 E K => ?run⟩
  case run =>
    simp only [cc3__bpr_kernel_eq_skeleton]; unfold cc3__bpr_kernel_skel
    simp only [k3_part1_eq_skeleton]
    unfold owns
    iintro ⟨⟨%f1, %hf1, H1⟩, ⟨%f2, %hf2, H2⟩, ⟨%f3, %hf3, H3⟩, ⟨%f4, %hf4, H4⟩, ⟨%ds5, %fs5, -, HS5⟩, ⟨%ds6, %fs6, -, HS6⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [HS5]; · iexists _; iexact HS5
    iexists _; iexact HS6

end Cert.Kernel.Hand

end
-- ==== Proof.BprRunBK.lean ====
/-
  The loss kernel's body at a MIDDLE grid point: this point's 2048 rows are added to the two accumulators the point before left; the output window is left untouched.
-/
import proofs.«178663_j17334488007154_2_alg».proof.Proof.BprSharedK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's buffer and in the two accumulators, as pieces (last store
    first), with the proof that on whole memrefs — the three input blocks at their contents — the body runs to the
    continuation holding the inputs as they were and those pieces written. -/
noncomputable def kernelRun3_B (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) :
    Σ' (L4 : List (View.Piece (Elt F) S1x1 .f32)) (LS5 : List (View.Piece (Elt F) S1x1 .f32)), { LS6 : List (View.Piece (Elt F) S1x1 .f32) //
      ∀ (xi4 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare xi4 ∗ owns (c : Thread nD τ) arg5 fullShare xs5 ∗ owns (c : Thread nD τ) arg6 fullShare xs6
            ∗ (iprop(owns (c : Thread nD τ) arg1 fullShare x1 ∗ owns (c : Thread nD τ) arg2 fullShare x2 ∗ owns (c : Thread nD τ) arg3 fullShare x3 ∗ owns (c : Thread nD τ) arg4 fullShare xi4 ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc3__bpr_kernel i arg1 harg1 arg2 harg2 arg3 harg3 arg4 harg4 arg5 harg5 arg6 harg6) K } := by
  refine ⟨[], ?_, ?_, fun xi4 E K => ?run⟩
  case run =>
    simp only [cc3__bpr_kernel_eq_skeleton]; unfold cc3__bpr_kernel_skel
    simp only [k3_part1_eq_skeleton]
    unfold owns
    iintro ⟨⟨%f1, %hf1, H1⟩, ⟨%f2, %hf2, H2⟩, ⟨%f3, %hf3, H3⟩, ⟨%f4, %hf4, H4⟩, ⟨%fs5, %hfs5, HS5⟩, ⟨%fs6, %hfs6, HS6⟩, Hk⟩
    obtain rfl := harg1.eq_unread hf1; obtain rfl := harg2.eq_unread hf2; obtain rfl := harg3.eq_unread hf3; obtain rfl := harg4.eq_unread hf4; obtain rfl := harg5.eq_unread hfs5; obtain rfl := harg6.eq_unread hfs6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [HS5]; · iexists _; iexact HS5
    iexists _; iexact HS6

end Cert.Kernel.Hand

end
-- ==== Proof.BprRunCK.lean ====
/-
  The loss kernel's body at the LAST grid point: this point's 2048 rows are added to the two accumulators, and the loss — minus the mean log-sigmoid plus the scaled half sum of squares — is stored into the output window.
-/
import proofs.«178663_j17334488007154_2_alg».proof.Proof.BprSharedK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's buffer and in the two accumulators, as pieces (last store
    first), with the proof that on whole memrefs — the three input blocks at their contents — the body runs to the
    continuation holding the inputs as they were and those pieces written. -/
noncomputable def kernelRun3_C (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) :
    Σ' (L4 : List (View.Piece (Elt F) S1x1 .f32)) (LS5 : List (View.Piece (Elt F) S1x1 .f32)), { LS6 : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare xs5 ∗ owns (c : Thread nD τ) arg6 fullShare xs6
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc3__bpr_kernel i arg1 harg1 arg2 harg2 arg3 harg3 arg4 harg4 arg5 harg5 arg6 harg6) K } := by
  refine ⟨?_, ?_, ?_, fun E K => ?run⟩
  case run =>
    simp only [cc3__bpr_kernel_eq_skeleton]; unfold cc3__bpr_kernel_skel
    simp only [k3_part1_eq_skeleton]
    unfold owns
    iintro ⟨⟨%f1, %hf1, H1⟩, ⟨%f2, %hf2, H2⟩, ⟨%f3, %hf3, H3⟩, ⟨%d4, %f4, -, H4⟩, ⟨%fs5, %hfs5, HS5⟩, ⟨%fs6, %hfs6, HS6⟩, Hk⟩
    obtain rfl := harg1.eq_unread hf1; obtain rfl := harg2.eq_unread hf2; obtain rfl := harg3.eq_unread hf3; obtain rfl := harg5.eq_unread hfs5; obtain rfl := harg6.eq_unread hfs6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [HS5]; · iexists _; iexact HS5
    iexists _; iexact HS6

end Cert.Kernel.Hand

end
-- ==== Proof.BprRegionK.lean ====
/-
  The loss kernel's region assembled from its three cases: what the output window's buffer and the two
  accumulators hold after each grid point (a recursion on the point: the first point starts from the reset, each
  later point adds to what the point before left, the last also stores the loss), the region invariant that
  carries the two accumulators from point to point, the proof data, and the body obligation at every point.
-/
import proofs.«178663_j17334488007154_2_alg».proof.Proof.BprRunAK
import proofs.«178663_j17334488007154_2_alg».proof.Proof.BprRunBK
import proofs.«178663_j17334488007154_2_alg».proof.Proof.BprRunCK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output window's staging buffer: its pieces read back (none: a placeholder nothing consults, the window being idle there). -/
def out3_A_3 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) : Vec F S1x1 .f32 :=
  VO3_3.read (Elt F) (VO3_3.writes (Elt F) VO3_3.junk (kernelRun3_A c i arg1 harg1 arg2 harg2 arg3 harg3 arg4 harg4 arg5 harg5 arg6 harg6 hc0 hc1 x1 x2 x3).1)

/-- Case A's stores into the first accumulator cover it. -/
theorem scover3_A_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) (y : S1x1.Idx) :
    ∃ pc ∈ (kernelRun3_A c i arg1 harg1 arg2 harg2 arg3 harg3 arg4 harg4 arg5 harg5 arg6 harg6 hc0 hc1 x1 x2 x3).2.1, y ∈ pc.1.set :=
  View.cover_of_tiledL (kernelRun3_A c i arg1 harg1 arg2 harg2 arg3 harg3 arg4 harg4 arg5 harg5 arg6 harg6 hc0 hc1 x1 x2 x3).2.1 S1x1.size (by sl_kernel_rfl) y
/-- What case A leaves in the first accumulator. -/
def sout3_A_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) : Vec F S1x1 .f32 :=
  VS3_0.read (Elt F) (VS3_0.writes (Elt F) VS3_0.junk (kernelRun3_A c i arg1 harg1 arg2 harg2 arg3 harg3 arg4 harg4 arg5 harg5 arg6 harg6 hc0 hc1 x1 x2 x3).2.1)
/-- Case A's stores into the second accumulator cover it. -/
theorem scover3_A_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) (y : S1x1.Idx) :
    ∃ pc ∈ (kernelRun3_A c i arg1 harg1 arg2 harg2 arg3 harg3 arg4 harg4 arg5 harg5 arg6 harg6 hc0 hc1 x1 x2 x3).2.2.1, y ∈ pc.1.set :=
  View.cover_of_tiledL (kernelRun3_A c i arg1 harg1 arg2 harg2 arg3 harg3 arg4 harg4 arg5 harg5 arg6 harg6 hc0 hc1 x1 x2 x3).2.2.1 S1x1.size (by sl_kernel_rfl) y
/-- What case A leaves in the second accumulator. -/
def sout3_A_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) : Vec F S1x1 .f32 :=
  VS3_1.read (Elt F) (VS3_1.writes (Elt F) VS3_1.junk (kernelRun3_A c i arg1 harg1 arg2 harg2 arg3 harg3 arg4 harg4 arg5 harg5 arg6 harg6 hc0 hc1 x1 x2 x3).2.2.1)

/-- What case B leaves in the output window's staging buffer: its pieces read back (none: a placeholder nothing consults, the window being idle there). -/
def out3_B_3 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) : Vec F S1x1 .f32 :=
  VO3_3.read (Elt F) (VO3_3.writes (Elt F) VO3_3.junk (kernelRun3_B c i arg1 harg1 arg2 harg2 arg3 harg3 arg4 harg4 arg5 harg5 arg6 harg6 hc0 hc1 x1 x2 x3 xs5 xs6).1)

/-- Case B's stores into the first accumulator cover it. -/
theorem scover3_B_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) (y : S1x1.Idx) :
    ∃ pc ∈ (kernelRun3_B c i arg1 harg1 arg2 harg2 arg3 harg3 arg4 harg4 arg5 harg5 arg6 harg6 hc0 hc1 x1 x2 x3 xs5 xs6).2.1, y ∈ pc.1.set :=
  View.cover_of_tiledL (kernelRun3_B c i arg1 harg1 arg2 harg2 arg3 harg3 arg4 harg4 arg5 harg5 arg6 harg6 hc0 hc1 x1 x2 x3 xs5 xs6).2.1 S1x1.size (by sl_kernel_rfl) y
/-- What case B leaves in the first accumulator. -/
def sout3_B_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) : Vec F S1x1 .f32 :=
  VS3_0.read (Elt F) (VS3_0.writes (Elt F) VS3_0.junk (kernelRun3_B c i arg1 harg1 arg2 harg2 arg3 harg3 arg4 harg4 arg5 harg5 arg6 harg6 hc0 hc1 x1 x2 x3 xs5 xs6).2.1)
/-- Case B's stores into the second accumulator cover it. -/
theorem scover3_B_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) (y : S1x1.Idx) :
    ∃ pc ∈ (kernelRun3_B c i arg1 harg1 arg2 harg2 arg3 harg3 arg4 harg4 arg5 harg5 arg6 harg6 hc0 hc1 x1 x2 x3 xs5 xs6).2.2.1, y ∈ pc.1.set :=
  View.cover_of_tiledL (kernelRun3_B c i arg1 harg1 arg2 harg2 arg3 harg3 arg4 harg4 arg5 harg5 arg6 harg6 hc0 hc1 x1 x2 x3 xs5 xs6).2.2.1 S1x1.size (by sl_kernel_rfl) y
/-- What case B leaves in the second accumulator. -/
def sout3_B_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) : Vec F S1x1 .f32 :=
  VS3_1.read (Elt F) (VS3_1.writes (Elt F) VS3_1.junk (kernelRun3_B c i arg1 harg1 arg2 harg2 arg3 harg3 arg4 harg4 arg5 harg5 arg6 harg6 hc0 hc1 x1 x2 x3 xs5 xs6).2.2.1)

/-- What case C leaves in the output window's staging buffer: its pieces read back. -/
def out3_C_3 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) : Vec F S1x1 .f32 :=
  VO3_3.read (Elt F) (VO3_3.writes (Elt F) VO3_3.junk (kernelRun3_C c i arg1 harg1 arg2 harg2 arg3 harg3 arg4 harg4 arg5 harg5 arg6 harg6 hc0 hc1 x1 x2 x3 xs5 xs6).1)

/-- Case C's one store into the output window covers it. -/
theorem cover3_C_3 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) (y : S1x1.Idx) :
    ∃ pc ∈ (kernelRun3_C c i arg1 harg1 arg2 harg2 arg3 harg3 arg4 harg4 arg5 harg5 arg6 harg6 hc0 hc1 x1 x2 x3 xs5 xs6).1, y ∈ pc.1.set :=
  View.cover_of_tiledL (kernelRun3_C c i arg1 harg1 arg2 harg2 arg3 harg3 arg4 harg4 arg5 harg5 arg6 harg6 hc0 hc1 x1 x2 x3 xs5 xs6).1 S1x1.size (by sl_kernel_rfl) y

/-- Case C's stores into the first accumulator cover it. -/
theorem scover3_C_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) (y : S1x1.Idx) :
    ∃ pc ∈ (kernelRun3_C c i arg1 harg1 arg2 harg2 arg3 harg3 arg4 harg4 arg5 harg5 arg6 harg6 hc0 hc1 x1 x2 x3 xs5 xs6).2.1, y ∈ pc.1.set :=
  View.cover_of_tiledL (kernelRun3_C c i arg1 harg1 arg2 harg2 arg3 harg3 arg4 harg4 arg5 harg5 arg6 harg6 hc0 hc1 x1 x2 x3 xs5 xs6).2.1 S1x1.size (by sl_kernel_rfl) y
/-- What case C leaves in the first accumulator. -/
def sout3_C_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) : Vec F S1x1 .f32 :=
  VS3_0.read (Elt F) (VS3_0.writes (Elt F) VS3_0.junk (kernelRun3_C c i arg1 harg1 arg2 harg2 arg3 harg3 arg4 harg4 arg5 harg5 arg6 harg6 hc0 hc1 x1 x2 x3 xs5 xs6).2.1)
/-- Case C's stores into the second accumulator cover it. -/
theorem scover3_C_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) (y : S1x1.Idx) :
    ∃ pc ∈ (kernelRun3_C c i arg1 harg1 arg2 harg2 arg3 harg3 arg4 harg4 arg5 harg5 arg6 harg6 hc0 hc1 x1 x2 x3 xs5 xs6).2.2.1, y ∈ pc.1.set :=
  View.cover_of_tiledL (kernelRun3_C c i arg1 harg1 arg2 harg2 arg3 harg3 arg4 harg4 arg5 harg5 arg6 harg6 hc0 hc1 x1 x2 x3 xs5 xs6).2.2.1 S1x1.size (by sl_kernel_rfl) y
/-- What case C leaves in the second accumulator. -/
def sout3_C_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) : Vec F S1x1 .f32 :=
  VS3_1.read (Elt F) (VS3_1.writes (Elt F) VS3_1.junk (kernelRun3_C c i arg1 harg1 arg2 harg2 arg3 harg3 arg4 harg4 arg5 harg5 arg6 harg6 hc0 hc1 x1 x2 x3 xs5 xs6).2.2.1)

/-! ## What the buffers hold after each point -/

/-- THE ACCUMULATION: after the body at position `n`, the output window's buffer and the two accumulators. Position 0
    is the first point's case; a later position is the last point's case at 7 and the middle case otherwise, each over
    the accumulators the position before left. -/
def outsAt3 (c : Dev nD) : (n : ℕ) → n < cfg3.N → Vec F S1x1 .f32 × Vec F S1x1 .f32 × Vec F S1x1 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩), sout3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩), sout3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      False.elim (by have hN : n + 1 < 8 := lt_of_lt_of_eq hn (show cfg3.N = 8 from N_3); omega)
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, sout3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, sout3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, sout3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, sout3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) ((hcond3_0 t).mpr h0) (fun h => h1 ((hcond3_1 t).mp h)) (iblk3 V c 0 t) (iblk3 V c 1 t) (iblk3 V c 2 t), sout3_A_5 c (grid3.coords t) (ms3_0 t) (hs3_0 t) (ms3_1 t) (hs3_1 t) (ms3_2 t) (hs3_2 t) (ms3_3 t) (hs3_3 t) scM3_0 (Memref.isWhole_whole _) scM3_1 (Memref.isWhole_whole _) ((hcond3_0 t).mpr h0) (fun h => h1 ((hcond3_1 t).mp h)) (iblk3 V c 0 t) (iblk3 V c 1 t) (iblk3 V c 2 t), sout3_A_6 c (grid3.coords t) (ms3_0 t) (hs3_0 t) (ms3_1 t) (hs3_1 t) (ms3_2 t) (hs3_2 t) (ms3_3 t) (hs3_3 t) scM3_0 (Memref.isWhole_whole _) scM3_1 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (by exfalso; have hN : n + 1 < 8 := lt_of_lt_of_eq hn (show cfg3.N = 8 from N_3); (try dsimp only at h0); omega)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, sout3_B_5 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, sout3_B_6 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, sout3_C_5 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, sout3_C_6 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (every scoped buffer at anything); afterwards the other
    regions' staging buffers, the two accumulators at what the position before left, the generator register. -/
def PhiS3 (c : Dev nD) : (n : ℕ) → n ≤ cfg3.N → sProp 𝕄
  | 0, _ => Pipeline.ΦA spec3 c
  | n + 1, hn => iprop(Oth (F := F) c ∗ owns (c : Thread nD τ) scM3_0 fullShare ((outsAt3 V c n hn).2.1) ∗ owns (c : Thread nD τ) scM3_1 fullShare ((outsAt3 V c n hn).2.2) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(Oth (F := F) c ∗ owns (c : Thread nD τ) scM3_0 fullShare ((outsAt3 V c n hn).2.1) ∗ owns (c : Thread nD τ) scM3_1 fullShare ((outsAt3 V c n hn).2.2) ∗ (∃ r, prngReg c r)) := rfl
theorem PhiS3_pos (c : Dev nD) (n : ℕ) (h : n ≤ cfg3.N) (hz : n ≠ 0) :
    PhiS3 V c n h = iprop(Oth (F := F) c ∗ owns (c : Thread nD τ) scM3_0 fullShare ((outsAt3 V c (n - 1) (by omega)).2.1) ∗ owns (c : Thread nD τ) scM3_1 fullShare ((outsAt3 V c (n - 1) (by omega)).2.2) ∗ (∃ r, prngReg c r)) := by
  cases n with
  | zero => exact absurd rfl hz
  | succ n => rfl

/-! ## The proof data -/

/-- The region's proof data on core `c`: the arrays as the region finds them; after the body at a point each input's
    buffer at its block and the output's at the accumulation's first component; the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms of the two conditions say which
    case the point is in; the invariant hands the body the accumulators at what the point before left (at anything at
    the first point) and takes them back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  by_cases h0 : t.val % 8 = 0
  · have h1 : ¬t.val % 8 = 7 := by omega
    have hz : t.val = 0 := by omega
    rw [show (dat3 V c).leavesExact 0 t = owns (c : Thread nD τ) (ms3_0 t) fullShare ((dat3 V c).after 0 t) from by
        unfold Dat.leavesExact; rw [liveAt3_0 t], after3_0]
    rw [show (dat3 V c).leavesExact 1 t = owns (c : Thread nD τ) (ms3_1 t) fullShare ((dat3 V c).after 1 t) from by
        unfold Dat.leavesExact; rw [liveAt3_1 t], after3_1]
    rw [show (dat3 V c).leavesExact 2 t = owns (c : Thread nD τ) (ms3_2 t) fullShare ((dat3 V c).after 2 t) from by
        unfold Dat.leavesExact; rw [liveAt3_2 t], after3_2]
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A_5 sout3_A_6; (try dsimp only)
    rw [PhiS3_castSucc V c t, PhiS3_zero V c _ _ hz]
    iintro ⟨HΦ, Ho, ⟨%d0, H0⟩, ⟨%d1, H1⟩, ⟨%d2, H2⟩, ⟨%d3, H3⟩⟩
    ihave HΦ' := (PhiA3_split (F := F) c) $$ HΦ
    icases HΦ' with ⟨HO, HS5, HS6, Hg⟩
    iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ Set.univ _)
    isplitl [H0]; · iexact H0
    isplitl [H1]; · iexact H1
    isplitl [H2]; · iexact H2
    isplitl [H3]; · iexact H3
    isplitl [HS5]; · iexact HS5
    isplitl [HS6]; · iexact HS6
    iintro ⟨H0, H1, H2, H3, ⟨%es5, HS5⟩, ⟨%es6, HS6⟩⟩
    isplitl [HO HS5 HS6 Hg]
    · isplitl [HO]; · iexact HO
      isplitl [HS5]
      · unfold owns; iexists _; isplitr
        swap; · iexact HS5
        ipureintro; exact View.read_writes_of_cover _ _ _ _ _ (scover3_A_5 c _ _ _ _ _ _ _ _ _ _ _ _ _ _ _ _ _ _)
      isplitl [HS6]
      · unfold owns; iexists _; isplitr
        swap; · iexact HS6
        ipureintro; exact View.read_writes_of_cover _ _ _ _ _ (scover3_A_6 c _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 8 = 7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_5 sout3_C_6; (try dsimp only)
      rw [PhiS3_castSucc V c t, PhiS3_pos V c _ _ hz]
      iintro ⟨⟨HO, HS5, HS6, Hg⟩, Ho, ⟨%d0, H0⟩, ⟨%d1, H1⟩, ⟨%d2, H2⟩, ⟨%d3, H3⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _ _).2.2.2 Set.univ _)
      isplitl [H0]; · iexact H0
      isplitl [H1]; · iexact H1
      isplitl [H2]; · iexact H2
      isplitl [H3]; · iexists _; iexact H3
      isplitl [HS5]; · iexact HS5
      isplitl [HS6]; · iexact HS6
      iintro ⟨H0, H1, H2, ⟨%e3, H3⟩, ⟨%es5, HS5⟩, ⟨%es6, HS6⟩⟩
      isplitl [HO HS5 HS6 Hg]
      · isplitl [HO]; · iexact HO
        isplitl [HS5]
        · unfold owns; iexists _; isplitr
          swap; · iexact HS5
          ipureintro; exact View.read_writes_of_cover _ _ _ _ _ (scover3_C_5 c _ _ _ _ _ _ _ _ _ _ _ _ _ _ _ _ _ _ _ _)
        isplitl [HS6]
        · unfold owns; iexists _; isplitr
          swap; · iexact HS6
          ipureintro; exact View.read_writes_of_cover _ _ _ _ _ (scover3_C_6 c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_5 sout3_B_6; (try dsimp only)
      rw [PhiS3_castSucc V c t, PhiS3_pos V c _ _ hz]
      iintro ⟨⟨HO, HS5, HS6, Hg⟩, Ho, ⟨%d0, H0⟩, ⟨%d1, H1⟩, ⟨%d2, H2⟩, ⟨%d3, H3⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _ _).2.2.2 _ Set.univ _)
      isplitl [H0]; · iexact H0
      isplitl [H1]; · iexact H1
      isplitl [H2]; · iexact H2
      isplitl [H3]; · iexact H3
      isplitl [HS5]; · iexact HS5
      isplitl [HS6]; · iexact HS6
      iintro ⟨H0, H1, H2, H3, ⟨%es5, HS5⟩, ⟨%es6, HS6⟩⟩
      isplitl [HO HS5 HS6 Hg]
      · isplitl [HO]; · iexact HO
        isplitl [HS5]
        · unfold owns; iexists _; isplitr
          swap; · iexact HS5
          ipureintro; exact View.read_writes_of_cover _ _ _ _ _ (scover3_B_5 c _ _ _ _ _ _ _ _ _ _ _ _ _ _ _ _ _ _ _ _)
        isplitl [HS6]
        · unfold owns; iexists _; isplitr
          swap; · iexact HS6
          ipureintro; exact View.read_writes_of_cover _ _ _ _ _ (scover3_B_6 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulators' contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega)]
  iintro ⟨HO, HS5, HS6, Hg⟩
  iapply (PhiA3_join (F := F) c)
  isplitl [HO]; · iexact HO
  isplitl [HS5]; · iexists _; iexact HS5
  isplitl [HS6]; · iexists _; iexact HS6
  iexact Hg

end Cert.Kernel.Hand

end
-- ==== Proof.KRunK.lean ====
/-
  The whole program as a run: host operations, the three edge-weighting regions, the loss region, the closing
  reshape. The contents of every unscoped buffer at each boundary are a fold from the launch memory: a stretch of host
  operations applies them, a region replaces its output array by what its write-backs leave. Every weakly fair
  execution terminates with every unscoped buffer at the last fold's contents; the argument arrays read back through
  the fold to their launch contents, which is the frame.
-/
import proofs.«178663_j17334488007154_2_alg».proof.Proof.EdgeRegionsK
import proofs.«178663_j17334488007154_2_alg».proof.Proof.BprRegionK
import proofs.«178663_j17334488007154_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s unscoped buffers at launch. -/
abbrev B0 : Dev nD → Valuation τ sig (Elt F) := fun c b => m (c, b)

/-- After the host operations before region 0: its entry contents. -/
abbrev B1 : Dev nD → Valuation τ sig (Elt F) := fun c => StableHlo.after hostOps0 (B0 m c)
/-- The same read at the TensorCore's references (what region 0's proof data take). -/
abbrev En1 : (c : Dev nD) → (b : Ref sig .tc) → Buf (Elt F) ((c : Thread nD τ).loc b) := fun c b => B1 m c b
/-- At region 0's exit: its arrays at what the pipeline leaves (the inputs as entered, the output's write-backs folded),
    every other buffer as entered. -/
def B2 (c : Dev nD) : Valuation τ sig (Elt F) :=
  Pipeline.withArrays spec0 c (B1 m c) fun w => (dat0 (En1 m) c).arrAt w cfg0.N
theorem B2_arr (c : Dev nD) (w : Fin cfg0.W) :
    B2 m c (Proc.devRef .tc (Pipeline.arrRef spec0 w)) = (dat0 (En1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Ex2 : (c : Dev nD) → (b : Ref sig .tc) → Buf (Elt F) ((c : Thread nD τ).loc b) := fun c b => B2 m c b
theorem hF0 (c : Dev nD) (w : Fin cfg0.W) : (dat0 (En1 m) c).arrAt w cfg0.N = Ex2 m c (Pipeline.arrRef spec0 w) :=
  (B2_arr m c w).symm
theorem hrest0 (c : Dev nD) : ∀ b, b ∉ Finset.univ.image (Pipeline.arrRef spec0) → Ex2 m c b = En1 m c b :=
  fun b hb => B2_of_ne m c b fun w e => hb (Finset.mem_image.mpr ⟨w, Finset.mem_univ _, e⟩)

/-- After the host operations before region 1: its entry contents. -/
abbrev B3 : Dev nD → Valuation τ sig (Elt F) := fun c => StableHlo.after hostOps1 (B2 m c)
/-- The same read at the TensorCore's references (what region 1's proof data take). -/
abbrev En3 : (c : Dev nD) → (b : Ref sig .tc) → Buf (Elt F) ((c : Thread nD τ).loc b) := fun c b => B3 m c b
/-- At region 1's exit: its arrays at what the pipeline leaves (the inputs as entered, the output's write-backs folded),
    every other buffer as entered. -/
def B4 (c : Dev nD) : Valuation τ sig (Elt F) :=
  Pipeline.withArrays spec1 c (B3 m c) fun w => (dat1 (En3 m) c).arrAt w cfg1.N
theorem B4_arr (c : Dev nD) (w : Fin cfg1.W) :
    B4 m c (Proc.devRef .tc (Pipeline.arrRef spec1 w)) = (dat1 (En3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev Ex4 : (c : Dev nD) → (b : Ref sig .tc) → Buf (Elt F) ((c : Thread nD τ).loc b) := fun c b => B4 m c b
theorem hF1 (c : Dev nD) (w : Fin cfg1.W) : (dat1 (En3 m) c).arrAt w cfg1.N = Ex4 m c (Pipeline.arrRef spec1 w) :=
  (B4_arr m c w).symm
theorem hrest1 (c : Dev nD) : ∀ b, b ∉ Finset.univ.image (Pipeline.arrRef spec1) → Ex4 m c b = En3 m c b :=
  fun b hb => B4_of_ne m c b fun w e => hb (Finset.mem_image.mpr ⟨w, Finset.mem_univ _, e⟩)

/-- After the host operations before region 2: its entry contents. -/
abbrev B5 : Dev nD → Valuation τ sig (Elt F) := fun c => StableHlo.after hostOps2 (B4 m c)
/-- The same read at the TensorCore's references (what region 2's proof data take). -/
abbrev En5 : (c : Dev nD) → (b : Ref sig .tc) → Buf (Elt F) ((c : Thread nD τ).loc b) := fun c b => B5 m c b
/-- At region 2's exit: its arrays at what the pipeline leaves (the inputs as entered, the output's write-backs folded),
    every other buffer as entered. -/
def B6 (c : Dev nD) : Valuation τ sig (Elt F) :=
  Pipeline.withArrays spec2 c (B5 m c) fun w => (dat2 (En5 m) c).arrAt w cfg2.N
theorem B6_arr (c : Dev nD) (w : Fin cfg2.W) :
    B6 m c (Proc.devRef .tc (Pipeline.arrRef spec2 w)) = (dat2 (En5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev Ex6 : (c : Dev nD) → (b : Ref sig .tc) → Buf (Elt F) ((c : Thread nD τ).loc b) := fun c b => B6 m c b
theorem hF2 (c : Dev nD) (w : Fin cfg2.W) : (dat2 (En5 m) c).arrAt w cfg2.N = Ex6 m c (Pipeline.arrRef spec2 w) :=
  (B6_arr m c w).symm
theorem hrest2 (c : Dev nD) : ∀ b, b ∉ Finset.univ.image (Pipeline.arrRef spec2) → Ex6 m c b = En5 m c b :=
  fun b hb => B6_of_ne m c b fun w e => hb (Finset.mem_image.mpr ⟨w, Finset.mem_univ _, e⟩)

/-- After the host operations before region 3: its entry contents. -/
abbrev B7 : Dev nD → Valuation τ sig (Elt F) := fun c => StableHlo.after hostOps3 (B6 m c)
/-- The same read at the TensorCore's references (what region 3's proof data take). -/
abbrev En7 : (c : Dev nD) → (b : Ref sig .tc) → Buf (Elt F) ((c : Thread nD τ).loc b) := fun c b => B7 m c b
/-- At region 3's exit: its arrays at what the pipeline leaves (the inputs as entered, the output's write-backs folded),
    every other buffer as entered. -/
def B8 (c : Dev nD) : Valuation τ sig (Elt F) :=
  Pipeline.withArrays spec3 c (B7 m c) fun w => (dat3 (En7 m) c).arrAt w cfg3.N
theorem B8_arr (c : Dev nD) (w : Fin cfg3.W) :
    B8 m c (Proc.devRef .tc (Pipeline.arrRef spec3 w)) = (dat3 (En7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev Ex8 : (c : Dev nD) → (b : Ref sig .tc) → Buf (Elt F) ((c : Thread nD τ).loc b) := fun c b => B8 m c b
theorem hF3 (c : Dev nD) (w : Fin cfg3.W) : (dat3 (En7 m) c).arrAt w cfg3.N = Ex8 m c (Pipeline.arrRef spec3 w) :=
  (B8_arr m c w).symm
theorem hrest3 (c : Dev nD) : ∀ b, b ∉ Finset.univ.image (Pipeline.arrRef spec3) → Ex8 m c b = En7 m c b :=
  fun b hb => B8_of_ne m c b fun w e => hb (Finset.mem_image.mpr ⟨w, Finset.mem_univ _, e⟩)

/-- After the last host operation (the reshape of the one-element result). -/
abbrev B9 : Dev nD → Valuation τ sig (Elt F) := fun c => StableHlo.after hostOps4 (B8 m c)

/-! ## The arguments end as launched -/

theorem B9_main_arg0 (c : Dev nD) : B9 m c (Proc.devRef .tc main_arg0) = m ((c : Thread nD τ).loc main_arg0) :=
  calc B9 m c (Proc.devRef .tc main_arg0)
    _ = B8 m c (Proc.devRef .tc main_arg0) := StableHlo.after_of_writes_sub hostOps4 _ hostOps4_writes (r := main_arg0) (by decide)
    _ = B7 m c (Proc.devRef .tc main_arg0) := B8_of_ne m c main_arg0 (by decide)
    _ = B6 m c (Proc.devRef .tc main_arg0) := StableHlo.after_of_writes_sub hostOps3 _ hostOps3_writes (r := main_arg0) (by decide)
    _ = B5 m c (Proc.devRef .tc main_arg0) := B6_of_ne m c main_arg0 (by decide)
    _ = B4 m c (Proc.devRef .tc main_arg0) := StableHlo.after_of_writes_sub hostOps2 _ hostOps2_writes (r := main_arg0) (by decide)
    _ = B3 m c (Proc.devRef .tc main_arg0) := B4_of_ne m c main_arg0 (by decide)
    _ = B2 m c (Proc.devRef .tc main_arg0) := StableHlo.after_of_writes_sub hostOps1 _ hostOps1_writes (r := main_arg0) (by decide)
    _ = B1 m c (Proc.devRef .tc main_arg0) := B2_of_ne m c main_arg0 (by decide)
    _ = B0 m c (Proc.devRef .tc main_arg0) := StableHlo.after_of_writes_sub hostOps0 _ hostOps0_writes (r := main_arg0) (by decide)
    _ = m ((c : Thread nD τ).loc main_arg0) := rfl

theorem B9_main_arg1 (c : Dev nD) : B9 m c (Proc.devRef .tc main_arg1) = m ((c : Thread nD τ).loc main_arg1) :=
  calc B9 m c (Proc.devRef .tc main_arg1)
    _ = B8 m c (Proc.devRef .tc main_arg1) := StableHlo.after_of_writes_sub hostOps4 _ hostOps4_writes (r := main_arg1) (by decide)
    _ = B7 m c (Proc.devRef .tc main_arg1) := B8_of_ne m c main_arg1 (by decide)
    _ = B6 m c (Proc.devRef .tc main_arg1) := StableHlo.after_of_writes_sub hostOps3 _ hostOps3_writes (r := main_arg1) (by decide)
    _ = B5 m c (Proc.devRef .tc main_arg1) := B6_of_ne m c main_arg1 (by decide)
    _ = B4 m c (Proc.devRef .tc main_arg1) := StableHlo.after_of_writes_sub hostOps2 _ hostOps2_writes (r := main_arg1) (by decide)
    _ = B3 m c (Proc.devRef .tc main_arg1) := B4_of_ne m c main_arg1 (by decide)
    _ = B2 m c (Proc.devRef .tc main_arg1) := StableHlo.after_of_writes_sub hostOps1 _ hostOps1_writes (r := main_arg1) (by decide)
    _ = B1 m c (Proc.devRef .tc main_arg1) := B2_of_ne m c main_arg1 (by decide)
    _ = B0 m c (Proc.devRef .tc main_arg1) := StableHlo.after_of_writes_sub hostOps0 _ hostOps0_writes (r := main_arg1) (by decide)
    _ = m ((c : Thread nD τ).loc main_arg1) := rfl

theorem B9_main_arg2 (c : Dev nD) : B9 m c (Proc.devRef .tc main_arg2) = m ((c : Thread nD τ).loc main_arg2) :=
  calc B9 m c (Proc.devRef .tc main_arg2)
    _ = B8 m c (Proc.devRef .tc main_arg2) := StableHlo.after_of_writes_sub hostOps4 _ hostOps4_writes (r := main_arg2) (by decide)
    _ = B7 m c (Proc.devRef .tc main_arg2) := B8_of_ne m c main_arg2 (by decide)
    _ = B6 m c (Proc.devRef .tc main_arg2) := StableHlo.after_of_writes_sub hostOps3 _ hostOps3_writes (r := main_arg2) (by decide)
    _ = B5 m c (Proc.devRef .tc main_arg2) := B6_of_ne m c main_arg2 (by decide)
    _ = B4 m c (Proc.devRef .tc main_arg2) := StableHlo.after_of_writes_sub hostOps2 _ hostOps2_writes (r := main_arg2) (by decide)
    _ = B3 m c (Proc.devRef .tc main_arg2) := B4_of_ne m c main_arg2 (by decide)
    _ = B2 m c (Proc.devRef .tc main_arg2) := StableHlo.after_of_writes_sub hostOps1 _ hostOps1_writes (r := main_arg2) (by decide)
    _ = B1 m c (Proc.devRef .tc main_arg2) := B2_of_ne m c main_arg2 (by decide)
    _ = B0 m c (Proc.devRef .tc main_arg2) := StableHlo.after_of_writes_sub hostOps0 _ hostOps0_writes (r := main_arg2) (by decide)
    _ = m ((c : Thread nD τ).loc main_arg2) := rfl

theorem B9_main_arg3 (c : Dev nD) : B9 m c (Proc.devRef .tc main_arg3) = m ((c : Thread nD τ).loc main_arg3) :=
  calc B9 m c (Proc.devRef .tc main_arg3)
    _ = B8 m c (Proc.devRef .tc main_arg3) := StableHlo.after_of_writes_sub hostOps4 _ hostOps4_writes (r := main_arg3) (by decide)
    _ = B7 m c (Proc.devRef .tc main_arg3) := B8_of_ne m c main_arg3 (by decide)
    _ = B6 m c (Proc.devRef .tc main_arg3) := StableHlo.after_of_writes_sub hostOps3 _ hostOps3_writes (r := main_arg3) (by decide)
    _ = B5 m c (Proc.devRef .tc main_arg3) := B6_of_ne m c main_arg3 (by decide)
    _ = B4 m c (Proc.devRef .tc main_arg3) := StableHlo.after_of_writes_sub hostOps2 _ hostOps2_writes (r := main_arg3) (by decide)
    _ = B3 m c (Proc.devRef .tc main_arg3) := B4_of_ne m c main_arg3 (by decide)
    _ = B2 m c (Proc.devRef .tc main_arg3) := StableHlo.after_of_writes_sub hostOps1 _ hostOps1_writes (r := main_arg3) (by decide)
    _ = B1 m c (Proc.devRef .tc main_arg3) := B2_of_ne m c main_arg3 (by decide)
    _ = B0 m c (Proc.devRef .tc main_arg3) := StableHlo.after_of_writes_sub hostOps0 _ hostOps0_writes (r := main_arg3) (by decide)
    _ = m ((c : Thread nD τ).loc main_arg3) := rfl

theorem B9_main_arg4 (c : Dev nD) : B9 m c (Proc.devRef .tc main_arg4) = m ((c : Thread nD τ).loc main_arg4) :=
  calc B9 m c (Proc.devRef .tc main_arg4)
    _ = B8 m c (Proc.devRef .tc main_arg4) := StableHlo.after_of_writes_sub hostOps4 _ hostOps4_writes (r := main_arg4) (by decide)
    _ = B7 m c (Proc.devRef .tc main_arg4) := B8_of_ne m c main_arg4 (by decide)
    _ = B6 m c (Proc.devRef .tc main_arg4) := StableHlo.after_of_writes_sub hostOps3 _ hostOps3_writes (r := main_arg4) (by decide)
    _ = B5 m c (Proc.devRef .tc main_arg4) := B6_of_ne m c main_arg4 (by decide)
    _ = B4 m c (Proc.devRef .tc main_arg4) := StableHlo.after_of_writes_sub hostOps2 _ hostOps2_writes (r := main_arg4) (by decide)
    _ = B3 m c (Proc.devRef .tc main_arg4) := B4_of_ne m c main_arg4 (by decide)
    _ = B2 m c (Proc.devRef .tc main_arg4) := StableHlo.after_of_writes_sub hostOps1 _ hostOps1_writes (r := main_arg4) (by decide)
    _ = B1 m c (Proc.devRef .tc main_arg4) := B2_of_ne m c main_arg4 (by decide)
    _ = B0 m c (Proc.devRef .tc main_arg4) := StableHlo.after_of_writes_sub hostOps0 _ hostOps0_writes (r := main_arg4) (by decide)
    _ = m ((c : Thread nD τ).loc main_arg4) := rfl

theorem B9_main_arg5 (c : Dev nD) : B9 m c (Proc.devRef .tc main_arg5) = m ((c : Thread nD τ).loc main_arg5) :=
  calc B9 m c (Proc.devRef .tc main_arg5)
    _ = B8 m c (Proc.devRef .tc main_arg5) := StableHlo.after_of_writes_sub hostOps4 _ hostOps4_writes (r := main_arg5) (by decide)
    _ = B7 m c (Proc.devRef .tc main_arg5) := B8_of_ne m c main_arg5 (by decide)
    _ = B6 m c (Proc.devRef .tc main_arg5) := StableHlo.after_of_writes_sub hostOps3 _ hostOps3_writes (r := main_arg5) (by decide)
    _ = B5 m c (Proc.devRef .tc main_arg5) := B6_of_ne m c main_arg5 (by decide)
    _ = B4 m c (Proc.devRef .tc main_arg5) := StableHlo.after_of_writes_sub hostOps2 _ hostOps2_writes (r := main_arg5) (by decide)
    _ = B3 m c (Proc.devRef .tc main_arg5) := B4_of_ne m c main_arg5 (by decide)
    _ = B2 m c (Proc.devRef .tc main_arg5) := StableHlo.after_of_writes_sub hostOps1 _ hostOps1_writes (r := main_arg5) (by decide)
    _ = B1 m c (Proc.devRef .tc main_arg5) := B2_of_ne m c main_arg5 (by decide)
    _ = B0 m c (Proc.devRef .tc main_arg5) := StableHlo.after_of_writes_sub hostOps0 _ hostOps0_writes (r := main_arg5) (by decide)
    _ = m ((c : Thread nD τ).loc main_arg5) := rfl

theorem B9_main_arg6 (c : Dev nD) : B9 m c (Proc.devRef .tc main_arg6) = m ((c : Thread nD τ).loc main_arg6) :=
  calc B9 m c (Proc.devRef .tc main_arg6)
    _ = B8 m c (Proc.devRef .tc main_arg6) := StableHlo.after_of_writes_sub hostOps4 _ hostOps4_writes (r := main_arg6) (by decide)
    _ = B7 m c (Proc.devRef .tc main_arg6) := B8_of_ne m c main_arg6 (by decide)
    _ = B6 m c (Proc.devRef .tc main_arg6) := StableHlo.after_of_writes_sub hostOps3 _ hostOps3_writes (r := main_arg6) (by decide)
    _ = B5 m c (Proc.devRef .tc main_arg6) := B6_of_ne m c main_arg6 (by decide)
    _ = B4 m c (Proc.devRef .tc main_arg6) := StableHlo.after_of_writes_sub hostOps2 _ hostOps2_writes (r := main_arg6) (by decide)
    _ = B3 m c (Proc.devRef .tc main_arg6) := B4_of_ne m c main_arg6 (by decide)
    _ = B2 m c (Proc.devRef .tc main_arg6) := StableHlo.after_of_writes_sub hostOps1 _ hostOps1_writes (r := main_arg6) (by decide)
    _ = B1 m c (Proc.devRef .tc main_arg6) := B2_of_ne m c main_arg6 (by decide)
    _ = B0 m c (Proc.devRef .tc main_arg6) := StableHlo.after_of_writes_sub hostOps0 _ hostOps0_writes (r := main_arg6) (by decide)
    _ = m ((c : Thread nD τ).loc main_arg6) := rfl

theorem B9_main_arg7 (c : Dev nD) : B9 m c (Proc.devRef .tc main_arg7) = m ((c : Thread nD τ).loc main_arg7) :=
  calc B9 m c (Proc.devRef .tc main_arg7)
    _ = B8 m c (Proc.devRef .tc main_arg7) := StableHlo.after_of_writes_sub hostOps4 _ hostOps4_writes (r := main_arg7) (by decide)
    _ = B7 m c (Proc.devRef .tc main_arg7) := B8_of_ne m c main_arg7 (by decide)
    _ = B6 m c (Proc.devRef .tc main_arg7) := StableHlo.after_of_writes_sub hostOps3 _ hostOps3_writes (r := main_arg7) (by decide)
    _ = B5 m c (Proc.devRef .tc main_arg7) := B6_of_ne m c main_arg7 (by decide)
    _ = B4 m c (Proc.devRef .tc main_arg7) := StableHlo.after_of_writes_sub hostOps2 _ hostOps2_writes (r := main_arg7) (by decide)
    _ = B3 m c (Proc.devRef .tc main_arg7) := B4_of_ne m c main_arg7 (by decide)
    _ = B2 m c (Proc.devRef .tc main_arg7) := StableHlo.after_of_writes_sub hostOps1 _ hostOps1_writes (r := main_arg7) (by decide)
    _ = B1 m c (Proc.devRef .tc main_arg7) := B2_of_ne m c main_arg7 (by decide)
    _ = B0 m c (Proc.devRef .tc main_arg7) := StableHlo.after_of_writes_sub hostOps0 _ hostOps0_writes (r := main_arg7) (by decide)
    _ = m ((c : Thread nD τ).loc main_arg7) := rfl

/-! ## The proof data family and the thread state -/

abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (En1 m) c
  | ⟨1, _⟩ => fun c => dat1 (En3 m) c
  | ⟨2, _⟩ => fun c => dat2 (En5 m) c
  | ⟨3, _⟩ => fun c => dat3 (En7 m) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RR (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TN (c : Dev nD) : sProp 𝕄 := iprop(StableHlo.held (c : Thread nD τ) (Pipeline.ucRefs τ sig) (B9 m c) ∗ ∃ r, prngReg c r)

/-! ## The regions as segments -/

set_option backward.isDefEq.respectTransparency.types false in
/-- Region 0 over the thread state: entered from every unscoped buffer at `B1`, left at `B2`. Its arrays are
    split out of the unscoped buffers and put back at the exit contents; the generator register goes into the region's
    invariant and comes back; nothing owed; no semaphore of the kernel's own. -/
def regH0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ LH lvH 0 fun _ _ => rfl
  pre c := iprop(StableHlo.held (c : Thread nD τ) (Pipeline.ucRefs τ sig) (B1 m c) ∗ RR c)
  post c := iprop(StableHlo.held (c : Thread nD τ) (Pipeline.ucRefs τ sig) (B2 m c) ∗ RR c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (En1 m c) (Ex2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are
    split out of the unscoped buffers and put back at the exit contents; the generator register goes into the region's
    invariant and comes back; nothing owed; no semaphore of the kernel's own. -/
def regH1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ LH lvH 1 fun _ _ => rfl
  pre c := iprop(StableHlo.held (c : Thread nD τ) (Pipeline.ucRefs τ sig) (B3 m c) ∗ RR c)
  post c := iprop(StableHlo.held (c : Thread nD τ) (Pipeline.ucRefs τ sig) (B4 m c) ∗ RR c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (En3 m c) (Ex4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are
    split out of the unscoped buffers and put back at the exit contents; the generator register goes into the region's
    invariant and comes back; nothing owed; no semaphore of the kernel's own. -/
def regH2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ LH lvH 2 fun _ _ => rfl
  pre c := iprop(StableHlo.held (c : Thread nD τ) (Pipeline.ucRefs τ sig) (B5 m c) ∗ RR c)
  post c := iprop(StableHlo.held (c : Thread nD τ) (Pipeline.ucRefs τ sig) (B6 m c) ∗ RR c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (En5 m c) (Ex6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B7`, left at `B8`. Its arrays are
    split out of the unscoped buffers and put back at the exit contents; the generator register goes into the region's
    invariant and comes back; nothing owed; no semaphore of the kernel's own. -/
def regH3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (En7 m) c).loose
  hwaits := Pipeline.hwaits_of_owed_zero _ _ _ _ LH lvH 3 fun _ _ => rfl
  pre c := iprop(StableHlo.held (c : Thread nD τ) (Pipeline.ucRefs τ sig) (B7 m c) ∗ RR c)
  post c := iprop(StableHlo.held (c : Thread nD τ) (Pipeline.ucRefs τ sig) (B8 m c) ∗ RR c)
  X c := iprop(∃ r, prngReg c r)
  Y c := iprop(∃ r, prngReg c r)
  Z c := Pipeline.unscopedRest (Ix := Unit) (Name := ℕ) (U := UR sig nD τ) (Lvl := ℕ) spec3 c (En7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (En7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (hin3 (En7 m) c); unfold Pipeline.ΦA
    iintro ⟨Hp, -, Hr⟩
    isplitl [Hr]; · iexact Hr
    iexact Hp
  hout c := by
    refine (hout3 (En7 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (En7 m c) (Ex8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segsH : List (Pipeline.Seg (pcfgs (F := F)) admH (pdatsH m) () defs₀ 𝒱H LH lvH) :=
  [ .host (hsegH hostOps0 hostOps0_sub hostOps0_fresh (B0 m)),
    .region (regH0 m),
    .host (hsegH hostOps1 hostOps1_sub hostOps1_fresh (B2 m)),
    .region (regH1 m),
    .host (hsegH hostOps2 hostOps2_sub hostOps2_fresh (B4 m)),
    .region (regH2 m),
    .host (hsegH hostOps3 hostOps3_sub hostOps3_fresh (B6 m)),
    .region (regH3 m),
    .host (hsegH hostOps4 hostOps4_sub hostOps4_fresh (B8 m)) ]
theorem main_runH (c : Dev nD) : main (F := F) c = Pipeline.Seg.run (segsH m) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B9 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RR c)) (Tₙ := TN m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B9 m c) ∗ RR c)
          ⊢ iprop(TN m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- THE FRAME at any instance: the argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucH main_arg0 (by decide))).trans (B9_main_arg0 m c),
     (h c _ (mem_ucH main_arg1 (by decide))).trans (B9_main_arg1 m c),
     (h c _ (mem_ucH main_arg2 (by decide))).trans (B9_main_arg2 m c),
     (h c _ (mem_ucH main_arg3 (by decide))).trans (B9_main_arg3 m c),
     (h c _ (mem_ucH main_arg4 (by decide))).trans (B9_main_arg4 m c),
     (h c _ (mem_ucH main_arg5 (by decide))).trans (B9_main_arg5 m c),
     (h c _ (mem_ucH main_arg6 (by decide))).trans (B9_main_arg6 m c),
     (h c _ (mem_ucH main_arg7 (by decide))).trans (B9_main_arg7 m c)⟩) (run_all m ρ)

end Cert.Kernel.Hand

end
-- ==== Proof.BprShared.lean ====
/-
  The loss kernel's region (the fourth pallas_call: eight grid points of 2048 batch rows each), the part its
  three cases share. The body keeps two one-element accumulators in scratch memory across the grid: the sum of
  the log-sigmoids of the score differences, and half the sum of the squared norms. At the first point it
  resets both before adding; at the last point, after adding, it writes the loss into the one-element output
  window, which is idle (untouched, not written back) at every other point. Here: the two branch conditions
  decided over the grid, where the windows are live or idle, the staging and scratch memrefs by name, and the
  region invariant with the two scratch buffers named.
-/
import proofs.«178663_j17334488007154_2_alg».proof.Proof.Gen.KernelIdeal.Launch
import proofs.«178663_j17334488007154_2_alg».proof.Proof.Gen.KernelIdeal.Skeleton
import proofs.«178663_j17334488007154_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- "This is the first grid point": the reset of the two accumulators is under it. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- "This is the last grid point": the store of the loss is under it. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are live and where idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the first point the output window is idle and not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- The same at the six middle points. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At the last point the output window is live: the body stores the loss into it. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of the output window, through which its contents are stated. -/
abbrev VO3_3 : View sig .tc .vmem S1x1 .f32 := (Memref.whole cc3_stg3_0 : Memref sig .tc .vmem S1x1 .f32).view
abbrev ms3_0 (t : Fin cfg3.N) : Memref sig .tc .vmem S2048x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1 .f32 := win3_3.stage (cfg3.slots t 3)
abbrev hs3_3 (t : Fin cfg3.N) : (ms3_3 t).IsWhole := hstage3_3 ((cfg3.slots t 3).cast nbuf3_3)
/-- The two accumulators: whole scoped buffers of the kernel's own. -/
abbrev scM3_0 : Memref sig .tc .vmem S1x1 .f32 := Memref.whole cc3_scratch0
abbrev scM3_1 : Memref sig .tc .vmem S1x1 .f32 := Memref.whole cc3_scratch1
abbrev VS3_0 : View sig .tc .vmem S1x1 .f32 := scM3_0.view
abbrev VS3_1 : View sig .tc .vmem S1x1 .f32 := scM3_1.view

/-- The staging buffers of the other three regions, each whole at some contents: scoped buffers this region never
    touches, which ride through it beside the two accumulators. -/
def Oth (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The class invariant opened: the other regions' staging buffers, the two accumulators as memrefs owned at some
    contents, the generator register at some state. -/
theorem PhiA3_split (c : Dev nD) :
    (Pipeline.ΦA spec3 c : sProp 𝕄)
      ⊢ iprop(Oth (F := F) c ∗ (∃ d, owns (c : Thread nD τ) scM3_0 fullShare d) ∗ (∃ d, owns (c : Thread nD τ) scM3_1 fullShare d) ∗ (∃ r, prngReg c r)) := by
  unfold Pipeline.ΦA Oth; rw [scopedRest3_eq]; simp only [scM3_0, scM3_1, owns_whole]
  iintro ⟨⟨H1, H2, H3, H4, H5, H6, H7, H8, H9, H10, H11, H12, H13, H14, H15, H16, H17, H18, HS0, HS1⟩, Hg⟩
  isplitl [H1 H2 H3 H4 H5 H6 H7 H8 H9 H10 H11 H12 H13 H14 H15 H16 H17 H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [HS0]; · iexact HS0
  isplitl [HS1]; · iexact HS1
  iexact Hg

/-- And closed again. -/
theorem PhiA3_join (c : Dev nD) :
    iprop(Oth (F := F) c ∗ (∃ d, owns (c : Thread nD τ) scM3_0 fullShare d) ∗ (∃ d, owns (c : Thread nD τ) scM3_1 fullShare d) ∗ (∃ r, prngReg c r))
      ⊢ (Pipeline.ΦA spec3 c : sProp 𝕄) := by
  unfold Pipeline.ΦA Oth; rw [scopedRest3_eq]; simp only [scM3_0, scM3_1, owns_whole]
  iintro ⟨⟨H1, H2, H3, H4, H5, H6, H7, H8, H9, H10, H11, H12, H13, H14, H15, H16, H17, H18⟩, HS0, HS1, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    iexact HS1
  iexact Hg

end Cert.KernelIdeal.Hand

end
-- ==== Proof.BprRunA.lean ====
/-
  The loss kernel's body at the FIRST grid point: the two accumulators are reset to zero, then this point's 2048 rows are added; the output window is left untouched.
-/
import proofs.«178663_j17334488007154_2_alg».proof.Proof.BprShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's buffer and in the two accumulators, as pieces (last store
    first), with the proof that on whole memrefs — the three input blocks at their contents — the body runs to the
    continuation holding the inputs as they were and those pieces written. -/
noncomputable def kernelRun3_A (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) :
    Σ' (L4 : List (View.Piece (Elt F) S1x1 .f32)) (LS5 : List (View.Piece (Elt F) S1x1 .f32)), { LS6 : List (View.Piece (Elt F) S1x1 .f32) //
      ∀ (xi4 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare xi4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare xi4 ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc3__bpr_kernel i arg1 harg1 arg2 harg2 arg3 harg3 arg4 harg4 arg5 harg5 arg6 harg6) K } := by
  refine ⟨[], ?_, ?_, fun xi4 E K => ?run⟩
  case run =>
    simp only [cc3__bpr_kernel_eq_skeleton]; unfold cc3__bpr_kernel_skel
    simp only [k3_part1_eq_skeleton]
    unfold owns
    iintro ⟨⟨%f1, %hf1, H1⟩, ⟨%f2, %hf2, H2⟩, ⟨%f3, %hf3, H3⟩, ⟨%f4, %hf4, H4⟩, ⟨%ds5, %fs5, -, HS5⟩, ⟨%ds6, %fs6, -, HS6⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [HS5]; · iexists _; iexact HS5
    iexists _; iexact HS6

end Cert.KernelIdeal.Hand

end
-- ==== Proof.BprRunB.lean ====
/-
  The loss kernel's body at a MIDDLE grid point: this point's 2048 rows are added to the two accumulators the point before left; the output window is left untouched.
-/
import proofs.«178663_j17334488007154_2_alg».proof.Proof.BprShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's buffer and in the two accumulators, as pieces (last store
    first), with the proof that on whole memrefs — the three input blocks at their contents — the body runs to the
    continuation holding the inputs as they were and those pieces written. -/
noncomputable def kernelRun3_B (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) :
    Σ' (L4 : List (View.Piece (Elt F) S1x1 .f32)) (LS5 : List (View.Piece (Elt F) S1x1 .f32)), { LS6 : List (View.Piece (Elt F) S1x1 .f32) //
      ∀ (xi4 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare xi4 ∗ owns (c : Thread nD τ) arg5 fullShare xs5 ∗ owns (c : Thread nD τ) arg6 fullShare xs6
            ∗ (iprop(owns (c : Thread nD τ) arg1 fullShare x1 ∗ owns (c : Thread nD τ) arg2 fullShare x2 ∗ owns (c : Thread nD τ) arg3 fullShare x3 ∗ owns (c : Thread nD τ) arg4 fullShare xi4 ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc3__bpr_kernel i arg1 harg1 arg2 harg2 arg3 harg3 arg4 harg4 arg5 harg5 arg6 harg6) K } := by
  refine ⟨[], ?_, ?_, fun xi4 E K => ?run⟩
  case run =>
    simp only [cc3__bpr_kernel_eq_skeleton]; unfold cc3__bpr_kernel_skel
    simp only [k3_part1_eq_skeleton]
    unfold owns
    iintro ⟨⟨%f1, %hf1, H1⟩, ⟨%f2, %hf2, H2⟩, ⟨%f3, %hf3, H3⟩, ⟨%f4, %hf4, H4⟩, ⟨%fs5, %hfs5, HS5⟩, ⟨%fs6, %hfs6, HS6⟩, Hk⟩
    obtain rfl := harg1.eq_unread hf1; obtain rfl := harg2.eq_unread hf2; obtain rfl := harg3.eq_unread hf3; obtain rfl := harg4.eq_unread hf4; obtain rfl := harg5.eq_unread hfs5; obtain rfl := harg6.eq_unread hfs6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [HS5]; · iexists _; iexact HS5
    iexists _; iexact HS6

end Cert.KernelIdeal.Hand

end
-- ==== Proof.BprRunC.lean ====
/-
  The loss kernel's body at the LAST grid point: this point's 2048 rows are added to the two accumulators, and the loss — minus the mean log-sigmoid plus the scaled half sum of squares — is stored into the output window.
-/
import proofs.«178663_j17334488007154_2_alg».proof.Proof.BprShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's buffer and in the two accumulators, as pieces (last store
    first), with the proof that on whole memrefs — the three input blocks at their contents — the body runs to the
    continuation holding the inputs as they were and those pieces written. -/
noncomputable def kernelRun3_C (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) :
    Σ' (L4 : List (View.Piece (Elt F) S1x1 .f32)) (LS5 : List (View.Piece (Elt F) S1x1 .f32)), { LS6 : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare xs5 ∗ owns (c : Thread nD τ) arg6 fullShare xs6
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc3__bpr_kernel i arg1 harg1 arg2 harg2 arg3 harg3 arg4 harg4 arg5 harg5 arg6 harg6) K } := by
  refine ⟨?_, ?_, ?_, fun E K => ?run⟩
  case run =>
    simp only [cc3__bpr_kernel_eq_skeleton]; unfold cc3__bpr_kernel_skel
    simp only [k3_part1_eq_skeleton]
    unfold owns
    iintro ⟨⟨%f1, %hf1, H1⟩, ⟨%f2, %hf2, H2⟩, ⟨%f3, %hf3, H3⟩, ⟨%d4, %f4, -, H4⟩, ⟨%fs5, %hfs5, HS5⟩, ⟨%fs6, %hfs6, HS6⟩, Hk⟩
    obtain rfl := harg1.eq_unread hf1; obtain rfl := harg2.eq_unread hf2; obtain rfl := harg3.eq_unread hf3; obtain rfl := harg5.eq_unread hfs5; obtain rfl := harg6.eq_unread hfs6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [HS5]; · iexists _; iexact HS5
    iexists _; iexact HS6

end Cert.KernelIdeal.Hand

end
-- ==== Proof.BprRegion.lean ====
/-
  The loss kernel's region assembled from its three cases: what the output window's buffer and the two
  accumulators hold after each grid point (a recursion on the point: the first point starts from the reset, each
  later point adds to what the point before left, the last also stores the loss), the region invariant that
  carries the two accumulators from point to point, the proof data, and the body obligation at every point.
-/
import proofs.«178663_j17334488007154_2_alg».proof.Proof.BprRunA
import proofs.«178663_j17334488007154_2_alg».proof.Proof.BprRunB
import proofs.«178663_j17334488007154_2_alg».proof.Proof.BprRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output window's staging buffer: its pieces read back (none: a placeholder nothing consults, the window being idle there). -/
def out3_A_3 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) : Vec F S1x1 .f32 :=
  VO3_3.read (Elt F) (VO3_3.writes (Elt F) VO3_3.junk (kernelRun3_A c i arg1 harg1 arg2 harg2 arg3 harg3 arg4 harg4 arg5 harg5 arg6 harg6 hc0 hc1 x1 x2 x3).1)

/-- Case A's stores into the first accumulator cover it. -/
theorem scover3_A_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) (y : S1x1.Idx) :
    ∃ pc ∈ (kernelRun3_A c i arg1 harg1 arg2 harg2 arg3 harg3 arg4 harg4 arg5 harg5 arg6 harg6 hc0 hc1 x1 x2 x3).2.1, y ∈ pc.1.set :=
  View.cover_of_tiledL (kernelRun3_A c i arg1 harg1 arg2 harg2 arg3 harg3 arg4 harg4 arg5 harg5 arg6 harg6 hc0 hc1 x1 x2 x3).2.1 S1x1.size (by sl_kernel_rfl) y
/-- What case A leaves in the first accumulator. -/
def sout3_A_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) : Vec F S1x1 .f32 :=
  VS3_0.read (Elt F) (VS3_0.writes (Elt F) VS3_0.junk (kernelRun3_A c i arg1 harg1 arg2 harg2 arg3 harg3 arg4 harg4 arg5 harg5 arg6 harg6 hc0 hc1 x1 x2 x3).2.1)
/-- Case A's stores into the second accumulator cover it. -/
theorem scover3_A_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) (y : S1x1.Idx) :
    ∃ pc ∈ (kernelRun3_A c i arg1 harg1 arg2 harg2 arg3 harg3 arg4 harg4 arg5 harg5 arg6 harg6 hc0 hc1 x1 x2 x3).2.2.1, y ∈ pc.1.set :=
  View.cover_of_tiledL (kernelRun3_A c i arg1 harg1 arg2 harg2 arg3 harg3 arg4 harg4 arg5 harg5 arg6 harg6 hc0 hc1 x1 x2 x3).2.2.1 S1x1.size (by sl_kernel_rfl) y
/-- What case A leaves in the second accumulator. -/
def sout3_A_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) : Vec F S1x1 .f32 :=
  VS3_1.read (Elt F) (VS3_1.writes (Elt F) VS3_1.junk (kernelRun3_A c i arg1 harg1 arg2 harg2 arg3 harg3 arg4 harg4 arg5 harg5 arg6 harg6 hc0 hc1 x1 x2 x3).2.2.1)

/-- What case B leaves in the output window's staging buffer: its pieces read back (none: a placeholder nothing consults, the window being idle there). -/
def out3_B_3 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) : Vec F S1x1 .f32 :=
  VO3_3.read (Elt F) (VO3_3.writes (Elt F) VO3_3.junk (kernelRun3_B c i arg1 harg1 arg2 harg2 arg3 harg3 arg4 harg4 arg5 harg5 arg6 harg6 hc0 hc1 x1 x2 x3 xs5 xs6).1)

/-- Case B's stores into the first accumulator cover it. -/
theorem scover3_B_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) (y : S1x1.Idx) :
    ∃ pc ∈ (kernelRun3_B c i arg1 harg1 arg2 harg2 arg3 harg3 arg4 harg4 arg5 harg5 arg6 harg6 hc0 hc1 x1 x2 x3 xs5 xs6).2.1, y ∈ pc.1.set :=
  View.cover_of_tiledL (kernelRun3_B c i arg1 harg1 arg2 harg2 arg3 harg3 arg4 harg4 arg5 harg5 arg6 harg6 hc0 hc1 x1 x2 x3 xs5 xs6).2.1 S1x1.size (by sl_kernel_rfl) y
/-- What case B leaves in the first accumulator. -/
def sout3_B_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) : Vec F S1x1 .f32 :=
  VS3_0.read (Elt F) (VS3_0.writes (Elt F) VS3_0.junk (kernelRun3_B c i arg1 harg1 arg2 harg2 arg3 harg3 arg4 harg4 arg5 harg5 arg6 harg6 hc0 hc1 x1 x2 x3 xs5 xs6).2.1)
/-- Case B's stores into the second accumulator cover it. -/
theorem scover3_B_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) (y : S1x1.Idx) :
    ∃ pc ∈ (kernelRun3_B c i arg1 harg1 arg2 harg2 arg3 harg3 arg4 harg4 arg5 harg5 arg6 harg6 hc0 hc1 x1 x2 x3 xs5 xs6).2.2.1, y ∈ pc.1.set :=
  View.cover_of_tiledL (kernelRun3_B c i arg1 harg1 arg2 harg2 arg3 harg3 arg4 harg4 arg5 harg5 arg6 harg6 hc0 hc1 x1 x2 x3 xs5 xs6).2.2.1 S1x1.size (by sl_kernel_rfl) y
/-- What case B leaves in the second accumulator. -/
def sout3_B_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) : Vec F S1x1 .f32 :=
  VS3_1.read (Elt F) (VS3_1.writes (Elt F) VS3_1.junk (kernelRun3_B c i arg1 harg1 arg2 harg2 arg3 harg3 arg4 harg4 arg5 harg5 arg6 harg6 hc0 hc1 x1 x2 x3 xs5 xs6).2.2.1)

/-- What case C leaves in the output window's staging buffer: its pieces read back. -/
def out3_C_3 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) : Vec F S1x1 .f32 :=
  VO3_3.read (Elt F) (VO3_3.writes (Elt F) VO3_3.junk (kernelRun3_C c i arg1 harg1 arg2 harg2 arg3 harg3 arg4 harg4 arg5 harg5 arg6 harg6 hc0 hc1 x1 x2 x3 xs5 xs6).1)

/-- Case C's one store into the output window covers it. -/
theorem cover3_C_3 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) (y : S1x1.Idx) :
    ∃ pc ∈ (kernelRun3_C c i arg1 harg1 arg2 harg2 arg3 harg3 arg4 harg4 arg5 harg5 arg6 harg6 hc0 hc1 x1 x2 x3 xs5 xs6).1, y ∈ pc.1.set :=
  View.cover_of_tiledL (kernelRun3_C c i arg1 harg1 arg2 harg2 arg3 harg3 arg4 harg4 arg5 harg5 arg6 harg6 hc0 hc1 x1 x2 x3 xs5 xs6).1 S1x1.size (by sl_kernel_rfl) y

/-- Case C's stores into the first accumulator cover it. -/
theorem scover3_C_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) (y : S1x1.Idx) :
    ∃ pc ∈ (kernelRun3_C c i arg1 harg1 arg2 harg2 arg3 harg3 arg4 harg4 arg5 harg5 arg6 harg6 hc0 hc1 x1 x2 x3 xs5 xs6).2.1, y ∈ pc.1.set :=
  View.cover_of_tiledL (kernelRun3_C c i arg1 harg1 arg2 harg2 arg3 harg3 arg4 harg4 arg5 harg5 arg6 harg6 hc0 hc1 x1 x2 x3 xs5 xs6).2.1 S1x1.size (by sl_kernel_rfl) y
/-- What case C leaves in the first accumulator. -/
def sout3_C_5 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) : Vec F S1x1 .f32 :=
  VS3_0.read (Elt F) (VS3_0.writes (Elt F) VS3_0.junk (kernelRun3_C c i arg1 harg1 arg2 harg2 arg3 harg3 arg4 harg4 arg5 harg5 arg6 harg6 hc0 hc1 x1 x2 x3 xs5 xs6).2.1)
/-- Case C's stores into the second accumulator cover it. -/
theorem scover3_C_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) (y : S1x1.Idx) :
    ∃ pc ∈ (kernelRun3_C c i arg1 harg1 arg2 harg2 arg3 harg3 arg4 harg4 arg5 harg5 arg6 harg6 hc0 hc1 x1 x2 x3 xs5 xs6).2.2.1, y ∈ pc.1.set :=
  View.cover_of_tiledL (kernelRun3_C c i arg1 harg1 arg2 harg2 arg3 harg3 arg4 harg4 arg5 harg5 arg6 harg6 hc0 hc1 x1 x2 x3 xs5 xs6).2.2.1 S1x1.size (by sl_kernel_rfl) y
/-- What case C leaves in the second accumulator. -/
def sout3_C_6 (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) : Vec F S1x1 .f32 :=
  VS3_1.read (Elt F) (VS3_1.writes (Elt F) VS3_1.junk (kernelRun3_C c i arg1 harg1 arg2 harg2 arg3 harg3 arg4 harg4 arg5 harg5 arg6 harg6 hc0 hc1 x1 x2 x3 xs5 xs6).2.2.1)

/-! ## What the buffers hold after each point -/

/-- THE ACCUMULATION: after the body at position `n`, the output window's buffer and the two accumulators. Position 0
    is the first point's case; a later position is the last point's case at 7 and the middle case otherwise, each over
    the accumulators the position before left. -/
def outsAt3 (c : Dev nD) : (n : ℕ) → n < cfg3.N → Vec F S1x1 .f32 × Vec F S1x1 .f32 × Vec F S1x1 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩), sout3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩), sout3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      False.elim (by have hN : n + 1 < 8 := lt_of_lt_of_eq hn (show cfg3.N = 8 from N_3); omega)
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, sout3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, sout3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, sout3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, sout3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) ((hcond3_0 t).mpr h0) (fun h => h1 ((hcond3_1 t).mp h)) (iblk3 V c 0 t) (iblk3 V c 1 t) (iblk3 V c 2 t), sout3_A_5 c (grid3.coords t) (ms3_0 t) (hs3_0 t) (ms3_1 t) (hs3_1 t) (ms3_2 t) (hs3_2 t) (ms3_3 t) (hs3_3 t) scM3_0 (Memref.isWhole_whole _) scM3_1 (Memref.isWhole_whole _) ((hcond3_0 t).mpr h0) (fun h => h1 ((hcond3_1 t).mp h)) (iblk3 V c 0 t) (iblk3 V c 1 t) (iblk3 V c 2 t), sout3_A_6 c (grid3.coords t) (ms3_0 t) (hs3_0 t) (ms3_1 t) (hs3_1 t) (ms3_2 t) (hs3_2 t) (ms3_3 t) (hs3_3 t) scM3_0 (Memref.isWhole_whole _) scM3_1 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (by exfalso; have hN : n + 1 < 8 := lt_of_lt_of_eq hn (show cfg3.N = 8 from N_3); (try dsimp only at h0); omega)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, sout3_B_5 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, sout3_B_6 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, sout3_C_5 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, sout3_C_6 c (grid3.coords t) (ms3_0 t) (hs3_0 t) (ms3_1 t) (hs3_1 t) (ms3_2 t) (hs3_2 t) (ms3_3 t) (hs3_3 t) scM3_0 (Memref.isWhole_whole _) scM3_1 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (every scoped buffer at anything); afterwards the other
    regions' staging buffers, the two accumulators at what the position before left, the generator register. -/
def PhiS3 (c : Dev nD) : (n : ℕ) → n ≤ cfg3.N → sProp 𝕄
  | 0, _ => Pipeline.ΦA spec3 c
  | n + 1, hn => iprop(Oth (F := F) c ∗ owns (c : Thread nD τ) scM3_0 fullShare ((outsAt3 V c n hn).2.1) ∗ owns (c : Thread nD τ) scM3_1 fullShare ((outsAt3 V c n hn).2.2) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(Oth (F := F) c ∗ owns (c : Thread nD τ) scM3_0 fullShare ((outsAt3 V c n hn).2.1) ∗ owns (c : Thread nD τ) scM3_1 fullShare ((outsAt3 V c n hn).2.2) ∗ (∃ r, prngReg c r)) := rfl
theorem PhiS3_pos (c : Dev nD) (n : ℕ) (h : n ≤ cfg3.N) (hz : n ≠ 0) :
    PhiS3 V c n h = iprop(Oth (F := F) c ∗ owns (c : Thread nD τ) scM3_0 fullShare ((outsAt3 V c (n - 1) (by omega)).2.1) ∗ owns (c : Thread nD τ) scM3_1 fullShare ((outsAt3 V c (n - 1) (by omega)).2.2) ∗ (∃ r, prngReg c r)) := by
  cases n with
  | zero => exact absurd rfl hz
  | succ n => rfl

/-! ## The proof data -/

/-- The region's proof data on core `c`: the arrays as the region finds them; after the body at a point each input's
    buffer at its block and the output's at the accumulation's first component; the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms of the two conditions say which
    case the point is in; the invariant hands the body the accumulators at what the point before left (at anything at
    the first point) and takes them back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  by_cases h0 : t.val % 8 = 0
  · have h1 : ¬t.val % 8 = 7 := by omega
    have hz : t.val = 0 := by omega
    rw [show (dat3 V c).leavesExact 0 t = owns (c : Thread nD τ) (ms3_0 t) fullShare ((dat3 V c).after 0 t) from by
        unfold Dat.leavesExact; rw [liveAt3_0 t], after3_0]
    rw [show (dat3 V c).leavesExact 1 t = owns (c : Thread nD τ) (ms3_1 t) fullShare ((dat3 V c).after 1 t) from by
        unfold Dat.leavesExact; rw [liveAt3_1 t], after3_1]
    rw [show (dat3 V c).leavesExact 2 t = owns (c : Thread nD τ) (ms3_2 t) fullShare ((dat3 V c).after 2 t) from by
        unfold Dat.leavesExact; rw [liveAt3_2 t], after3_2]
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A_5 sout3_A_6; (try dsimp only)
    rw [PhiS3_castSucc V c t, PhiS3_zero V c _ _ hz]
    iintro ⟨HΦ, Ho, ⟨%d0, H0⟩, ⟨%d1, H1⟩, ⟨%d2, H2⟩, ⟨%d3, H3⟩⟩
    ihave HΦ' := (PhiA3_split (F := F) c) $$ HΦ
    icases HΦ' with ⟨HO, HS5, HS6, Hg⟩
    iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ Set.univ _)
    isplitl [H0]; · iexact H0
    isplitl [H1]; · iexact H1
    isplitl [H2]; · iexact H2
    isplitl [H3]; · iexact H3
    isplitl [HS5]; · iexact HS5
    isplitl [HS6]; · iexact HS6
    iintro ⟨H0, H1, H2, H3, ⟨%es5, HS5⟩, ⟨%es6, HS6⟩⟩
    isplitl [HO HS5 HS6 Hg]
    · isplitl [HO]; · iexact HO
      isplitl [HS5]
      · unfold owns; iexists _; isplitr
        swap; · iexact HS5
        ipureintro; exact View.read_writes_of_cover _ _ _ _ _ (scover3_A_5 c _ _ _ _ _ _ _ _ _ _ _ _ _ _ _ _ _ _)
      isplitl [HS6]
      · unfold owns; iexists _; isplitr
        swap; · iexact HS6
        ipureintro; exact View.read_writes_of_cover _ _ _ _ _ (scover3_A_6 c _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 8 = 7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_5 sout3_C_6; (try dsimp only)
      rw [PhiS3_castSucc V c t, PhiS3_pos V c _ _ hz]
      iintro ⟨⟨HO, HS5, HS6, Hg⟩, Ho, ⟨%d0, H0⟩, ⟨%d1, H1⟩, ⟨%d2, H2⟩, ⟨%d3, H3⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _ _).2.2.2 Set.univ _)
      isplitl [H0]; · iexact H0
      isplitl [H1]; · iexact H1
      isplitl [H2]; · iexact H2
      isplitl [H3]; · iexists _; iexact H3
      isplitl [HS5]; · iexact HS5
      isplitl [HS6]; · iexact HS6
      iintro ⟨H0, H1, H2, ⟨%e3, H3⟩, ⟨%es5, HS5⟩, ⟨%es6, HS6⟩⟩
      isplitl [HO HS5 HS6 Hg]
      · isplitl [HO]; · iexact HO
        isplitl [HS5]
        · unfold owns; iexists _; isplitr
          swap; · iexact HS5
          ipureintro; exact View.read_writes_of_cover _ _ _ _ _ (scover3_C_5 c _ _ _ _ _ _ _ _ _ _ _ _ _ _ _ _ _ _ _ _)
        isplitl [HS6]
        · unfold owns; iexists _; isplitr
          swap; · iexact HS6
          ipureintro; exact View.read_writes_of_cover _ _ _ _ _ (scover3_C_6 c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_5 sout3_B_6; (try dsimp only)
      rw [PhiS3_castSucc V c t, PhiS3_pos V c _ _ hz]
      iintro ⟨⟨HO, HS5, HS6, Hg⟩, Ho, ⟨%d0, H0⟩, ⟨%d1, H1⟩, ⟨%d2, H2⟩, ⟨%d3, H3⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _ _).2.2.2 _ Set.univ _)
      isplitl [H0]; · iexact H0
      isplitl [H1]; · iexact H1
      isplitl [H2]; · iexact H2
      isplitl [H3]; · iexact H3
      isplitl [HS5]; · iexact HS5
      isplitl [HS6]; · iexact HS6
      iintro ⟨H0, H1, H2, H3, ⟨%es5, HS5⟩, ⟨%es6, HS6⟩⟩
      isplitl [HO HS5 HS6 Hg]
      · isplitl [HO]; · iexact HO
        isplitl [HS5]
        · unfold owns; iexists _; isplitr
          swap; · iexact HS5
          ipureintro; exact View.read_writes_of_cover _ _ _ _ _ (scover3_B_5 c _ _ _ _ _ _ _ _ _ _ _ _ _ _ _ _ _ _ _ _)
        isplitl [HS6]
        · unfold owns; iexists _; isplitr
          swap; · iexact HS6
          ipureintro; exact View.read_writes_of_cover _ _ _ _ _ (scover3_B_6 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulators' contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega)]
  iintro ⟨HO, HS5, HS6, Hg⟩
  iapply (PhiA3_join (F := F) c)
  isplitl [HO]; · iexact HO
  isplitl [HS5]; · iexists _; iexact HS5
  isplitl [HS6]; · iexists _; iexact HS6
  iexact Hg

end Cert.KernelIdeal.Hand

end
-- ==== Proof.BprValue.lean ====
/-
  What the loss kernel's three cases leave, as the body's own arithmetic: at every point the first accumulator
  becomes (what it held, or zero at the first point) plus the sum over the point's 2048 rows of the log-sigmoid of
  the score difference, the second becomes (what it held, or zero) plus half the sum of the three squared norms;
  the last point's output is minus the first accumulator over the batch size plus the scaled second.
-/
import proofs.«178663_j17334488007154_2_alg».proof.Proof.BprRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a two-axis block, as a function. -/
theorem hz2 : (![0, 0] : Fin 2 → ℕ) = fun _ => 0 := by funext a; fin_cases a <;> rfl

theorem sout3_A_5_eq (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) :
    sout3_A_5 c i arg1 harg1 arg2 harg2 arg3 harg3 arg4 harg4 arg5 harg5 arg6 harg6 hc0 hc1 x1 x2 x3 = k3_pay1 (k3_pay9 x1 x2 x3 (k3_pay4 (F := F))) := by
  unfold sout3_A_5
  rw [View.read_writes_eq_canon _ _ _ (scover3_A_5 c i arg1 harg1 arg2 harg2 arg3 harg3 arg4 harg4 arg5 harg5 arg6 harg6 hc0 hc1 x1 x2 x3)]
  unfold kernelRun3_A
  dsimp only
  sl_unfold_words
  refine (View.canon_cons_unit_zero (S := S1x1) hz2 _ _ _).trans ?_
  simp only [View.readAt_eq_ld, harg1.read_unread, harg2.read_unread, harg3.read_unread, harg5.read_unread, harg6.read_unread,
    View.ld_unit_zero (S := S2048x64) hz2, View.ld_unit_zero (S := S1x1) hz2, View.readCov_unit_zero (S := S1x1) arg5.view hz2, View.readCov_unit_zero (S := S1x1) arg6.view hz2, View.canon_cons_unit_zero (S := S1x1) hz2]

theorem sout3_A_6_eq (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond3_0 i) (hc1 : ¬cond3_1 i)
    (x1 x2 x3 : Vec F S2048x64 .f32) :
    sout3_A_6 c i arg1 harg1 arg2 harg2 arg3 harg3 arg4 harg4 arg5 harg5 arg6 harg6 hc0 hc1 x1 x2 x3 = k3_pay2 (k3_pay6 x1) (k3_pay7 x2) (k3_pay8 x3) (k3_pay5 (F := F)) := by
  unfold sout3_A_6
  rw [View.read_writes_eq_canon _ _ _ (scover3_A_6 c i arg1 harg1 arg2 harg2 arg3 harg3 arg4 harg4 arg5 harg5 arg6 harg6 hc0 hc1 x1 x2 x3)]
  unfold kernelRun3_A
  dsimp only
  sl_unfold_words
  refine (View.canon_cons_unit_zero (S := S1x1) hz2 _ _ _).trans ?_
  simp only [View.readAt_eq_ld, harg1.read_unread, harg2.read_unread, harg3.read_unread, harg5.read_unread, harg6.read_unread,
    View.ld_unit_zero (S := S2048x64) hz2, View.ld_unit_zero (S := S1x1) hz2, View.readCov_unit_zero (S := S1x1) arg5.view hz2, View.readCov_unit_zero (S := S1x1) arg6.view hz2, View.canon_cons_unit_zero (S := S1x1) hz2]

theorem sout3_B_5_eq (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) :
    sout3_B_5 c i arg1 harg1 arg2 harg2 arg3 harg3 arg4 harg4 arg5 harg5 arg6 harg6 hc0 hc1 x1 x2 x3 xs5 xs6 = k3_pay1 (k3_pay9 x1 x2 x3 xs5) := by
  unfold sout3_B_5
  rw [View.read_writes_eq_canon _ _ _ (scover3_B_5 c i arg1 harg1 arg2 harg2 arg3 harg3 arg4 harg4 arg5 harg5 arg6 harg6 hc0 hc1 x1 x2 x3 xs5 xs6)]
  unfold kernelRun3_B
  dsimp only
  sl_unfold_words
  refine (View.canon_cons_unit_zero (S := S1x1) hz2 _ _ _).trans ?_
  simp only [View.readAt_eq_ld, harg1.read_unread, harg2.read_unread, harg3.read_unread, harg5.read_unread, harg6.read_unread,
    View.ld_unit_zero (S := S2048x64) hz2, View.ld_unit_zero (S := S1x1) hz2, View.readCov_unit_zero (S := S1x1) arg5.view hz2, View.readCov_unit_zero (S := S1x1) arg6.view hz2, View.canon_cons_unit_zero (S := S1x1) hz2]

theorem sout3_B_6_eq (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : ¬cond3_1 i)
    (x1 x2 x3 : Vec F S2048x64 .f32) (xs5 xs6 : Vec F S1x1 .f32) :
    sout3_B_6 c i arg1 harg1 arg2 harg2 arg3 harg3 arg4 harg4 arg5 harg5 arg6 harg6 hc0 hc1 x1 x2 x3 xs5 xs6 = k3_pay2 (k3_pay6 x1) (k3_pay7 x2) (k3_pay8 x3) xs6 := by
  unfold sout3_B_6
  rw [View.read_writes_eq_canon _ _ _ (scover3_B_6 c i arg1 harg1 arg2 harg2 arg3 harg3 arg4 harg4 arg5 harg5 arg6 harg6 hc0 hc1 x1 x2 x3 xs5 xs6)]
  unfold kernelRun3_B
  dsimp only
  sl_unfold_words
  refine (View.canon_cons_unit_zero (S := S1x1) hz2 _ _ _).trans ?_
  simp only [View.readAt_eq_ld, harg1.read_unread, harg2.read_unread, harg3.read_unread, harg5.read_unread, harg6.read_unread,
    View.ld_unit_zero (S := S2048x64) hz2, View.ld_unit_zero (S := S1x1) hz2, View.readCov_unit_zero (S := S1x1) arg5.view hz2, View.readCov_unit_zero (S := S1x1) arg6.view hz2, View.canon_cons_unit_zero (S := S1x1) hz2]

theorem sout3_C_5_eq (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) :
    sout3_C_5 c i arg1 harg1 arg2 harg2 arg3 harg3 arg4 harg4 arg5 harg5 arg6 harg6 hc0 hc1 x1 x2 x3 xs5 xs6 = k3_pay1 (k3_pay9 x1 x2 x3 xs5) := by
  unfold sout3_C_5
  rw [View.read_writes_eq_canon _ _ _ (scover3_C_5 c i arg1 harg1 arg2 harg2 arg3 harg3 arg4 harg4 arg5 harg5 arg6 harg6 hc0 hc1 x1 x2 x3 xs5 xs6)]
  unfold kernelRun3_C
  dsimp only
  sl_unfold_words
  refine (View.canon_cons_unit_zero (S := S1x1) hz2 _ _ _).trans ?_
  simp only [View.readAt_eq_ld, harg1.read_unread, harg2.read_unread, harg3.read_unread, harg5.read_unread, harg6.read_unread,
    View.ld_unit_zero (S := S2048x64) hz2, View.ld_unit_zero (S := S1x1) hz2, View.readCov_unit_zero (S := S1x1) arg5.view hz2, View.readCov_unit_zero (S := S1x1) arg6.view hz2, View.canon_cons_unit_zero (S := S1x1) hz2]

theorem sout3_C_6_eq (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) :
    sout3_C_6 c i arg1 harg1 arg2 harg2 arg3 harg3 arg4 harg4 arg5 harg5 arg6 harg6 hc0 hc1 x1 x2 x3 xs5 xs6 = k3_pay2 (k3_pay6 x1) (k3_pay7 x2) (k3_pay8 x3) xs6 := by
  unfold sout3_C_6
  rw [View.read_writes_eq_canon _ _ _ (scover3_C_6 c i arg1 harg1 arg2 harg2 arg3 harg3 arg4 harg4 arg5 harg5 arg6 harg6 hc0 hc1 x1 x2 x3 xs5 xs6)]
  unfold kernelRun3_C
  dsimp only
  sl_unfold_words
  refine (View.canon_cons_unit_zero (S := S1x1) hz2 _ _ _).trans ?_
  simp only [View.readAt_eq_ld, harg1.read_unread, harg2.read_unread, harg3.read_unread, harg5.read_unread, harg6.read_unread,
    View.ld_unit_zero (S := S2048x64) hz2, View.ld_unit_zero (S := S1x1) hz2, View.readCov_unit_zero (S := S1x1) arg5.view hz2, View.readCov_unit_zero (S := S1x1) arg6.view hz2, View.canon_cons_unit_zero (S := S1x1) hz2]

theorem out3_C_3_eq (c : Dev nD) (i : grid3.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond3_0 i) (hc1 : cond3_1 i)
    (x1 x2 x3 : Vec F S2048x64 .f32) (xs5 xs6 : Vec F S1x1 .f32) :
    out3_C_3 c i arg1 harg1 arg2 harg2 arg3 harg3 arg4 harg4 arg5 harg5 arg6 harg6 hc0 hc1 x1 x2 x3 xs5 xs6 = k3_pay3 (k3_pay1 (k3_pay9 x1 x2 x3 xs5)) (k3_pay2 (k3_pay6 x1) (k3_pay7 x2) (k3_pay8 x3) xs6) := by
  unfold out3_C_3
  rw [View.read_writes_eq_canon _ _ _ (cover3_C_3 c i arg1 harg1 arg2 harg2 arg3 harg3 arg4 harg4 arg5 harg5 arg6 harg6 hc0 hc1 x1 x2 x3 xs5 xs6)]
  unfold kernelRun3_C
  dsimp only
  sl_unfold_words
  refine (View.canon_cons_unit_zero (S := S1x1) hz2 _ _ _).trans ?_
  simp only [View.readAt_eq_ld, harg1.read_unread, harg2.read_unread, harg3.read_unread, harg5.read_unread, harg6.read_unread,
    View.ld_unit_zero (S := S2048x64) hz2, View.ld_unit_zero (S := S1x1) hz2, View.readCov_unit_zero (S := S1x1) arg5.view hz2, View.readCov_unit_zero (S := S1x1) arg6.view hz2, View.canon_cons_unit_zero (S := S1x1) hz2]

end Cert.KernelIdeal.Hand

end
-- ==== Proof.BprFinal.lean ====
/-
  The loss kernel's region as arithmetic. The two accumulators after each grid point are a plain recursion over the
  body's own terms: the first point starts from the two zero splats, each later point from what the point before
  left; the output window's block at the last point is the closing term of the two accumulators after it; and since
  only the last point writes the one-element output array back, that is what the array holds after the region.
-/
import proofs.«178663_j17334488007154_2_alg».proof.Proof.BprValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- One point's step of the first accumulator: what it held plus the point's sum of log-sigmoids. -/
def step5 (x1 x2 x3 : Vec F S2048x64 .f32) (s : Vec F S1x1 .f32) : Vec F S1x1 .f32 := k3_pay1 (k3_pay9 x1 x2 x3 s)
/-- One point's step of the second accumulator: what it held plus half the point's sum of squared norms. -/
def step6 (x1 x2 x3 : Vec F S2048x64 .f32) (s : Vec F S1x1 .f32) : Vec F S1x1 .f32 := k3_pay2 (k3_pay6 x1) (k3_pay7 x2) (k3_pay8 x3) s

/-- The two accumulators after position `n`. -/
def accs (c : Dev nD) : (n : ℕ) → n < cfg3.N → Vec F S1x1 .f32 × Vec F S1x1 .f32
  | 0, hn => (step5 (iblk3 V c 0 ⟨0, hn⟩) (iblk3 V c 1 ⟨0, hn⟩) (iblk3 V c 2 ⟨0, hn⟩) (k3_pay4 (F := F)), step6 (iblk3 V c 0 ⟨0, hn⟩) (iblk3 V c 1 ⟨0, hn⟩) (iblk3 V c 2 ⟨0, hn⟩) (k3_pay5 (F := F)))
  | n + 1, hn => (step5 (iblk3 V c 0 ⟨n + 1, hn⟩) (iblk3 V c 1 ⟨n + 1, hn⟩) (iblk3 V c 2 ⟨n + 1, hn⟩) (accs c n (Nat.lt_of_succ_lt hn)).1, step6 (iblk3 V c 0 ⟨n + 1, hn⟩) (iblk3 V c 1 ⟨n + 1, hn⟩) (iblk3 V c 2 ⟨n + 1, hn⟩) (accs c n (Nat.lt_of_succ_lt hn)).2)

/-- The accumulation's two accumulator components are that recursion. -/
theorem outsAt3_accs (c : Dev nD) : ∀ (n : ℕ) (hn : n < cfg3.N),
    (outsAt3 V c n hn).2 = accs V c n hn
  | 0, hn => by
    have e := outsAt3_A V c ⟨0, hn⟩ (Nat.zero_mod _) (by show ¬((0 : ℕ) % 8 = 7); omega)
    rw [show outsAt3 V c 0 hn = outsAt3 V c (⟨0, hn⟩ : Fin cfg3.N).val (⟨0, hn⟩ : Fin cfg3.N).isLt from rfl, e]
    show (_, _) = (_, _)
    rw [sout3_A_5_eq, sout3_A_6_eq]; rfl
  | n + 1, hn => by
    have hN : n + 1 < 8 := lt_of_lt_of_eq hn (show cfg3.N = 8 from N_3)
    have h0 : ¬(n + 1) % 8 = 0 := by omega
    have ih := outsAt3_accs c n (Nat.lt_of_succ_lt hn)
    by_cases h1 : (n + 1) % 8 = 7
    · have e := outsAt3_C V c ⟨n + 1, hn⟩ h0 h1
      rw [show outsAt3 V c (n + 1) hn = outsAt3 V c (⟨n + 1, hn⟩ : Fin cfg3.N).val (⟨n + 1, hn⟩ : Fin cfg3.N).isLt from rfl, e]
      show (_, _) = (_, _)
      rw [sout3_C_5_eq, sout3_C_6_eq]
      show (step5 _ _ _ (outsAt3 V c n _).2.1, step6 _ _ _ (outsAt3 V c n _).2.2) = _
      rw [ih]
    · have e := outsAt3_B V c ⟨n + 1, hn⟩ h0 h1
      rw [show outsAt3 V c (n + 1) hn = outsAt3 V c (⟨n + 1, hn⟩ : Fin cfg3.N).val (⟨n + 1, hn⟩ : Fin cfg3.N).isLt from rfl, e]
      show (_, _) = (_, _)
      rw [sout3_B_5_eq, sout3_B_6_eq]
      show (step5 _ _ _ (outsAt3 V c n _).2.1, step6 _ _ _ (outsAt3 V c n _).2.2) = _
      rw [ih]

/-- At the last point the output window's block is the closing term of the two accumulators after it. -/
theorem outsAt3_last (c : Dev nD) (h7 : 7 < cfg3.N) :
    (outsAt3 V c 7 h7).1 = k3_pay3 (accs V c 7 h7).1 (accs V c 7 h7).2 := by
  have e := outsAt3_C V c ⟨7, h7⟩ (by show ¬((7 : ℕ) % 8 = 0); omega) (by show (7 : ℕ) % 8 = 7; rfl)
  rw [show outsAt3 V c 7 h7 = outsAt3 V c (⟨7, h7⟩ : Fin cfg3.N).val (⟨7, h7⟩ : Fin cfg3.N).isLt from rfl, e]
  dsimp only
  rw [out3_C_3_eq]
  show k3_pay3 (step5 _ _ _ (outsAt3 V c 6 _).2.1) (step6 _ _ _ (outsAt3 V c 6 _).2.2) = _
  rw [outsAt3_accs V c 6 (by have : cfg3.N = 8 := N_3; omega)]; rfl

end Cert.KernelIdeal.Hand

end
-- ==== Proof.EdgeRegions.lean ====
/- The class-A halves of regions 0, 1 and 2 of @main (the three edge-weighting kernels `cc0__edge_weight_kernel`,
   `cc1__edge_weight_kernel`, `cc2__edge_weight_kernel`, of one body), each stated at a parameter `V`, the TensorCore's
   buffer contents when the region is entered, at any float instance `F`.
   The body reads its two input blocks whole (a column of 12000 values and a block of 12000x64 values), reads the
   output block (a value nothing uses), and stores ONE whole block: each row of the second input scaled by the
   row's entry of the column. So the output buffer after the body is a function of the two input blocks alone
   (`outK_2`, equal to the product of the broadcast column with the block: `outK_2_eq`), the inputs are left as they
   were, and each pipeline's proof data (`datK`) states exactly that at every grid point. -/
import proofs.«178663_j17334488007154_2_alg».proof.Proof.Gen.KernelIdeal.Launch
import proofs.«178663_j17334488007154_2_alg».proof.Proof.Gen.KernelIdeal.Skeleton
import proofs.«178663_j17334488007154_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__edge_weight_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, at zero offsets -/

abbrev r0_0 : Rect S12000x1 := Rect.unit (s := S12000x1) ![0, 0] S12000x1.size inb_S12000x1_S12000x1_0_0
abbrev r0_1 : Rect S12000x64 := Rect.unit (s := S12000x64) ![0, 0] S12000x64.size inb_S12000x64_S12000x64_0_0

/-! ## What the body leaves in the output window's buffer -/

/-- Window 2's staging buffer after the body, from the input windows' blocks: its one store, of the product's
    payload over the two loaded blocks. -/
def out0_2 (x0 : Vec F S12000x1 .f32) (x1 : Vec F S12000x64 .f32) : Vec F S12000x64 .f32 :=
  View.canon [⟨r0_1, k0_pay1 (View.ld x0 r0_0) (View.ld x1 r0_1)⟩]

/-- The stored block is the column broadcast along the rows times the block, entry by entry: the one store covers
    the buffer, and a whole-buffer load at zero offsets reads the contents. -/
theorem out0_2_eq (x0 : Vec F S12000x1 .f32) (x1 : Vec F S12000x64 .f32) :
    out0_2 x0 x1 = mulf (broadcastTo S12000x64 (shapeCast S12000x1 x0 shapeCasts_S12000x1_S12000x1) broadcasts_S12000x1_S12000x64) (shapeCast S12000x64 x1 shapeCasts_S12000x64_S12000x64) := by
  have hz0 : (![0, 0] : Fin S12000x1.rank → Nat) = fun _ => 0 := funext fun a => by fin_cases a <;> rfl
  have hz1 : (![0, 0] : Fin S12000x64.rank → Nat) = fun _ => 0 := funext fun a => by fin_cases a <;> rfl
  unfold out0_2
  rw [View.canon_unit_zero hz1, View.ld_unit_zero hz0, View.ld_unit_zero hz1]
  rfl

/-- The one store covers the buffer. -/
theorem cover0_2 (p0 : Vec F S12000x64 .f32) (y : S12000x64.Idx) :
    ∃ pc ∈ ([⟨r0_1, p0⟩] : List (View.Piece (Elt F) S12000x64 .f32)), y ∈ pc.1.set :=
  View.cover_of_tiled [⟨r0_1, p0⟩] S12000x64.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords) (arg1 : Memref sig .tc .vmem S12000x1 .f32) (harg1 : arg1.IsWhole) (arg2 : Memref sig .tc .vmem S12000x64 .f32) (harg2 : arg2.IsWhole) (arg3 : Memref sig .tc .vmem S12000x64 .f32) (harg3 : arg3.IsWhole)
    (x0 : Vec F S12000x1 .f32) (x1 : Vec F S12000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__edge_weight_kernel i arg1 harg1 arg2 harg2 arg3 harg3) K := by
  simp only [cc0__edge_weight_kernel_eq_skeleton]; unfold cc0__edge_weight_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__edge_weight_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole, at zero offsets -/

abbrev r1_0 : Rect S12000x1 := Rect.unit (s := S12000x1) ![0, 0] S12000x1.size inb_S12000x1_S12000x1_0_0
abbrev r1_1 : Rect S12000x64 := Rect.unit (s := S12000x64) ![0, 0] S12000x64.size inb_S12000x64_S12000x64_0_0

/-! ## What the body leaves in the output window's buffer -/

/-- Window 2's staging buffer after the body, from the input windows' blocks: its one store, of the product's
    payload over the two loaded blocks. -/
def out1_2 (x0 : Vec F S12000x1 .f32) (x1 : Vec F S12000x64 .f32) : Vec F S12000x64 .f32 :=
  View.canon [⟨r1_1, k1_pay1 (View.ld x0 r1_0) (View.ld x1 r1_1)⟩]

/-- The stored block is the column broadcast along the rows times the block, entry by entry: the one store covers
    the buffer, and a whole-buffer load at zero offsets reads the contents. -/
theorem out1_2_eq (x0 : Vec F S12000x1 .f32) (x1 : Vec F S12000x64 .f32) :
    out1_2 x0 x1 = mulf (broadcastTo S12000x64 (shapeCast S12000x1 x0 shapeCasts_S12000x1_S12000x1) broadcasts_S12000x1_S12000x64) (shapeCast S12000x64 x1 shapeCasts_S12000x64_S12000x64) := by
  have hz0 : (![0, 0] : Fin S12000x1.rank → Nat) = fun _ => 0 := funext fun a => by fin_cases a <;> rfl
  have hz1 : (![0, 0] : Fin S12000x64.rank → Nat) = fun _ => 0 := funext fun a => by fin_cases a <;> rfl
  unfold out1_2
  rw [View.canon_unit_zero hz1, View.ld_unit_zero hz0, View.ld_unit_zero hz1]
  rfl

/-- The one store covers the buffer. -/
theorem cover1_2 (p0 : Vec F S12000x64 .f32) (y : S12000x64.Idx) :
    ∃ pc ∈ ([⟨r1_1, p0⟩] : List (View.Piece (Elt F) S12000x64 .f32)), y ∈ pc.1.set :=
  View.cover_of_tiled [⟨r1_1, p0⟩] S12000x64.size (by rfl) y

/-! ## The body's triple -/

set_option maxHeartbeats 1000000 in
/-- The kernel body on whole staging memrefs, the inputs' at contents `x0`, `x1` and the output's at anything, runs
    to the continuation holding the inputs' as they were and the output's at `out1_2 x0 x1`. -/
theorem sound_kernel1 (c : Dev nD) (E : Set ℕ) (i : grid1.Coords) (arg1 : Memref sig .tc .vmem S12000x1 .f32) (harg1 : arg1.IsWhole) (arg2 : Memref sig .tc .vmem S12000x64 .f32) (harg2 : arg2.IsWhole) (arg3 : Memref sig .tc .vmem S12000x64 .f32) (harg3 : arg3.IsWhole)
    (x0 : Vec F S12000x1 .f32) (x1 : Vec F S12000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__edge_weight_kernel i arg1 harg1 arg2 harg2 arg3 harg3) K := by
  simp only [cc1__edge_weight_kernel_eq_skeleton]; unfold cc1__edge_weight_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so `sound_kernel1`
    applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: `cc2__edge_weight_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole, at zero offsets -/

abbrev r2_0 : Rect S12000x1 := Rect.unit (s := S12000x1) ![0, 0] S12000x1.size inb_S12000x1_S12000x1_0_0
abbrev r2_1 : Rect S12000x64 := Rect.unit (s := S12000x64) ![0, 0] S12000x64.size inb_S12000x64_S12000x64_0_0

/-! ## What the body leaves in the output window's buffer -/

/-- Window 2's staging buffer after the body, from the input windows' blocks: its one store, of the product's
    payload over the two loaded blocks. -/
def out2_2 (x0 : Vec F S12000x1 .f32) (x1 : Vec F S12000x64 .f32) : Vec F S12000x64 .f32 :=
  View.canon [⟨r2_1, k2_pay1 (View.ld x0 r2_0) (View.ld x1 r2_1)⟩]

/-- The stored block is the column broadcast along the rows times the block, entry by entry: the one store covers
    the buffer, and a whole-buffer load at zero offsets reads the contents. -/
theorem out2_2_eq (x0 : Vec F S12000x1 .f32) (x1 : Vec F S12000x64 .f32) :
    out2_2 x0 x1 = mulf (broadcastTo S12000x64 (shapeCast S12000x1 x0 shapeCasts_S12000x1_S12000x1) broadcasts_S12000x1_S12000x64) (shapeCast S12000x64 x1 shapeCasts_S12000x64_S12000x64) := by
  have hz0 : (![0, 0] : Fin S12000x1.rank → Nat) = fun _ => 0 := funext fun a => by fin_cases a <;> rfl
  have hz1 : (![0, 0] : Fin S12000x64.rank → Nat) = fun _ => 0 := funext fun a => by fin_cases a <;> rfl
  unfold out2_2
  rw [View.canon_unit_zero hz1, View.ld_unit_zero hz0, View.ld_unit_zero hz1]
  rfl

/-- The one store covers the buffer. -/
theorem cover2_2 (p0 : Vec F S12000x64 .f32) (y : S12000x64.Idx) :
    ∃ pc ∈ ([⟨r2_1, p0⟩] : List (View.Piece (Elt F) S12000x64 .f32)), y ∈ pc.1.set :=
  View.cover_of_tiled [⟨r2_1, p0⟩] S12000x64.size (by rfl) y

/-! ## The body's triple -/

set_option maxHeartbeats 1000000 in
/-- The kernel body on whole staging memrefs, the inputs' at contents `x0`, `x1` and the output's at anything, runs
    to the continuation holding the inputs' as they were and the output's at `out2_2 x0 x1`. -/
theorem sound_kernel2 (c : Dev nD) (E : Set ℕ) (i : grid2.Coords) (arg1 : Memref sig .tc .vmem S12000x1 .f32) (harg1 : arg1.IsWhole) (arg2 : Memref sig .tc .vmem S12000x64 .f32) (harg2 : arg2.IsWhole) (arg3 : Memref sig .tc .vmem S12000x64 .f32) (harg3 : arg3.IsWhole)
    (x0 : Vec F S12000x1 .f32) (x1 : Vec F S12000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__edge_weight_kernel i arg1 harg1 arg2 harg2 arg3 harg3) K := by
  simp only [cc2__edge_weight_kernel_eq_skeleton]; unfold cc2__edge_weight_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KRun.lean ====
/-
  The whole program as a run: host operations, the three edge-weighting regions, the loss region, the closing
  reshape. The contents of every unscoped buffer at each boundary are a fold from the launch memory: a stretch of host
  operations applies them, a region replaces its output array by what its write-backs leave. Every weakly fair
  execution terminates with every unscoped buffer at the last fold's contents; the argument arrays read back through
  the fold to their launch contents, which is the frame.
-/
import proofs.«178663_j17334488007154_2_alg».proof.Proof.EdgeRegions
import proofs.«178663_j17334488007154_2_alg».proof.Proof.BprRegion
import proofs.«178663_j17334488007154_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s unscoped buffers at launch. -/
abbrev B0 : Dev nD → Valuation τ sig (Elt F) := fun c b => m (c, b)

/-- After the host operations before region 0: its entry contents. -/
abbrev B1 : Dev nD → Valuation τ sig (Elt F) := fun c => StableHlo.after hostOps0 (B0 m c)
/-- The same read at the TensorCore's references (what region 0's proof data take). -/
abbrev En1 : (c : Dev nD) → (b : Ref sig .tc) → Buf (Elt F) ((c : Thread nD τ).loc b) := fun c b => B1 m c b
/-- At region 0's exit: its arrays at what the pipeline leaves (the inputs as entered, the output's write-backs folded),
    every other buffer as entered. -/
def B2 (c : Dev nD) : Valuation τ sig (Elt F) :=
  Pipeline.withArrays spec0 c (B1 m c) fun w => (dat0 (En1 m) c).arrAt w cfg0.N
theorem B2_arr (c : Dev nD) (w : Fin cfg0.W) :
    B2 m c (Proc.devRef .tc (Pipeline.arrRef spec0 w)) = (dat0 (En1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Ex2 : (c : Dev nD) → (b : Ref sig .tc) → Buf (Elt F) ((c : Thread nD τ).loc b) := fun c b => B2 m c b
theorem hF0 (c : Dev nD) (w : Fin cfg0.W) : (dat0 (En1 m) c).arrAt w cfg0.N = Ex2 m c (Pipeline.arrRef spec0 w) :=
  (B2_arr m c w).symm
theorem hrest0 (c : Dev nD) : ∀ b, b ∉ Finset.univ.image (Pipeline.arrRef spec0) → Ex2 m c b = En1 m c b :=
  fun b hb => B2_of_ne m c b fun w e => hb (Finset.mem_image.mpr ⟨w, Finset.mem_univ _, e⟩)

/-- After the host operations before region 1: its entry contents. -/
abbrev B3 : Dev nD → Valuation τ sig (Elt F) := fun c => StableHlo.after hostOps1 (B2 m c)
/-- The same read at the TensorCore's references (what region 1's proof data take). -/
abbrev En3 : (c : Dev nD) → (b : Ref sig .tc) → Buf (Elt F) ((c : Thread nD τ).loc b) := fun c b => B3 m c b
/-- At region 1's exit: its arrays at what the pipeline leaves (the inputs as entered, the output's write-backs folded),
    every other buffer as entered. -/
def B4 (c : Dev nD) : Valuation τ sig (Elt F) :=
  Pipeline.withArrays spec1 c (B3 m c) fun w => (dat1 (En3 m) c).arrAt w cfg1.N
theorem B4_arr (c : Dev nD) (w : Fin cfg1.W) :
    B4 m c (Proc.devRef .tc (Pipeline.arrRef spec1 w)) = (dat1 (En3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev Ex4 : (c : Dev nD) → (b : Ref sig .tc) → Buf (Elt F) ((c : Thread nD τ).loc b) := fun c b => B4 m c b
theorem hF1 (c : Dev nD) (w : Fin cfg1.W) : (dat1 (En3 m) c).arrAt w cfg1.N = Ex4 m c (Pipeline.arrRef spec1 w) :=
  (B4_arr m c w).symm
theorem hrest1 (c : Dev nD) : ∀ b, b ∉ Finset.univ.image (Pipeline.arrRef spec1) → Ex4 m c b = En3 m c b :=
  fun b hb => B4_of_ne m c b fun w e => hb (Finset.mem_image.mpr ⟨w, Finset.mem_univ _, e⟩)

/-- After the host operations before region 2: its entry contents. -/
abbrev B5 : Dev nD → Valuation τ sig (Elt F) := fun c => StableHlo.after hostOps2 (B4 m c)
/-- The same read at the TensorCore's references (what region 2's proof data take). -/
abbrev En5 : (c : Dev nD) → (b : Ref sig .tc) → Buf (Elt F) ((c : Thread nD τ).loc b) := fun c b => B5 m c b
/-- At region 2's exit: its arrays at what the pipeline leaves (the inputs as entered, the output's write-backs folded),
    every other buffer as entered. -/
def B6 (c : Dev nD) : Valuation τ sig (Elt F) :=
  Pipeline.withArrays spec2 c (B5 m c) fun w => (dat2 (En5 m) c).arrAt w cfg2.N
theorem B6_arr (c : Dev nD) (w : Fin cfg2.W) :
    B6 m c (Proc.devRef .tc (Pipeline.arrRef spec2 w)) = (dat2 (En5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev Ex6 : (c : Dev nD) → (b : Ref sig .tc) → Buf (Elt F) ((c : Thread nD τ).loc b) := fun c b => B6 m c b
theorem hF2 (c : Dev nD) (w : Fin cfg2.W) : (dat2 (En5 m) c).arrAt w cfg2.N = Ex6 m c (Pipeline.arrRef spec2 w) :=
  (B6_arr m c w).symm
theorem hrest2 (c : Dev nD) : ∀ b, b ∉ Finset.univ.image (Pipeline.arrRef spec2) → Ex6 m c b = En5 m c b :=
  fun b hb => B6_of_ne m c b fun w e => hb (Finset.mem_image.mpr ⟨w, Finset.mem_univ _, e⟩)

/-- After the host operations before region 3: its entry contents. -/
abbrev B7 : Dev nD → Valuation τ sig (Elt F) := fun c => StableHlo.after hostOps3 (B6 m c)
/-- The same read at the TensorCore's references (what region 3's proof data take). -/
abbrev En7 : (c : Dev nD) → (b : Ref sig .tc) → Buf (Elt F) ((c : Thread nD τ).loc b) := fun c b => B7 m c b
/-- At region 3's exit: its arrays at what the pipeline leaves (the inputs as entered, the output's write-backs folded),
    every other buffer as entered. -/
def B8 (c : Dev nD) : Valuation τ sig (Elt F) :=
  Pipeline.withArrays spec3 c (B7 m c) fun w => (dat3 (En7 m) c).arrAt w cfg3.N
theorem B8_arr (c : Dev nD) (w : Fin cfg3.W) :
    B8 m c (Proc.devRef .tc (Pipeline.arrRef spec3 w)) = (dat3 (En7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev Ex8 : (c : Dev nD) → (b : Ref sig .tc) → Buf (Elt F) ((c : Thread nD τ).loc b) := fun c b => B8 m c b
theorem hF3 (c : Dev nD) (w : Fin cfg3.W) : (dat3 (En7 m) c).arrAt w cfg3.N = Ex8 m c (Pipeline.arrRef spec3 w) :=
  (B8_arr m c w).symm
theorem hrest3 (c : Dev nD) : ∀ b, b ∉ Finset.univ.image (Pipeline.arrRef spec3) → Ex8 m c b = En7 m c b :=
  fun b hb => B8_of_ne m c b fun w e => hb (Finset.mem_image.mpr ⟨w, Finset.mem_univ _, e⟩)

/-- After the last host operation (the reshape of the one-element result). -/
abbrev B9 : Dev nD → Valuation τ sig (Elt F) := fun c => StableHlo.after hostOps4 (B8 m c)

/-! ## The arguments end as launched -/

theorem B9_main_arg0 (c : Dev nD) : B9 m c (Proc.devRef .tc main_arg0) = m ((c : Thread nD τ).loc main_arg0) :=
  calc B9 m c (Proc.devRef .tc main_arg0)
    _ = B8 m c (Proc.devRef .tc main_arg0) := StableHlo.after_of_writes_sub hostOps4 _ hostOps4_writes (r := main_arg0) (by decide)
    _ = B7 m c (Proc.devRef .tc main_arg0) := B8_of_ne m c main_arg0 (by decide)
    _ = B6 m c (Proc.devRef .tc main_arg0) := StableHlo.after_of_writes_sub hostOps3 _ hostOps3_writes (r := main_arg0) (by decide)
    _ = B5 m c (Proc.devRef .tc main_arg0) := B6_of_ne m c main_arg0 (by decide)
    _ = B4 m c (Proc.devRef .tc main_arg0) := StableHlo.after_of_writes_sub hostOps2 _ hostOps2_writes (r := main_arg0) (by decide)
    _ = B3 m c (Proc.devRef .tc main_arg0) := B4_of_ne m c main_arg0 (by decide)
    _ = B2 m c (Proc.devRef .tc main_arg0) := StableHlo.after_of_writes_sub hostOps1 _ hostOps1_writes (r := main_arg0) (by decide)
    _ = B1 m c (Proc.devRef .tc main_arg0) := B2_of_ne m c main_arg0 (by decide)
    _ = B0 m c (Proc.devRef .tc main_arg0) := StableHlo.after_of_writes_sub hostOps0 _ hostOps0_writes (r := main_arg0) (by decide)
    _ = m ((c : Thread nD τ).loc main_arg0) := rfl

theorem B9_main_arg1 (c : Dev nD) : B9 m c (Proc.devRef .tc main_arg1) = m ((c : Thread nD τ).loc main_arg1) :=
  calc B9 m c (Proc.devRef .tc main_arg1)
    _ = B8 m c (Proc.devRef .tc main_arg1) := StableHlo.after_of_writes_sub hostOps4 _ hostOps4_writes (r := main_arg1) (by decide)
    _ = B7 m c (Proc.devRef .tc main_arg1) := B8_of_ne m c main_arg1 (by decide)
    _ = B6 m c (Proc.devRef .tc main_arg1) := StableHlo.after_of_writes_sub hostOps3 _ hostOps3_writes (r := main_arg1) (by decide)
    _ = B5 m c (Proc.devRef .tc main_arg1) := B6_of_ne m c main_arg1 (by decide)
    _ = B4 m c (Proc.devRef .tc main_arg1) := StableHlo.after_of_writes_sub hostOps2 _ hostOps2_writes (r := main_arg1) (by decide)
    _ = B3 m c (Proc.devRef .tc main_arg1) := B4_of_ne m c main_arg1 (by decide)
    _ = B2 m c (Proc.devRef .tc main_arg1) := StableHlo.after_of_writes_sub hostOps1 _ hostOps1_writes (r := main_arg1) (by decide)
    _ = B1 m c (Proc.devRef .tc main_arg1) := B2_of_ne m c main_arg1 (by decide)
    _ = B0 m c (Proc.devRef .tc main_arg1) := StableHlo.after_of_writes_sub hostOps0 _ hostOps0_writes (r := main_arg1) (by decide)
    _ = m ((c : Thread nD τ).loc main_arg1) := rfl

theorem B9_main_arg2 (c : Dev nD) : B9 m c (Proc.devRef .tc main_arg2) = m ((c : Thread nD τ).loc main_arg2) :=
  calc B9 m c (Proc.devRef .tc main_arg2)
    _ = B8 m c (Proc.devRef .tc main_arg2) := StableHlo.after_of_writes_sub hostOps4 _ hostOps4_writes (r := main_arg2) (by decide)
    _ = B7 m c (Proc.devRef .tc main_arg2) := B8_of_ne m c main_arg2 (by decide)
    _ = B6 m c (Proc.devRef .tc main_arg2) := StableHlo.after_of_writes_sub hostOps3 _ hostOps3_writes (r := main_arg2) (by decide)
    _ = B5 m c (Proc.devRef .tc main_arg2) := B6_of_ne m c main_arg2 (by decide)
    _ = B4 m c (Proc.devRef .tc main_arg2) := StableHlo.after_of_writes_sub hostOps2 _ hostOps2_writes (r := main_arg2) (by decide)
    _ = B3 m c (Proc.devRef .tc main_arg2) := B4_of_ne m c main_arg2 (by decide)
    _ = B2 m c (Proc.devRef .tc main_arg2) := StableHlo.after_of_writes_sub hostOps1 _ hostOps1_writes (r := main_arg2) (by decide)
    _ = B1 m c (Proc.devRef .tc main_arg2) := B2_of_ne m c main_arg2 (by decide)
    _ = B0 m c (Proc.devRef .tc main_arg2) := StableHlo.after_of_writes_sub hostOps0 _ hostOps0_writes (r := main_arg2) (by decide)
    _ = m ((c : Thread nD τ).loc main_arg2) := rfl

theorem B9_main_arg3 (c : Dev nD) : B9 m c (Proc.devRef .tc main_arg3) = m ((c : Thread nD τ).loc main_arg3) :=
  calc B9 m c (Proc.devRef .tc main_arg3)
    _ = B8 m c (Proc.devRef .tc main_arg3) := StableHlo.after_of_writes_sub hostOps4 _ hostOps4_writes (r := main_arg3) (by decide)
    _ = B7 m c (Proc.devRef .tc main_arg3) := B8_of_ne m c main_arg3 (by decide)
    _ = B6 m c (Proc.devRef .tc main_arg3) := StableHlo.after_of_writes_sub hostOps3 _ hostOps3_writes (r := main_arg3) (by decide)
    _ = B5 m c (Proc.devRef .tc main_arg3) := B6_of_ne m c main_arg3 (by decide)
    _ = B4 m c (Proc.devRef .tc main_arg3) := StableHlo.after_of_writes_sub hostOps2 _ hostOps2_writes (r := main_arg3) (by decide)
    _ = B3 m c (Proc.devRef .tc main_arg3) := B4_of_ne m c main_arg3 (by decide)
    _ = B2 m c (Proc.devRef .tc main_arg3) := StableHlo.after_of_writes_sub hostOps1 _ hostOps1_writes (r := main_arg3) (by decide)
    _ = B1 m c (Proc.devRef .tc main_arg3) := B2_of_ne m c main_arg3 (by decide)
    _ = B0 m c (Proc.devRef .tc main_arg3) := StableHlo.after_of_writes_sub hostOps0 _ hostOps0_writes (r := main_arg3) (by decide)
    _ = m ((c : Thread nD τ).loc main_arg3) := rfl

theorem B9_main_arg4 (c : Dev nD) : B9 m c (Proc.devRef .tc main_arg4) = m ((c : Thread nD τ).loc main_arg4) :=
  calc B9 m c (Proc.devRef .tc main_arg4)
    _ = B8 m c (Proc.devRef .tc main_arg4) := StableHlo.after_of_writes_sub hostOps4 _ hostOps4_writes (r := main_arg4) (by decide)
    _ = B7 m c (Proc.devRef .tc main_arg4) := B8_of_ne m c main_arg4 (by decide)
    _ = B6 m c (Proc.devRef .tc main_arg4) := StableHlo.after_of_writes_sub hostOps3 _ hostOps3_writes (r := main_arg4) (by decide)
    _ = B5 m c (Proc.devRef .tc main_arg4) := B6_of_ne m c main_arg4 (by decide)
    _ = B4 m c (Proc.devRef .tc main_arg4) := StableHlo.after_of_writes_sub hostOps2 _ hostOps2_writes (r := main_arg4) (by decide)
    _ = B3 m c (Proc.devRef .tc main_arg4) := B4_of_ne m c main_arg4 (by decide)
    _ = B2 m c (Proc.devRef .tc main_arg4) := StableHlo.after_of_writes_sub hostOps1 _ hostOps1_writes (r := main_arg4) (by decide)
    _ = B1 m c (Proc.devRef .tc main_arg4) := B2_of_ne m c main_arg4 (by decide)
    _ = B0 m c (Proc.devRef .tc main_arg4) := StableHlo.after_of_writes_sub hostOps0 _ hostOps0_writes (r := main_arg4) (by decide)
    _ = m ((c : Thread nD τ).loc main_arg4) := rfl

theorem B9_main_arg5 (c : Dev nD) : B9 m c (Proc.devRef .tc main_arg5) = m ((c : Thread nD τ).loc main_arg5) :=
  calc B9 m c (Proc.devRef .tc main_arg5)
    _ = B8 m c (Proc.devRef .tc main_arg5) := StableHlo.after_of_writes_sub hostOps4 _ hostOps4_writes (r := main_arg5) (by decide)
    _ = B7 m c (Proc.devRef .tc main_arg5) := B8_of_ne m c main_arg5 (by decide)
    _ = B6 m c (Proc.devRef .tc main_arg5) := StableHlo.after_of_writes_sub hostOps3 _ hostOps3_writes (r := main_arg5) (by decide)
    _ = B5 m c (Proc.devRef .tc main_arg5) := B6_of_ne m c main_arg5 (by decide)
    _ = B4 m c (Proc.devRef .tc main_arg5) := StableHlo.after_of_writes_sub hostOps2 _ hostOps2_writes (r := main_arg5) (by decide)
    _ = B3 m c (Proc.devRef .tc main_arg5) := B4_of_ne m c main_arg5 (by decide)
    _ = B2 m c (Proc.devRef .tc main_arg5) := StableHlo.after_of_writes_sub hostOps1 _ hostOps1_writes (r := main_arg5) (by decide)
    _ = B1 m c (Proc.devRef .tc main_arg5) := B2_of_ne m c main_arg5 (by decide)
    _ = B0 m c (Proc.devRef .tc main_arg5) := StableHlo.after_of_writes_sub hostOps0 _ hostOps0_writes (r := main_arg5) (by decide)
    _ = m ((c : Thread nD τ).loc main_arg5) := rfl

theorem B9_main_arg6 (c : Dev nD) : B9 m c (Proc.devRef .tc main_arg6) = m ((c : Thread nD τ).loc main_arg6) :=
  calc B9 m c (Proc.devRef .tc main_arg6)
    _ = B8 m c (Proc.devRef .tc main_arg6) := StableHlo.after_of_writes_sub hostOps4 _ hostOps4_writes (r := main_arg6) (by decide)
    _ = B7 m c (Proc.devRef .tc main_arg6) := B8_of_ne m c main_arg6 (by decide)
    _ = B6 m c (Proc.devRef .tc main_arg6) := StableHlo.after_of_writes_sub hostOps3 _ hostOps3_writes (r := main_arg6) (by decide)
    _ = B5 m c (Proc.devRef .tc main_arg6) := B6_of_ne m c main_arg6 (by decide)
    _ = B4 m c (Proc.devRef .tc main_arg6) := StableHlo.after_of_writes_sub hostOps2 _ hostOps2_writes (r := main_arg6) (by decide)
    _ = B3 m c (Proc.devRef .tc main_arg6) := B4_of_ne m c main_arg6 (by decide)
    _ = B2 m c (Proc.devRef .tc main_arg6) := StableHlo.after_of_writes_sub hostOps1 _ hostOps1_writes (r := main_arg6) (by decide)
    _ = B1 m c (Proc.devRef .tc main_arg6) := B2_of_ne m c main_arg6 (by decide)
    _ = B0 m c (Proc.devRef .tc main_arg6) := StableHlo.after_of_writes_sub hostOps0 _ hostOps0_writes (r := main_arg6) (by decide)
    _ = m ((c : Thread nD τ).loc main_arg6) := rfl

theorem B9_main_arg7 (c : Dev nD) : B9 m c (Proc.devRef .tc main_arg7) = m ((c : Thread nD τ).loc main_arg7) :=
  calc B9 m c (Proc.devRef .tc main_arg7)
    _ = B8 m c (Proc.devRef .tc main_arg7) := StableHlo.after_of_writes_sub hostOps4 _ hostOps4_writes (r := main_arg7) (by decide)
    _ = B7 m c (Proc.devRef .tc main_arg7) := B8_of_ne m c main_arg7 (by decide)
    _ = B6 m c (Proc.devRef .tc main_arg7) := StableHlo.after_of_writes_sub hostOps3 _ hostOps3_writes (r := main_arg7) (by decide)
    _ = B5 m c (Proc.devRef .tc main_arg7) := B6_of_ne m c main_arg7 (by decide)
    _ = B4 m c (Proc.devRef .tc main_arg7) := StableHlo.after_of_writes_sub hostOps2 _ hostOps2_writes (r := main_arg7) (by decide)
    _ = B3 m c (Proc.devRef .tc main_arg7) := B4_of_ne m c main_arg7 (by decide)
    _ = B2 m c (Proc.devRef .tc main_arg7) := StableHlo.after_of_writes_sub hostOps1 _ hostOps1_writes (r := main_arg7) (by decide)
    _ = B1 m c (Proc.devRef .tc main_arg7) := B2_of_ne m c main_arg7 (by decide)
    _ = B0 m c (Proc.devRef .tc main_arg7) := StableHlo.after_of_writes_sub hostOps0 _ hostOps0_writes (r := main_arg7) (by decide)
    _ = m ((c : Thread nD τ).loc main_arg7) := rfl

/-! ## The proof data family and the thread state -/

abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (En1 m) c
  | ⟨1, _⟩ => fun c => dat1 (En3 m) c
  | ⟨2, _⟩ => fun c => dat2 (En5 m) c
  | ⟨3, _⟩ => fun c => dat3 (En7 m) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RR (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TN (c : Dev nD) : sProp 𝕄 := iprop(StableHlo.held (c : Thread nD τ) (Pipeline.ucRefs τ sig) (B9 m c) ∗ ∃ r, prngReg c r)

/-! ## The regions as segments -/

set_option backward.isDefEq.respectTransparency.types false in
/-- Region 0 over the thread state: entered from every unscoped buffer at `B1`, left at `B2`. Its arrays are
    split out of the unscoped buffers and put back at the exit contents; the generator register goes into the region's
    invariant and comes back; nothing owed; no semaphore of the kernel's own. -/
def regH0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ LH lvH 0 fun _ _ => rfl
  pre c := iprop(StableHlo.held (c : Thread nD τ) (Pipeline.ucRefs τ sig) (B1 m c) ∗ RR c)
  post c := iprop(StableHlo.held (c : Thread nD τ) (Pipeline.ucRefs τ sig) (B2 m c) ∗ RR c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (En1 m c) (Ex2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are
    split out of the unscoped buffers and put back at the exit contents; the generator register goes into the region's
    invariant and comes back; nothing owed; no semaphore of the kernel's own. -/
def regH1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ LH lvH 1 fun _ _ => rfl
  pre c := iprop(StableHlo.held (c : Thread nD τ) (Pipeline.ucRefs τ sig) (B3 m c) ∗ RR c)
  post c := iprop(StableHlo.held (c : Thread nD τ) (Pipeline.ucRefs τ sig) (B4 m c) ∗ RR c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (En3 m c) (Ex4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are
    split out of the unscoped buffers and put back at the exit contents; the generator register goes into the region's
    invariant and comes back; nothing owed; no semaphore of the kernel's own. -/
def regH2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ LH lvH 2 fun _ _ => rfl
  pre c := iprop(StableHlo.held (c : Thread nD τ) (Pipeline.ucRefs τ sig) (B5 m c) ∗ RR c)
  post c := iprop(StableHlo.held (c : Thread nD τ) (Pipeline.ucRefs τ sig) (B6 m c) ∗ RR c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (En5 m c) (Ex6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B7`, left at `B8`. Its arrays are
    split out of the unscoped buffers and put back at the exit contents; the generator register goes into the region's
    invariant and comes back; nothing owed; no semaphore of the kernel's own. -/
def regH3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (En7 m) c).loose
  hwaits := Pipeline.hwaits_of_owed_zero _ _ _ _ LH lvH 3 fun _ _ => rfl
  pre c := iprop(StableHlo.held (c : Thread nD τ) (Pipeline.ucRefs τ sig) (B7 m c) ∗ RR c)
  post c := iprop(StableHlo.held (c : Thread nD τ) (Pipeline.ucRefs τ sig) (B8 m c) ∗ RR c)
  X c := iprop(∃ r, prngReg c r)
  Y c := iprop(∃ r, prngReg c r)
  Z c := Pipeline.unscopedRest (Ix := Unit) (Name := ℕ) (U := UR sig nD τ) (Lvl := ℕ) spec3 c (En7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (En7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (hin3 (En7 m) c); unfold Pipeline.ΦA
    iintro ⟨Hp, -, Hr⟩
    isplitl [Hr]; · iexact Hr
    iexact Hp
  hout c := by
    refine (hout3 (En7 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (En7 m c) (Ex8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segsH : List (Pipeline.Seg (pcfgs (F := F)) admH (pdatsH m) () defs₀ 𝒱H LH lvH) :=
  [ .host (hsegH hostOps0 hostOps0_sub hostOps0_fresh (B0 m)),
    .region (regH0 m),
    .host (hsegH hostOps1 hostOps1_sub hostOps1_fresh (B2 m)),
    .region (regH1 m),
    .host (hsegH hostOps2 hostOps2_sub hostOps2_fresh (B4 m)),
    .region (regH2 m),
    .host (hsegH hostOps3 hostOps3_sub hostOps3_fresh (B6 m)),
    .region (regH3 m),
    .host (hsegH hostOps4 hostOps4_sub hostOps4_fresh (B8 m)) ]
theorem main_runH (c : Dev nD) : main (F := F) c = Pipeline.Seg.run (segsH m) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B9 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RR c)) (Tₙ := TN m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B9 m c) ∗ RR c)
          ⊢ iprop(TN m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- THE FRAME at any instance: the argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucH main_arg0 (by decide))).trans (B9_main_arg0 m c),
     (h c _ (mem_ucH main_arg1 (by decide))).trans (B9_main_arg1 m c),
     (h c _ (mem_ucH main_arg2 (by decide))).trans (B9_main_arg2 m c),
     (h c _ (mem_ucH main_arg3 (by decide))).trans (B9_main_arg3 m c),
     (h c _ (mem_ucH main_arg4 (by decide))).trans (B9_main_arg4 m c),
     (h c _ (mem_ucH main_arg5 (by decide))).trans (B9_main_arg5 m c),
     (h c _ (mem_ucH main_arg6 (by decide))).trans (B9_main_arg6 m c),
     (h c _ (mem_ucH main_arg7 (by decide))).trans (B9_main_arg7 m c)⟩) (run_all m ρ)

end Cert.KernelIdeal.Hand

end
-- ==== Proof.KResult.lean ====
/-
  What the loss region leaves in its one-element output array, and what the program's result buffer holds at the
  end. Only the last grid point writes the output block back, and that block is the whole array, so after the region
  the array holds the last point's block: the closing term of the two accumulators. The program's last operation
  reshapes that [1,1] array to a scalar, which reads its one entry.
-/
import proofs.«178663_j17334488007154_2_alg».proof.Proof.BprFinal
import proofs.«178663_j17334488007154_2_alg».proof.Proof.KRun
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The output window's block index is (0, 0) at every point. -/
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)

/-- What a flushing point writes back is the last point's block (only the last point flushes). -/
theorem flushed3_3 (c : Dev nD) (h7 : 7 < cfg3.N) (t : Fin cfg3.N) (hf : (cfg3.win 3).flush t = true) :
    (dat3 V c).flushed 3 t = ((cfg3.win 3).blk t).view.read (Elt F) ((outsAt3 V c 7 h7).1) := by
  have ht : t.val % 8 = 7 := (flush3_3 t).mp hf
  have hN : t.val < 8 := lt_of_lt_of_eq t.isLt (show cfg3.N = 8 from N_3)
  obtain rfl : t = ⟨7, h7⟩ := Fin.ext (by show t.val = 7; omega)
  obtain ⟨e0, e1⟩ := idx3_3 ⟨7, h7⟩
  show (cfg3.win 3).cut (grid3.coords ⟨7, h7⟩) ((dat3 V c).after 3 ⟨7, h7⟩) = _
  rw [after3_3]
  funext j
  show (outsAt3 V c 7 h7).1 j = (outsAt3 V c 7 h7).1 (((cfg3.win 3).blk ⟨7, h7⟩).view.emb j)
  refine congrArg _ ?_
  funext a; apply Fin.ext
  match a with
  | ⟨0, _⟩ => show (j 0).val = win3_3.index ⟨7, h7⟩ (0 : Fin 2) * 1 + 1 * (j 0).val; omega
  | ⟨1, _⟩ => show (j 1).val = win3_3.index ⟨7, h7⟩ (1 : Fin 2) * 1 + 1 * (j 1).val; omega

/-- The last point's block covers the one-element array. -/
theorem cover3_3 (h7 : 7 < cfg3.N) (i : S1x1.Idx) :
    ∃ t : Fin cfg3.N, (cfg3.win 3).flush t = true ∧ i ∈ ((cfg3.win 3).blk t).view.set := by
  obtain ⟨e0, e1⟩ := idx3_3 ⟨7, h7⟩
  have hi0 : (i 0).val < 1 := (i 0).isLt
  have hi1 : (i 1).val < 1 := (i 1).isLt
  refine ⟨⟨7, h7⟩, (flush3_3 _).mpr (by show (7 : ℕ) % 8 = 7; rfl), ?_⟩
  show i ∈ ((View.whole main_v63).slice (win3_3.rect ⟨7, h7⟩)).set
  rw [View.set_slice_whole, Rect.mem_set_unit]
  intro a
  match a with
  | ⟨0, _⟩ => show win3_3.index ⟨7, h7⟩ (0 : Fin 2) * 1 ≤ (i 0).val ∧ (i 0).val < win3_3.index ⟨7, h7⟩ (0 : Fin 2) * 1 + 1; omega
  | ⟨1, _⟩ => show win3_3.index ⟨7, h7⟩ (1 : Fin 2) * 1 ≤ (i 1).val ∧ (i 1).val < win3_3.index ⟨7, h7⟩ (1 : Fin 2) * 1 + 1; omega

/-- After the region the output array holds the closing term of the two accumulators after the last point. -/
theorem final3 (c : Dev nD) (h7 : 7 < cfg3.N) :
    (dat3 V c).arrAt 3 cfg3.N = k3_pay3 (accs V c 7 h7).1 (accs V c 7 h7).2 :=
  ((dat3 V c).arrAt_eq_of_cover 3 ((outsAt3 V c 7 h7).1) (fun t hf => flushed3_3 V c h7 t hf) (cover3_3 h7)).trans
    (outsAt3_last V c h7)

variable (m : (ℓ : Loc nD τ sig) → Buf (Elt F) ℓ)

/-- The loss region's output array in the program's fold. -/
theorem B8_main_v63 (c : Dev nD) (h7 : 7 < cfg3.N) :
    B8 m c (Proc.devRef .tc main_v63) = k3_pay3 (accs (En7 m) c 7 h7).1 (accs (En7 m) c 7 h7).2 :=
  (B8_arr m c 3).trans (final3 (En7 m) c h7)

/-- The program's result: the one entry of that array. -/
theorem B9_main_v64 (c : Dev nD) :
    B9 m c (Proc.devRef .tc main_v64) = shapeCast S_ (B8 m c (Proc.devRef .tc main_v63)) shapeCasts_S1x1_S_ := by
  show StableHlo.after hostOps4 (B8 m c) (Proc.devRef .tc main_v64) = _
  after_results
  rfl

end Cert.KernelIdeal.Hand

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.BprIdeal.lean ====
/- The loss kernel's body terms read at the ideal instance (a float an extended real) as plain sums.
   A lane sum over the 64 columns of a [2048, 64] block is a finite sum over the column index, with no initial term;
   cast to a column, it is read at a row. The first accumulator's step adds, over the 2048 rows, minus the stable
   softplus of minus the difference of two row-wise dot products (the comparison of a value with itself for "ordered
   and unequal" is never true of an extended real, so the guarded branch is never taken); the second accumulator's
   step adds half the sum over the rows of the three rows' squared norms; the closing term divides, negates and adds.
   Each input block of the loss region is rows `2048 t … 2048 t + 2047` of its array. -/
import proofs.«178663_j17334488007154_2_alg».proof.Proof.BprFinal
import proofs.«178663_j17334488007154_2_alg».proof.Proof.LibKeepdims
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## The stable softplus, as the body spells it -/

/-- `max y 0 + log (1 + exp (0 - |y - 0|))`, the absolute value as `max a (-a)`, the zeros the body's zero word. -/
def softK (y : EReal) : EReal :=
  max y (Ideal.ofBits .f32 0x00000000#32) + Ideal.log1p (Ideal.exp (Ideal.ofBits .f32 0x00000000#32 - max (y - Ideal.ofBits .f32 0x00000000#32) (-(y - Ideal.ofBits .f32 0x00000000#32))))

/-- An extended real is never "ordered and unequal" to itself. -/
theorem cmp_one_self (d : EReal) : Ideal.cmp .one d d = 0#1 := by
  unfold Ideal.cmp
  simp

/-! ## The two reductions at an index -/

/-- The lane sum of a [2048, 64] block at row `r`: the sum over the 64 columns, no initial term. -/
theorem rowsum_apply (v : FVec Ideal S2048x64 .f32) (r : Fin 2048) :
    multiReduction .add [1] S2048 v 0x00000000#32 reduces_S2048x64_S2048 (.inl rfl) rfl (ix1 r) = ∑ k : Fin 64, v (ix2 r k) :=
  (Ideal.multiReduction_add_single v 0x00000000#32 reduces_S2048x64_S2048 (.inl rfl) rfl (ix1 r)).trans
    (Finset.sum_congr rfl fun k _ => congrArg v (funext fun a => Fin.ext (by
      match a with
      | ⟨0, _⟩ => rfl
      | ⟨1, _⟩ => rfl)))

/-- The sum of a [2048, 1] column over its rows, at the one index of [1]: the sum over the 2048 rows, no initial term. -/
theorem colsum_apply (v : FVec Ideal S2048x1 .f32) :
    multiReduction .add [0] S1 v 0x00000000#32 reduces_S2048x1_S1 (.inl rfl) rfl (ix1 (0 : Fin 1)) = ∑ r : Fin 2048, v (ix2 r (0 : Fin 1)) :=
  (Ideal.multiReduction_add_single v 0x00000000#32 reduces_S2048x1_S1 (.inl rfl) rfl (ix1 (0 : Fin 1))).trans
    (Finset.sum_congr rfl fun r _ => congrArg v (funext fun a => Fin.ext (by
      match a with
      | ⟨0, _⟩ => rfl
      | ⟨1, _⟩ => rfl)))

/-- The row-wise dot product of two blocks as the body spells it: the lane sum of the product, cast to a column. -/
def rowdot (a b : FVec Ideal S2048x64 .f32) : FVec Ideal S2048x1 .f32 :=
  shapeCast S2048x1 (multiReduction .add [1] S2048 (mulf a b) 0x00000000#32 reduces_S2048x64_S2048 (.inl rfl) rfl) shapeCasts_S2048_S2048x1

theorem rowdot_apply (a b : FVec Ideal S2048x64 .f32) (r : Fin 2048) (u : Fin 1) :
    rowdot a b (ix2 r u) = ∑ k : Fin 64, a (ix2 r k) * b (ix2 r k) := by
  unfold rowdot
  refine (shapeCast_a_a1_apply _ shapeCasts_S2048_S2048x1 r u).trans ?_
  exact (rowsum_apply (mulf a b) r).trans (Finset.sum_congr rfl fun k _ => mulf_apply a b _)

/-- The sum of a column over its rows as the body spells it: the reduction over axis 0, cast to [1, 1]. -/
def colsum (v : FVec Ideal S2048x1 .f32) : FVec Ideal S1x1 .f32 :=
  shapeCast S1x1 (multiReduction .add [0] S1 v 0x00000000#32 reduces_S2048x1_S1 (.inl rfl) rfl) shapeCasts_S1_S1x1

theorem colsum_apply' (v : FVec Ideal S2048x1 .f32) :
    colsum v (ix2 (n0 := 1) (n1 := 1) 0 0) = ∑ r : Fin 2048, v (ix2 r (0 : Fin 1)) := by
  unfold colsum
  refine (shapeCast_a_a1_apply _ shapeCasts_S1_S1x1 (0 : Fin 1) (0 : Fin 1)).trans ?_
  exact colsum_apply v

/-! ## The first accumulator's step -/

/-- The pointwise part of the step, from the two columns of row-wise dot products: `0 - select (…) (y + 0) (softplus y)`
    with `y = 0 - (d₁ - d₂)`. -/
def lsig (v11 v14 : FVec Ideal S2048x1 .f32) : FVec Ideal S2048x1 .f32 :=
  let z : FVec Ideal S2048x1 .f32 := broadcast S2048x1 (Scalar.ofBits .f32 0x00000000#32)
  let y : FVec Ideal S2048x1 .f32 := subf z (subf v11 v14)
  let q : FVec Ideal S2048x1 .f32 := subf y z
  subf z (select (cmpf .one q q) (addf y z) (addf (maximumf y z) (log1p (exp (subf z (absf q))))))

theorem lsig_apply (v11 v14 : FVec Ideal S2048x1 .f32) (j : S2048x1.Idx) :
    lsig v11 v14 j = Ideal.ofBits .f32 0x00000000#32 - softK (Ideal.ofBits .f32 0x00000000#32 - (v11 j - v14 j)) := by
  show Ideal.ofBits .f32 0x00000000#32 - Scalar.select (Ideal.cmp .one ((Ideal.ofBits .f32 0x00000000#32 - (v11 j - v14 j)) - Ideal.ofBits .f32 0x00000000#32) ((Ideal.ofBits .f32 0x00000000#32 - (v11 j - v14 j)) - Ideal.ofBits .f32 0x00000000#32))
      ((Ideal.ofBits .f32 0x00000000#32 - (v11 j - v14 j)) + Ideal.ofBits .f32 0x00000000#32) (softK (Ideal.ofBits .f32 0x00000000#32 - (v11 j - v14 j))) = _
  rw [cmp_one_self, select_zero]

/-- The body's term of the first accumulator is the accumulator plus the column sum of that pointwise part. -/
theorem pay9_eq (x1 x2 x3 : Vec Ideal S2048x64 .f32) (s : Vec Ideal S1x1 .f32) :
    k3_pay9 x1 x2 x3 s = addf s (colsum (lsig (rowdot (k3_pay6 x1) (k3_pay7 x2)) (rowdot (k3_pay6 x1) (k3_pay8 x3)))) := rfl

theorem pay6_eq (x : Vec Ideal S2048x64 .f32) : k3_pay6 x = x := shapeCast_self _ _
theorem pay7_eq (x : Vec Ideal S2048x64 .f32) : k3_pay7 x = x := shapeCast_self _ _
theorem pay8_eq (x : Vec Ideal S2048x64 .f32) : k3_pay8 x = x := shapeCast_self _ _

/-- One step of the first accumulator: what it held plus, summed over the 2048 rows, minus the softplus of minus the
    difference of the two row-wise dot products. -/
theorem step5_apply (x1 x2 x3 : Vec Ideal S2048x64 .f32) (s : Vec Ideal S1x1 .f32) :
    step5 x1 x2 x3 s (ix2 (n0 := 1) (n1 := 1) 0 0) = s (ix2 (n0 := 1) (n1 := 1) 0 0)
      + ∑ r : Fin 2048, (Ideal.ofBits .f32 0x00000000#32 - softK (Ideal.ofBits .f32 0x00000000#32
          - ((∑ k : Fin 64, x1 (ix2 (n0 := 2048) (n1 := 64) r k) * x2 (ix2 (n0 := 2048) (n1 := 64) r k))
            - (∑ k : Fin 64, x1 (ix2 (n0 := 2048) (n1 := 64) r k) * x3 (ix2 (n0 := 2048) (n1 := 64) r k))))) := by
  unfold step5 k3_pay1
  rw [shapeCast_self, pay9_eq, pay6_eq, pay7_eq, pay8_eq, addf_apply, colsum_apply']
  refine congrArg (s (ix2 (n0 := 1) (n1 := 1) 0 0) + ·) (Finset.sum_congr rfl fun r _ => ?_)
  rw [lsig_apply, rowdot_apply, rowdot_apply]

/-! ## The second accumulator's step -/

/-- The body's term of the second accumulator: the accumulator plus the column sum of the three squared norms, halved. -/
theorem pay2_eq (v4 v6 v8 : FVec Ideal S2048x64 .f32) (s : Vec Ideal S1x1 .f32) :
    k3_pay2 v4 v6 v8 s = shapeCast S1x1 (addf s (mulf (colsum (addf (addf (rowdot v4 v4) (rowdot v6 v6)) (rowdot v8 v8)))
      (broadcast S1x1 (Scalar.ofBits .f32 0x3F000000#32)))) shapeCasts_S1x1_S1x1 := rfl

/-- One step of the second accumulator: what it held plus the sum over the 2048 rows of the three rows' squared norms,
    times one half. -/
theorem step6_apply (x1 x2 x3 : Vec Ideal S2048x64 .f32) (s : Vec Ideal S1x1 .f32) :
    step6 x1 x2 x3 s (ix2 (n0 := 1) (n1 := 1) 0 0) = s (ix2 (n0 := 1) (n1 := 1) 0 0)
      + (∑ r : Fin 2048, (((∑ k : Fin 64, x1 (ix2 (n0 := 2048) (n1 := 64) r k) * x1 (ix2 (n0 := 2048) (n1 := 64) r k))
            + (∑ k : Fin 64, x2 (ix2 (n0 := 2048) (n1 := 64) r k) * x2 (ix2 (n0 := 2048) (n1 := 64) r k)))
          + (∑ k : Fin 64, x3 (ix2 (n0 := 2048) (n1 := 64) r k) * x3 (ix2 (n0 := 2048) (n1 := 64) r k))))
        * Ideal.ofBits .f32 0x3F000000#32 := by
  unfold step6
  rw [pay2_eq, shapeCast_self, pay6_eq, pay7_eq, pay8_eq, addf_apply, mulf_apply, colsum_apply']
  refine congrArg (s (ix2 (n0 := 1) (n1 := 1) 0 0) + ·) (congrArg (· * Ideal.ofBits .f32 0x3F000000#32) (Finset.sum_congr rfl fun r _ => ?_))
  rw [addf_apply, addf_apply, rowdot_apply, rowdot_apply, rowdot_apply]

/-! ## The closing term and the two zero splats -/

theorem pay3_apply (a b : Vec Ideal S1x1 .f32) :
    k3_pay3 a b (ix2 (n0 := 1) (n1 := 1) 0 0) = (Ideal.ofBits .f32 0x00000000#32 - Ideal.div (a (ix2 (n0 := 1) (n1 := 1) 0 0)) (Ideal.ofBits .f32 0x46800000#32))
      + Ideal.ofBits .f32 0x31D1B717#32 * b (ix2 (n0 := 1) (n1 := 1) 0 0) := rfl

theorem pay4_apply : (k3_pay4 (F := Ideal)) (ix2 (n0 := 1) (n1 := 1) 0 0) = Ideal.ofBits .f32 0x00000000#32 := by
  unfold k3_pay4
  rw [shapeCast_self]
  rfl

theorem pay5_apply : (k3_pay5 (F := Ideal)) (ix2 (n0 := 1) (n1 := 1) 0 0) = Ideal.ofBits .f32 0x00000000#32 := by
  unfold k3_pay5
  rw [shapeCast_self]
  rfl

/-! ## The loss region's input blocks as rows of their arrays -/

variable (V : (c : Dev nD) → (b : Ref sig .tc) → Buf (Elt Ideal) ((c : Thread nD τ).loc b))

/-- The printed index map of window 0, decided over the grid: at point `t` the block index is `(t, 0)`. -/
theorem blk3_idx_0 : ∀ t : Fin cfg3.N, win3_0.index t (0 : Fin 2) = t.val ∧ win3_0.index t (1 : Fin 2) = 0 :=
  (by decide +kernel : ∀ t : Fin grid3.N, _)
/-- The printed index map of window 1, decided over the grid: at point `t` the block index is `(t, 0)`. -/
theorem blk3_idx_1 : ∀ t : Fin cfg3.N, win3_1.index t (0 : Fin 2) = t.val ∧ win3_1.index t (1 : Fin 2) = 0 :=
  (by decide +kernel : ∀ t : Fin grid3.N, _)
/-- The printed index map of window 2, decided over the grid: at point `t` the block index is `(t, 0)`. -/
theorem blk3_idx_2 : ∀ t : Fin cfg3.N, win3_2.index t (0 : Fin 2) = t.val ∧ win3_2.index t (1 : Fin 2) = 0 :=
  (by decide +kernel : ∀ t : Fin grid3.N, _)

/-- Window 0's block at point `t`, read at (r, k): the array's entry at row `2048 t + r`, column `k`. -/
theorem iblk3_apply_0 (c : Dev nD) (t : Fin cfg3.N) (r : Fin 2048) (k : Fin 64) :
    (iblk3 V c 0 t : S2048x64.Idx → EReal) (ix2 (n0 := 2048) (n1 := 64) r k)
      = (V c (Pipeline.arrRef spec3 0) : S16384x64.Idx → EReal) (ix2 (n0 := 16384) (n1 := 64)
          ⟨t.val * 2048 + r.val, by have := t.isLt; have : cfg3.N = 8 := N_3; have := r.isLt; omega⟩ k) := by
  obtain ⟨e0, e1⟩ := blk3_idx_0 t
  show (V c (Pipeline.arrRef spec3 0) : S16384x64.Idx → EReal) (((cfg3.win 0).blk t).view.emb (ix2 (n0 := 2048) (n1 := 64) r k)) = _
  refine congrArg (V c (Pipeline.arrRef spec3 0) : S16384x64.Idx → EReal) ?_
  funext a; apply Fin.ext
  match a with
  | ⟨0, _⟩ => show win3_0.index t (0 : Fin 2) * 2048 + 1 * r.val = t.val * 2048 + r.val; omega
  | ⟨1, _⟩ => show win3_0.index t (1 : Fin 2) * 64 + 1 * k.val = k.val; omega

/-- Window 1's block at point `t`, read at (r, k): the array's entry at row `2048 t + r`, column `k`. -/
theorem iblk3_apply_1 (c : Dev nD) (t : Fin cfg3.N) (r : Fin 2048) (k : Fin 64) :
    (iblk3 V c 1 t : S2048x64.Idx → EReal) (ix2 (n0 := 2048) (n1 := 64) r k)
      = (V c (Pipeline.arrRef spec3 1) : S16384x64.Idx → EReal) (ix2 (n0 := 16384) (n1 := 64)
          ⟨t.val * 2048 + r.val, by have := t.isLt; have : cfg3.N = 8 := N_3; have := r.isLt; omega⟩ k) := by
  obtain ⟨e0, e1⟩ := blk3_idx_1 t
  show (V c (Pipeline.arrRef spec3 1) : S16384x64.Idx → EReal) (((cfg3.win 1).blk t).view.emb (ix2 (n0 := 2048) (n1 := 64) r k)) = _
  refine congrArg (V c (Pipeline.arrRef spec3 1) : S16384x64.Idx → EReal) ?_
  funext a; apply Fin.ext
  match a with
  | ⟨0, _⟩ => show win3_1.index t (0 : Fin 2) * 2048 + 1 * r.val = t.val * 2048 + r.val; omega
  | ⟨1, _⟩ => show win3_1.index t (1 : Fin 2) * 64 + 1 * k.val = k.val; omega

/-- Window 2's block at point `t`, read at (r, k): the array's entry at row `2048 t + r`, column `k`. -/
theorem iblk3_apply_2 (c : Dev nD) (t : Fin cfg3.N) (r : Fin 2048) (k : Fin 64) :
    (iblk3 V c 2 t : S2048x64.Idx → EReal) (ix2 (n0 := 2048) (n1 := 64) r k)
      = (V c (Pipeline.arrRef spec3 2) : S16384x64.Idx → EReal) (ix2 (n0 := 16384) (n1 := 64)
          ⟨t.val * 2048 + r.val, by have := t.isLt; have : cfg3.N = 8 := N_3; have := r.isLt; omega⟩ k) := by
  obtain ⟨e0, e1⟩ := blk3_idx_2 t
  show (V c (Pipeline.arrRef spec3 2) : S16384x64.Idx → EReal) (((cfg3.win 2).blk t).view.emb (ix2 (n0 := 2048) (n1 := 64) r k)) = _
  refine congrArg (V c (Pipeline.arrRef spec3 2) : S16384x64.Idx → EReal) ?_
  funext a; apply Fin.ext
  match a with
  | ⟨0, _⟩ => show win3_2.index t (0 : Fin 2) * 2048 + 1 * r.val = t.val * 2048 + r.val; omega
  | ⟨1, _⟩ => show win3_2.index t (1 : Fin 2) * 64 + 1 * k.val = k.val; omega

end Cert.KernelIdeal.Hand

end
-- ==== Proof.LibErealDistrib.lean ====
/-
  Two general laws of the extended reals: subtracting from zero is negation; and a FINITE non-negative real factor
  distributes over any finite sum of extended reals — the summands may be infinite, of either sign: no finiteness
  hypothesis on them is needed (the general distributive law fails on the extended reals only when the factor is
  infinite or the summands are infinities of opposite signs scaled by a signed factor).
-/
import Mathlib.Data.EReal.Operations
import Mathlib.Data.EReal.Inv
import Mathlib.Algebra.BigOperators.Fin

noncomputable section

namespace Cert.LibErealDistrib

/-- Subtracting an extended real from zero negates it. -/
theorem zero_sub_eq_neg (x : EReal) : 0 - x = -x := by rw [sub_eq_add_neg, zero_add]

/-- A finite non-negative real factor on the right distributes over a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The same with the factor on the left. -/
theorem mul_sum_coe {ι : Type*} (s : Finset ι) (f : ι → EReal) {c : ℝ} (hc : 0 ≤ c) :
    (c : EReal) * (∑ i ∈ s, f i) = ∑ i ∈ s, (c : EReal) * f i := by
  rw [mul_comm, sum_mul_coe s f hc]
  exact Finset.sum_congr rfl fun i _ => mul_comm _ _

end Cert.LibErealDistrib

end
-- ==== Proof.LossAlgebra.lean ====
/-
  The extended-real algebra that joins the loss kernel to its reference. The kernel adds, point by point over eight
  grid points, the sum over 2048 rows of a row term, and half the sum of the rows' squared norms; the reference
  sums over all 16384 rows at once, halves the three squared norms separately, and scales afterwards. The laws:
  sums regroup freely (addition of extended reals is commutative and associative); a FINITE non-negative real
  factor distributes over any sum of extended reals (no finiteness of the summands is needed); multiplication is
  associative and commutative; and the kernel's folded constant is the reference's constant divided by 16384,
  a power of two, so both are the same binary fraction.
-/
import Mathlib.Data.EReal.Operations
import Mathlib.Data.EReal.Inv
import Mathlib.Algebra.BigOperators.Fin
import Mathlib.Tactic
import Idealize.ShloMosaic.PureOps.Ideal
import proofs.«178663_j17334488007154_2_alg».proof.Proof.LibErealDistrib

noncomputable section

namespace Cert.LossAlgebra

open Idealize.ShloMosaic
open Cert.LibErealDistrib

/-! ## The float patterns the two programs spell, as the reals they denote -/

theorem ofBits_zero : Ideal.ofBits .f32 0x00000000#32 = 0 := by
  simp [Ideal.ofBits, Ideal.ieee]
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_16384 : Ideal.ofBits .f32 0x46800000#32 = ((16384 : ℝ) : EReal) := by
  simp [Ideal.ofBits, Ideal.ieee, -EReal.coe_mul]; norm_num
/-- The f32 nearest to 1e-4: 13743895 · 2⁻³⁷. -/
theorem ofBits_reg : Ideal.ofBits .f32 0x38D1B717#32 = ((13743895 / 137438953472 : ℝ) : EReal) := by
  simp [Ideal.ofBits, Ideal.ieee, -EReal.coe_mul]; norm_num
/-- The f32 nearest to 1e-4 / 16384: the same mantissa fourteen binades lower, 13743895 · 2⁻⁵¹. -/
theorem ofBits_regK : Ideal.ofBits .f32 0x31D1B717#32 = ((13743895 / 2251799813685248 : ℝ) : EReal) := by
  simp [Ideal.ofBits, Ideal.ieee, -EReal.coe_mul]; norm_num

/-! ## Small laws -/

/-- The sum over eight tiles of 2048 rows is the sum over the 16384 rows, row `r` of tile `t` being `2048 t + r`. -/
theorem sum_blocks {M : Type*} [AddCommMonoid M] (f : Fin 16384 → M) :
    ∑ t : Fin 8, ∑ r : Fin 2048, f ⟨t.val * 2048 + r.val, by have := t.isLt; have := r.isLt; omega⟩ = ∑ i : Fin 16384, f i := by
  rw [← Fintype.sum_prod_type']
  refine Fintype.sum_equiv (finProdFinEquiv (m := 8) (n := 2048)) _ _ fun x => ?_
  refine congrArg f (Fin.ext ?_)
  show x.1.val * 2048 + x.2.val = (finProdFinEquiv x).val
  rw [finProdFinEquiv_apply_val]; ring

/-- Eight successive additions are the start plus the sum. -/
theorem fold8_add (z : EReal) (T : Fin 8 → EReal) :
    (((((((z + T 0) + T 1) + T 2) + T 3) + T 4) + T 5) + T 6) + T 7 = z + ∑ t, T t := by
  rw [Fin.sum_univ_eight]; simp only [add_assoc]

/-- Eight successive additions of terms scaled by one finite non-negative real are the start plus the scaled sum. -/
theorem fold8_add_mul (z : EReal) (Q : Fin 8 → EReal) {c : ℝ} (hc : 0 ≤ c) :
    (((((((z + Q 0 * (c : EReal)) + Q 1 * c) + Q 2 * c) + Q 3 * c) + Q 4 * c) + Q 5 * c) + Q 6 * c) + Q 7 * c
      = z + (∑ t, Q t) * (c : EReal) := by
  rw [sum_mul_coe _ _ hc, Fin.sum_univ_eight]; simp only [add_assoc]

end Cert.LossAlgebra

end
-- ==== Proof.LossLaw.lean ====
/-
  The loss in its two arrangements over the same three arrays of 16384 rows by 64 columns, and their equality on the
  extended reals. The kernel's: eight tiles of 2048 rows, each tile's sum of row terms added to a running total
  started at zero, the running half-sum of squared norms scaled tile by tile, and at the end
  (0 − total / 16384) + c · halfsquares with c the folded constant. The reference's: one sum over all rows, each of
  the three squared norms summed over all entries and halved separately, then
  −(total / 16384) + c' · (halves / 16384). They agree because sums regroup, 0 − x = −x, a finite non-negative
  factor distributes over sums of extended reals, and c = c' / 16384 exactly.
-/
import proofs.«178663_j17334488007154_2_alg».proof.Proof.LossAlgebra

noncomputable section

namespace Cert.LossAlgebra

open Idealize.ShloMosaic
open Cert.LibErealDistrib

variable (u p n : Fin 16384 → Fin 64 → EReal)

/-- The inner product of row `i` of two arrays. -/
def dot (a b : Fin 16384 → Fin 64 → EReal) (i : Fin 16384) : EReal := ∑ k : Fin 64, a i k * b i k

/-- The kernel's row term: 0 − softplus(0 − score difference), the softplus in its stable form. -/
def rowK (i : Fin 16384) : EReal :=
  0 - (max (0 - (dot u p i - dot u n i)) 0
    + Ideal.log1p (Ideal.exp (0 - max ((0 - (dot u p i - dot u n i)) - 0) (-((0 - (dot u p i - dot u n i)) - 0)))))

/-- The reference's row term: the same with negations spelt as negations and each row sum started from zero. -/
def rowR (i : Fin 16384) : EReal :=
  -(max (-((0 + dot u p i) - (0 + dot u n i))) 0
    + Ideal.log1p (Ideal.exp (-(max ((-((0 + dot u p i) - (0 + dot u n i))) - 0) (-((-((0 + dot u p i) - (0 + dot u n i))) - 0))))))

theorem rowK_eq_rowR (i : Fin 16384) : rowK u p n i = rowR u p n i := by
  unfold rowK rowR
  simp only [zero_sub_eq_neg, zero_add]

/-- The three squared norms of row `i`, added. -/
def sqRow (i : Fin 16384) : EReal := (dot u u i + dot p p i) + dot n n i

/-- Row `r` of tile `t`. -/
def tileRow (t : Fin 8) (r : Fin 2048) : Fin 16384 := ⟨t.val * 2048 + r.val, by have := t.isLt; have := r.isLt; omega⟩

/-- Tile `t`'s sum of row terms, and of squared norms. -/
def tileT (t : Fin 8) : EReal := ∑ r : Fin 2048, rowK u p n (tileRow t r)
def tileQ (t : Fin 8) : EReal := ∑ r : Fin 2048, sqRow u p n (tileRow t r)

/-- The kernel's arrangement. -/
def lossK : EReal :=
  (0 - Ideal.div ((((((((0 + tileT u p n 0) + tileT u p n 1) + tileT u p n 2) + tileT u p n 3) + tileT u p n 4) + tileT u p n 5) + tileT u p n 6) + tileT u p n 7) ((16384 : ℝ) : EReal))
  + ((13743895 / 2251799813685248 : ℝ) : EReal)
    * ((((((((0 + tileQ u p n 0 * ((1 / 2 : ℝ) : EReal)) + tileQ u p n 1 * ((1 / 2 : ℝ) : EReal)) + tileQ u p n 2 * ((1 / 2 : ℝ) : EReal)) + tileQ u p n 3 * ((1 / 2 : ℝ) : EReal)) + tileQ u p n 4 * ((1 / 2 : ℝ) : EReal)) + tileQ u p n 5 * ((1 / 2 : ℝ) : EReal)) + tileQ u p n 6 * ((1 / 2 : ℝ) : EReal)) + tileQ u p n 7 * ((1 / 2 : ℝ) : EReal))

/-- The reference's arrangement. -/
def lossR : EReal :=
  -(Ideal.div (0 + ∑ i : Fin 16384, rowR u p n i) ((16384 : ℝ) : EReal))
  + ((13743895 / 137438953472 : ℝ) : EReal)
    * Ideal.div ((Ideal.div (0 + ∑ i : Fin 16384, dot u u i) ((2 : ℝ) : EReal) + Ideal.div (0 + ∑ i : Fin 16384, dot p p i) ((2 : ℝ) : EReal))
        + Ideal.div (0 + ∑ i : Fin 16384, dot n n i) ((2 : ℝ) : EReal)) ((16384 : ℝ) : EReal)

theorem sum_tileT : ∑ t : Fin 8, tileT u p n t = ∑ i : Fin 16384, rowR u p n i := by
  unfold tileT tileRow
  rw [sum_blocks (fun i => rowK u p n i)]
  exact Finset.sum_congr rfl fun i _ => rowK_eq_rowR u p n i

theorem sum_tileQ : ∑ t : Fin 8, tileQ u p n t
    = ((∑ i : Fin 16384, dot u u i) + ∑ i : Fin 16384, dot p p i) + ∑ i : Fin 16384, dot n n i := by
  unfold tileQ tileRow
  rw [sum_blocks (fun i => sqRow u p n i)]
  unfold sqRow
  rw [Finset.sum_add_distrib, Finset.sum_add_distrib]

/-- THE LAW: the two arrangements are one extended real. -/
theorem lossK_eq_lossR : lossK u p n = lossR u p n := by
  unfold lossK lossR
  have h2 : (2 : ℝ) ≠ 0 := by norm_num
  have h16 : (16384 : ℝ) ≠ 0 := by norm_num
  have hh : (0 : ℝ) ≤ 1 / 2 := by norm_num
  have hhE : (0 : EReal) ≤ ((1 / 2 : ℝ) : EReal) := EReal.coe_nonneg.mpr hh
  rw [fold8_add, fold8_add_mul _ _ hh, sum_tileT, sum_tileQ]
  simp only [Ideal.div_coe h2, Ideal.div_coe h16, zero_add, zero_sub_eq_neg]
  rw [← EReal.right_distrib_of_nonneg_of_ne_top hhE (EReal.coe_ne_top _),
    ← EReal.right_distrib_of_nonneg_of_ne_top hhE (EReal.coe_ne_top _)]
  have key : ∀ Y : EReal, ((13743895 / 2251799813685248 : ℝ) : EReal) * Y
      = ((13743895 / 137438953472 : ℝ) : EReal) * (Y * ((1 / 16384 : ℝ) : EReal)) := by
    intro Y
    have hc : ((13743895 / 2251799813685248 : ℝ) : EReal) = ((13743895 / 137438953472 : ℝ) : EReal) * ((1 / 16384 : ℝ) : EReal) := by
      rw [← EReal.coe_mul]; norm_num
    rw [hc, mul_assoc, mul_comm ((1 / 16384 : ℝ) : EReal)]
  rw [key]

end Cert.LossAlgebra

end
-- ==== Proof.KLoss.lean ====
/-
  The loss region's result as the kernel arrangement of the loss. At the ideal instance each grid point adds to the
  first accumulator the sum over its 2048 rows of the row term, and to the second the halved sum of the rows' squared
  norms; a point's rows are rows 2048 t … 2048 t + 2047 of the three arrays the region finds; so after the eighth point
  the closing term is the kernel arrangement over those arrays' rows.
-/
import proofs.«178663_j17334488007154_2_alg».proof.Proof.KResult
import proofs.«178663_j17334488007154_2_alg».proof.Proof.BprIdeal
import proofs.«178663_j17334488007154_2_alg».proof.Proof.LossLaw

set_option maxRecDepth 16384

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.LossAlgebra

variable (V : (c : Dev nD) → (b : Ref sig .tc) → Buf (Elt Ideal) ((c : Thread nD τ).loc b)) (c : Dev nD)

/-- An array of 16384 rows by 64 columns as a function of row and column. -/
def rowsOf (A : S16384x64.Idx → EReal) : Fin 16384 → Fin 64 → EReal := fun i k => A (ix2 (n0 := 16384) (n1 := 64) i k)

/-- The three arrays the loss region finds, by row and column. -/
def uR : Fin 16384 → Fin 64 → EReal := rowsOf (V c (Pipeline.arrRef spec3 0))
def pR : Fin 16384 → Fin 64 → EReal := rowsOf (V c (Pipeline.arrRef spec3 1))
def nR : Fin 16384 → Fin 64 → EReal := rowsOf (V c (Pipeline.arrRef spec3 2))

/-- Grid point `t` as a tile number. -/
def tileOf (t : Fin cfg3.N) : Fin 8 := ⟨t.val, lt_of_lt_of_eq t.isLt (show cfg3.N = 8 from N_3)⟩

/-- A tile's sum of row terms, in the body's spelling, from the tile's three blocks. -/
def tileTermT (x1 x2 x3 : S2048x64.Idx → EReal) : EReal :=
  ∑ r : Fin 2048, (Ideal.ofBits .f32 0x00000000#32 - softK (Ideal.ofBits .f32 0x00000000#32
    - ((∑ k : Fin 64, x1 (ix2 (n0 := 2048) (n1 := 64) r k) * x2 (ix2 (n0 := 2048) (n1 := 64) r k)) - (∑ k : Fin 64, x1 (ix2 (n0 := 2048) (n1 := 64) r k) * x3 (ix2 (n0 := 2048) (n1 := 64) r k)))))
/-- A tile's sum of the three squared norms of its rows. -/
def tileTermQ (x1 x2 x3 : S2048x64.Idx → EReal) : EReal :=
  ∑ r : Fin 2048, (((∑ k : Fin 64, x1 (ix2 (n0 := 2048) (n1 := 64) r k) * x1 (ix2 (n0 := 2048) (n1 := 64) r k)) + (∑ k : Fin 64, x2 (ix2 (n0 := 2048) (n1 := 64) r k) * x2 (ix2 (n0 := 2048) (n1 := 64) r k))) + (∑ k : Fin 64, x3 (ix2 (n0 := 2048) (n1 := 64) r k) * x3 (ix2 (n0 := 2048) (n1 := 64) r k)))

/-- Point `t`'s contribution to the first accumulator, and to the second before halving. -/
def TT (t : Fin cfg3.N) : EReal := tileTermT (iblk3 V c 0 t) (iblk3 V c 1 t) (iblk3 V c 2 t)
def QQ (t : Fin cfg3.N) : EReal := tileTermQ (iblk3 V c 0 t) (iblk3 V c 1 t) (iblk3 V c 2 t)

theorem TT_eq (t : Fin cfg3.N) : TT V c t = tileT (uR V c) (pR V c) (nR V c) (tileOf t) := by
  unfold TT tileTermT tileT
  refine Finset.sum_congr rfl fun r _ => ?_
  simp only [iblk3_apply_0, iblk3_apply_1, iblk3_apply_2, softK, ofBits_zero]
  rfl

theorem QQ_eq (t : Fin cfg3.N) : QQ V c t = tileQ (uR V c) (pR V c) (nR V c) (tileOf t) := by
  unfold QQ tileTermQ tileQ
  refine Finset.sum_congr rfl fun r _ => ?_
  simp only [iblk3_apply_0, iblk3_apply_1, iblk3_apply_2]
  rfl

/-- The first accumulator at its one index: zero plus the first point's contribution, then one contribution per point. -/
theorem acc1_zero (h0 : 0 < cfg3.N) : (accs V c 0 h0).1 (ix2 (n0 := 1) (n1 := 1) 0 0) = Ideal.ofBits .f32 0x00000000#32 + TT V c ⟨0, h0⟩ := by
  show step5 _ _ _ _ (ix2 (n0 := 1) (n1 := 1) 0 0) = _
  rw [step5_apply, pay4_apply]; rfl
theorem acc1_succ (n : ℕ) (hn : n + 1 < cfg3.N) :
    (accs V c (n + 1) hn).1 (ix2 (n0 := 1) (n1 := 1) 0 0) = (accs V c n (Nat.lt_of_succ_lt hn)).1 (ix2 (n0 := 1) (n1 := 1) 0 0) + TT V c ⟨n + 1, hn⟩ := by
  show step5 _ _ _ _ (ix2 (n0 := 1) (n1 := 1) 0 0) = _
  rw [step5_apply]; rfl
/-- The second accumulator likewise, each contribution halved. -/
theorem acc2_zero (h0 : 0 < cfg3.N) : (accs V c 0 h0).2 (ix2 (n0 := 1) (n1 := 1) 0 0) = Ideal.ofBits .f32 0x00000000#32 + QQ V c ⟨0, h0⟩ * Ideal.ofBits .f32 0x3F000000#32 := by
  show step6 _ _ _ _ (ix2 (n0 := 1) (n1 := 1) 0 0) = _
  rw [step6_apply, pay5_apply]; rfl
theorem acc2_succ (n : ℕ) (hn : n + 1 < cfg3.N) :
    (accs V c (n + 1) hn).2 (ix2 (n0 := 1) (n1 := 1) 0 0) = (accs V c n (Nat.lt_of_succ_lt hn)).2 (ix2 (n0 := 1) (n1 := 1) 0 0) + QQ V c ⟨n + 1, hn⟩ * Ideal.ofBits .f32 0x3F000000#32 := by
  show step6 _ _ _ _ (ix2 (n0 := 1) (n1 := 1) 0 0) = _
  rw [step6_apply]; rfl

/-- THE REGION'S RESULT: the closing term of the accumulators after the eighth point is the kernel arrangement of the
    loss over the rows of the three arrays the region finds. -/
theorem region3_value (h7 : 7 < cfg3.N) :
    k3_pay3 (accs V c 7 h7).1 (accs V c 7 h7).2 (ix2 (n0 := 1) (n1 := 1) 0 0) = lossK (uR V c) (pR V c) (nR V c) := by
  rw [pay3_apply]
  rw [acc1_succ V c 6 h7, acc1_succ V c 5, acc1_succ V c 4, acc1_succ V c 3, acc1_succ V c 2, acc1_succ V c 1, acc1_succ V c 0, acc1_zero V c]
  rw [acc2_succ V c 6 h7, acc2_succ V c 5, acc2_succ V c 4, acc2_succ V c 3, acc2_succ V c 2, acc2_succ V c 1, acc2_succ V c 0, acc2_zero V c]
  simp only [TT_eq, QQ_eq, ofBits_zero, ofBits_half, ofBits_16384, ofBits_regK]
  rfl

end Cert.KernelIdeal.Hand

end
-- ==== Proof.EdgeValue.lean ====
/- The value of the three edge-weighting regions' output arrays, at the ideal instance (a float an extended real).
   Each region's output array after the region, entry (e, k), is the column's entry (e, 0) times the block array's
   entry (e, k), the two input arrays read as the region finds them: every one of the 250 blocks of 12000 rows that a
   grid point writes back is the restriction of this one function of the index, and the blocks cover the array. -/
import proofs.«178663_j17334488007154_2_alg».proof.Proof.EdgeRegions
import Idealize.ShloMosaic.Lib.ValueIdx
import Idealize.ShloMosaic.Lib.Pipeline.Value
import Idealize.ShloMosaic.PureOps.Ideal

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-- Entry (e, k) of the weighted array: the column's entry of row e times the block array's entry (e, k). -/
abbrev edgeG (a0 : S3000000x1.Idx → EReal) (a1 : S3000000x64.Idx → EReal) : S3000000x64.Idx → EReal :=
  fun i => a0 (ix2 (n0 := 3000000) (n1 := 1) (i 0) 0) * a1 i

/-- The stored block at an index (r, k): the loaded column's entry (r, 0) times the loaded block's entry (r, k). A
    shape cast to the same shape is the identity, the broadcast along the rows reads the column at the row, and the
    product of extended reals is taken entry by entry. -/
theorem edge_pay_apply (x0 : Vec Ideal S12000x1 .f32) (x1 : Vec Ideal S12000x64 .f32) (j : S12000x64.Idx) :
    (mulf (broadcastTo S12000x64 (shapeCast S12000x1 x0 shapeCasts_S12000x1_S12000x1) broadcasts_S12000x1_S12000x64)
        (shapeCast S12000x64 x1 shapeCasts_S12000x64_S12000x64) : FVec Ideal S12000x64 .f32) j
      = (x0 : S12000x1.Idx → EReal) (ix2 (n0 := 12000) (n1 := 1) (j 0) 0) * (x1 : S12000x64.Idx → EReal) j := by
  rw [shapeCast_self, shapeCast_self, mulf_apply]
  refine congrArg (· * _) ?_
  refine broadcastTo_apply x0 _ j (ix2 (n0 := 12000) (n1 := 1) (j 0) 0) fun a => ?_
  match a with
  | ⟨0, _⟩ => rfl
  | ⟨1, _⟩ => rfl

/-- The product of one entry of a column array with one entry of a block array. -/
abbrev edgeMul (a0 : S3000000x1.Idx → EReal) (a1 : S3000000x64.Idx → EReal) (k0 : S3000000x1.Idx) (k1 : S3000000x64.Idx) : EReal :=
  a0 k0 * a1 k1

variable (V : (c : Dev nD) → (b : Ref sig .tc) → Buf (Elt Ideal) ((c : Thread nD τ).loc b))

/-! # Region 0 -/

/-- The printed index maps, decided over the grid: at point `t` every window's block index is `(t, 0)`. -/
theorem edge_idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `edgeG` of the two input arrays as the region finds them: a block's
    element (r, k) sits in its array at row `t * 12000 + r`, in all three windows. -/
theorem edge_flushed0 (c : Dev nD) (t : Fin cfg0.N) :
    (dat0 (F := Ideal) V c).flushed 2 t
      = ((cfg0.win 2).blk t).view.read (Elt Ideal) (edgeG (V c (Pipeline.arrRef spec0 0)) (V c (Pipeline.arrRef spec0 1))) := by
  show (cfg0.win 2).cut (grid0.coords t) ((dat0 V c).after 2 t) = _
  rw [after0_2, out0_2_eq]
  obtain ⟨e0, e1, e2, e3, e4, e5⟩ := edge_idx0 t
  funext j
  refine (edge_pay_apply (iblk0 V c 0 t) (iblk0 V c 1 t) j).trans ?_
  show edgeMul (V c (Pipeline.arrRef spec0 0)) (V c (Pipeline.arrRef spec0 1))
      (((cfg0.win 0).blk t).view.emb (ix2 (n0 := 12000) (n1 := 1) (j 0) 0)) (((cfg0.win 1).blk t).view.emb j)
    = edgeMul (V c (Pipeline.arrRef spec0 0)) (V c (Pipeline.arrRef spec0 1))
      (ix2 (n0 := 3000000) (n1 := 1) ((((cfg0.win 2).blk t).view.emb j) 0) 0) (((cfg0.win 2).blk t).view.emb j)
  have h0 : ((cfg0.win 0).blk t).view.emb (ix2 (n0 := 12000) (n1 := 1) (j 0) 0)
      = ix2 (n0 := 3000000) (n1 := 1) ((((cfg0.win 2).blk t).view.emb j) 0) 0 := by
    funext a; apply Fin.ext
    match a with
    | ⟨0, _⟩ => show win0_0.index t (0 : Fin 2) * 12000 + 1 * (j 0).val = win0_2.index t (0 : Fin 2) * 12000 + 1 * (j 0).val; omega
    | ⟨1, _⟩ => show win0_0.index t (1 : Fin 2) * 1 + 1 * 0 = 0; omega
  have h1 : ((cfg0.win 1).blk t).view.emb j = ((cfg0.win 2).blk t).view.emb j := by
    funext a; apply Fin.ext
    match a with
    | ⟨0, _⟩ => show win0_1.index t (0 : Fin 2) * 12000 + 1 * (j 0).val = win0_2.index t (0 : Fin 2) * 12000 + 1 * (j 0).val; omega
    | ⟨1, _⟩ => show win0_1.index t (1 : Fin 2) * 64 + 1 * (j 1).val = win0_2.index t (1 : Fin 2) * 64 + 1 * (j 1).val; omega
  rw [h0, h1]

/-- An index of the output array is in point `t`'s block iff each coordinate is in the block's range on its axis. -/
theorem edge_mem_blk0 (t : Fin cfg0.N) (i : S3000000x64.Idx) :
    i ∈ ((cfg0.win 2).blk t).view.set ↔ ∀ a : Fin 2, win0_2.index t a * S12000x64.size a ≤ (i a).val ∧ (i a).val < win0_2.index t a * S12000x64.size a + S12000x64.size a := by
  show i ∈ ((View.whole main_v9).slice (win0_2.rect t)).set ↔ _
  rw [View.set_slice_whole, Rect.mem_set_unit]
  exact Iff.rfl

/-- Every index of the output array is in some point's block: row `r` is in the block of point `r / 12000`. -/
theorem edge_cover0 (i : S3000000x64.Idx) :
    ∃ t : Fin cfg0.N, (cfg0.win 2).flush t = true ∧ i ∈ ((cfg0.win 2).blk t).view.set := by
  have hN : grid0.N = 250 := N_0
  have hi0 : (i 0).val < 3000000 := (i 0).isLt
  have hi1 : (i 1).val < 64 := (i 1).isLt
  have hlt : (i 0).val / 12000 < grid0.N := by omega
  obtain ⟨-, -, -, -, e4, e5⟩ := edge_idx0 ⟨(i 0).val / 12000, hlt⟩
  have q0 : win0_2.index ⟨(i 0).val / 12000, hlt⟩ (0 : Fin 2) = (i 0).val / 12000 := e4
  refine ⟨⟨(i 0).val / 12000, hlt⟩, flush0_2 _, ?_⟩
  rw [edge_mem_blk0]
  intro a
  match a with
  | ⟨0, _⟩ => show win0_2.index ⟨(i 0).val / 12000, hlt⟩ (0 : Fin 2) * 12000 ≤ (i 0).val ∧ (i 0).val < win0_2.index ⟨(i 0).val / 12000, hlt⟩ (0 : Fin 2) * 12000 + 12000; omega
  | ⟨1, _⟩ => show win0_2.index ⟨(i 0).val / 12000, hlt⟩ (1 : Fin 2) * 64 ≤ (i 1).val ∧ (i 1).val < win0_2.index ⟨(i 0).val / 12000, hlt⟩ (1 : Fin 2) * 64 + 64; omega

/-- The output array after the region: entry (e, k) is the column array's entry (e, 0) times the block array's
    entry (e, k), both as the region finds them. -/
theorem edge_arrAt0 (c : Dev nD) :
    (dat0 (F := Ideal) V c).arrAt 2 cfg0.N = edgeG (V c (Pipeline.arrRef spec0 0)) (V c (Pipeline.arrRef spec0 1)) :=
  (dat0 (F := Ideal) V c).arrAt_eq_of_cover 2 (edgeG (V c (Pipeline.arrRef spec0 0)) (V c (Pipeline.arrRef spec0 1)))
    (fun t _ => edge_flushed0 V c t) (edge_cover0)

/-! # Region 1 -/

/-- The printed index maps, decided over the grid: at point `t` every window's block index is `(t, 0)`. -/
theorem edge_idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `edgeG` of the two input arrays as the region finds them: a block's
    element (r, k) sits in its array at row `t * 12000 + r`, in all three windows. -/
theorem edge_flushed1 (c : Dev nD) (t : Fin cfg1.N) :
    (dat1 (F := Ideal) V c).flushed 2 t
      = ((cfg1.win 2).blk t).view.read (Elt Ideal) (edgeG (V c (Pipeline.arrRef spec1 0)) (V c (Pipeline.arrRef spec1 1))) := by
  show (cfg1.win 2).cut (grid1.coords t) ((dat1 V c).after 2 t) = _
  rw [after1_2, out1_2_eq]
  obtain ⟨e0, e1, e2, e3, e4, e5⟩ := edge_idx1 t
  funext j
  refine (edge_pay_apply (iblk1 V c 0 t) (iblk1 V c 1 t) j).trans ?_
  show edgeMul (V c (Pipeline.arrRef spec1 0)) (V c (Pipeline.arrRef spec1 1))
      (((cfg1.win 0).blk t).view.emb (ix2 (n0 := 12000) (n1 := 1) (j 0) 0)) (((cfg1.win 1).blk t).view.emb j)
    = edgeMul (V c (Pipeline.arrRef spec1 0)) (V c (Pipeline.arrRef spec1 1))
      (ix2 (n0 := 3000000) (n1 := 1) ((((cfg1.win 2).blk t).view.emb j) 0) 0) (((cfg1.win 2).blk t).view.emb j)
  have h0 : ((cfg1.win 0).blk t).view.emb (ix2 (n0 := 12000) (n1 := 1) (j 0) 0)
      = ix2 (n0 := 3000000) (n1 := 1) ((((cfg1.win 2).blk t).view.emb j) 0) 0 := by
    funext a; apply Fin.ext
    match a with
    | ⟨0, _⟩ => show win1_0.index t (0 : Fin 2) * 12000 + 1 * (j 0).val = win1_2.index t (0 : Fin 2) * 12000 + 1 * (j 0).val; omega
    | ⟨1, _⟩ => show win1_0.index t (1 : Fin 2) * 1 + 1 * 0 = 0; omega
  have h1 : ((cfg1.win 1).blk t).view.emb j = ((cfg1.win 2).blk t).view.emb j := by
    funext a; apply Fin.ext
    match a with
    | ⟨0, _⟩ => show win1_1.index t (0 : Fin 2) * 12000 + 1 * (j 0).val = win1_2.index t (0 : Fin 2) * 12000 + 1 * (j 0).val; omega
    | ⟨1, _⟩ => show win1_1.index t (1 : Fin 2) * 64 + 1 * (j 1).val = win1_2.index t (1 : Fin 2) * 64 + 1 * (j 1).val; omega
  rw [h0, h1]

/-- An index of the output array is in point `t`'s block iff each coordinate is in the block's range on its axis. -/
theorem edge_mem_blk1 (t : Fin cfg1.N) (i : S3000000x64.Idx) :
    i ∈ ((cfg1.win 2).blk t).view.set ↔ ∀ a : Fin 2, win1_2.index t a * S12000x64.size a ≤ (i a).val ∧ (i a).val < win1_2.index t a * S12000x64.size a + S12000x64.size a := by
  show i ∈ ((View.whole main_v21).slice (win1_2.rect t)).set ↔ _
  rw [View.set_slice_whole, Rect.mem_set_unit]
  exact Iff.rfl

/-- Every index of the output array is in some point's block: row `r` is in the block of point `r / 12000`. -/
theorem edge_cover1 (i : S3000000x64.Idx) :
    ∃ t : Fin cfg1.N, (cfg1.win 2).flush t = true ∧ i ∈ ((cfg1.win 2).blk t).view.set := by
  have hN : grid1.N = 250 := N_1
  have hi0 : (i 0).val < 3000000 := (i 0).isLt
  have hi1 : (i 1).val < 64 := (i 1).isLt
  have hlt : (i 0).val / 12000 < grid1.N := by omega
  obtain ⟨-, -, -, -, e4, e5⟩ := edge_idx1 ⟨(i 0).val / 12000, hlt⟩
  have q0 : win1_2.index ⟨(i 0).val / 12000, hlt⟩ (0 : Fin 2) = (i 0).val / 12000 := e4
  refine ⟨⟨(i 0).val / 12000, hlt⟩, flush1_2 _, ?_⟩
  rw [edge_mem_blk1]
  intro a
  match a with
  | ⟨0, _⟩ => show win1_2.index ⟨(i 0).val / 12000, hlt⟩ (0 : Fin 2) * 12000 ≤ (i 0).val ∧ (i 0).val < win1_2.index ⟨(i 0).val / 12000, hlt⟩ (0 : Fin 2) * 12000 + 12000; omega
  | ⟨1, _⟩ => show win1_2.index ⟨(i 0).val / 12000, hlt⟩ (1 : Fin 2) * 64 ≤ (i 1).val ∧ (i 1).val < win1_2.index ⟨(i 0).val / 12000, hlt⟩ (1 : Fin 2) * 64 + 64; omega

/-- The output array after the region: entry (e, k) is the column array's entry (e, 0) times the block array's
    entry (e, k), both as the region finds them. -/
theorem edge_arrAt1 (c : Dev nD) :
    (dat1 (F := Ideal) V c).arrAt 2 cfg1.N = edgeG (V c (Pipeline.arrRef spec1 0)) (V c (Pipeline.arrRef spec1 1)) :=
  (dat1 (F := Ideal) V c).arrAt_eq_of_cover 2 (edgeG (V c (Pipeline.arrRef spec1 0)) (V c (Pipeline.arrRef spec1 1)))
    (fun t _ => edge_flushed1 V c t) (edge_cover1)

/-! # Region 2 -/

/-- The printed index maps, decided over the grid: at point `t` every window's block index is `(t, 0)`. -/
theorem edge_idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `edgeG` of the two input arrays as the region finds them: a block's
    element (r, k) sits in its array at row `t * 12000 + r`, in all three windows. -/
theorem edge_flushed2 (c : Dev nD) (t : Fin cfg2.N) :
    (dat2 (F := Ideal) V c).flushed 2 t
      = ((cfg2.win 2).blk t).view.read (Elt Ideal) (edgeG (V c (Pipeline.arrRef spec2 0)) (V c (Pipeline.arrRef spec2 1))) := by
  show (cfg2.win 2).cut (grid2.coords t) ((dat2 V c).after 2 t) = _
  rw [after2_2, out2_2_eq]
  obtain ⟨e0, e1, e2, e3, e4, e5⟩ := edge_idx2 t
  funext j
  refine (edge_pay_apply (iblk2 V c 0 t) (iblk2 V c 1 t) j).trans ?_
  show edgeMul (V c (Pipeline.arrRef spec2 0)) (V c (Pipeline.arrRef spec2 1))
      (((cfg2.win 0).blk t).view.emb (ix2 (n0 := 12000) (n1 := 1) (j 0) 0)) (((cfg2.win 1).blk t).view.emb j)
    = edgeMul (V c (Pipeline.arrRef spec2 0)) (V c (Pipeline.arrRef spec2 1))
      (ix2 (n0 := 3000000) (n1 := 1) ((((cfg2.win 2).blk t).view.emb j) 0) 0) (((cfg2.win 2).blk t).view.emb j)
  have h0 : ((cfg2.win 0).blk t).view.emb (ix2 (n0 := 12000) (n1 := 1) (j 0) 0)
      = ix2 (n0 := 3000000) (n1 := 1) ((((cfg2.win 2).blk t).view.emb j) 0) 0 := by
    funext a; apply Fin.ext
    match a with
    | ⟨0, _⟩ => show win2_0.index t (0 : Fin 2) * 12000 + 1 * (j 0).val = win2_2.index t (0 : Fin 2) * 12000 + 1 * (j 0).val; omega
    | ⟨1, _⟩ => show win2_0.index t (1 : Fin 2) * 1 + 1 * 0 = 0; omega
  have h1 : ((cfg2.win 1).blk t).view.emb j = ((cfg2.win 2).blk t).view.emb j := by
    funext a; apply Fin.ext
    match a with
    | ⟨0, _⟩ => show win2_1.index t (0 : Fin 2) * 12000 + 1 * (j 0).val = win2_2.index t (0 : Fin 2) * 12000 + 1 * (j 0).val; omega
    | ⟨1, _⟩ => show win2_1.index t (1 : Fin 2) * 64 + 1 * (j 1).val = win2_2.index t (1 : Fin 2) * 64 + 1 * (j 1).val; omega
  rw [h0, h1]

/-- An index of the output array is in point `t`'s block iff each coordinate is in the block's range on its axis. -/
theorem edge_mem_blk2 (t : Fin cfg2.N) (i : S3000000x64.Idx) :
    i ∈ ((cfg2.win 2).blk t).view.set ↔ ∀ a : Fin 2, win2_2.index t a * S12000x64.size a ≤ (i a).val ∧ (i a).val < win2_2.index t a * S12000x64.size a + S12000x64.size a := by
  show i ∈ ((View.whole main_v33).slice (win2_2.rect t)).set ↔ _
  rw [View.set_slice_whole, Rect.mem_set_unit]
  exact Iff.rfl

/-- Every index of the output array is in some point's block: row `r` is in the block of point `r / 12000`. -/
theorem edge_cover2 (i : S3000000x64.Idx) :
    ∃ t : Fin cfg2.N, (cfg2.win 2).flush t = true ∧ i ∈ ((cfg2.win 2).blk t).view.set := by
  have hN : grid2.N = 250 := N_2
  have hi0 : (i 0).val < 3000000 := (i 0).isLt
  have hi1 : (i 1).val < 64 := (i 1).isLt
  have hlt : (i 0).val / 12000 < grid2.N := by omega
  obtain ⟨-, -, -, -, e4, e5⟩ := edge_idx2 ⟨(i 0).val / 12000, hlt⟩
  have q0 : win2_2.index ⟨(i 0).val / 12000, hlt⟩ (0 : Fin 2) = (i 0).val / 12000 := e4
  refine ⟨⟨(i 0).val / 12000, hlt⟩, flush2_2 _, ?_⟩
  rw [edge_mem_blk2]
  intro a
  match a with
  | ⟨0, _⟩ => show win2_2.index ⟨(i 0).val / 12000, hlt⟩ (0 : Fin 2) * 12000 ≤ (i 0).val ∧ (i 0).val < win2_2.index ⟨(i 0).val / 12000, hlt⟩ (0 : Fin 2) * 12000 + 12000; omega
  | ⟨1, _⟩ => show win2_2.index ⟨(i 0).val / 12000, hlt⟩ (1 : Fin 2) * 64 ≤ (i 1).val ∧ (i 1).val < win2_2.index ⟨(i 0).val / 12000, hlt⟩ (1 : Fin 2) * 64 + 64; omega

/-- The output array after the region: entry (e, k) is the column array's entry (e, 0) times the block array's
    entry (e, k), both as the region finds them. -/
theorem edge_arrAt2 (c : Dev nD) :
    (dat2 (F := Ideal) V c).arrAt 2 cfg2.N = edgeG (V c (Pipeline.arrRef spec2 0)) (V c (Pipeline.arrRef spec2 1)) :=
  (dat2 (F := Ideal) V c).arrAt_eq_of_cover 2 (edgeG (V c (Pipeline.arrRef spec2 0)) (V c (Pipeline.arrRef spec2 1)))
    (fun t _ => edge_flushed2 V c t) (edge_cover2)

end Cert.KernelIdeal.Hand

end
-- ==== Proof.RefRun.lean ====
/- The reference program's run, read back: its @main as the list of its 134 host operations in order (the call of
   @log_sigmoid, and @softplus inside it, written out at the call's own buffers), the proof that @main is that straight
   line, and what the result buffer holds after it as ONE composed pure term of the eight arguments' contents:
   `tail (ue …) (pe …) (ne …)`, where `ue`, `pe`, `ne` are the three gathered [16384, 64] arrays (rows of `final`, the
   mean of the stacked tables and their three propagation steps) and `tail` the scalar computed from them. The list is
   read in seven consecutive stretches; after each, the buffers still needed are given their terms over the ones before. -/
import proofs.«178663_j17334488007154_2_alg».proof.ReferenceIdeal
import proofs.«178663_j17334488007154_2_alg».proof.Proof.Gen.ReferenceIdeal
import Idealize.ShloMosaic.Lib.StableHlo.Run

set_option pp.maxSteps 5000
set_option pp.deepTerms false
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed terms -/

/-- The two tables stacked along the rows: the first table's 100000 rows, then the second's 50000 (the contents of `main_v0`). -/
def stacked (a0 : FVec F S100000x64 .f32) (a1 : FVec F S50000x64 .f32) : FVec F S150000x64 .f32 :=
  concatenate S150000x64 0 [⟨S100000x64, a0⟩, ⟨S50000x64, a1⟩] concatenates_S100000x64_S50000x64_S150000x64_d0

/-- One propagation step applied to the stacked tables: every edge `e` adds `w e` times row `src e` of the operand to row `dst e` of a zero array (`src` read with negative entries counted from the end); the contents of `main_v13`. -/
def hop1 (a0 : FVec F S100000x64 .f32) (a1 : FVec F S50000x64 .f32) (a2 : FVec F S3000000 .f32) (a3 : IVec S3000000 32) (a4 : IVec S3000000 32) : FVec F S150000x64 .f32 :=
  Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (stacked a0 a1) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4))))

/-- The stacked tables plus their first propagation step (the contents of `main_v14`). -/
def acc1 (a0 : FVec F S100000x64 .f32) (a1 : FVec F S50000x64 .f32) (a2 : FVec F S3000000 .f32) (a3 : IVec S3000000 32) (a4 : IVec S3000000 32) : FVec F S150000x64 .f32 :=
  addf (stacked a0 a1) (hop1 a0 a1 a2 a3 a4)

/-- The propagation step applied to `hop1` (the contents of `main_v27`). -/
def hop2 (a0 : FVec F S100000x64 .f32) (a1 : FVec F S50000x64 .f32) (a2 : FVec F S3000000 .f32) (a3 : IVec S3000000 32) (a4 : IVec S3000000 32) : FVec F S150000x64 .f32 :=
  Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (hop1 a0 a1 a2 a3 a4) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4))))

/-- `acc1` plus the second propagation step (the contents of `main_v28`). -/
def acc2 (a0 : FVec F S100000x64 .f32) (a1 : FVec F S50000x64 .f32) (a2 : FVec F S3000000 .f32) (a3 : IVec S3000000 32) (a4 : IVec S3000000 32) : FVec F S150000x64 .f32 :=
  addf (acc1 a0 a1 a2 a3 a4) (hop2 a0 a1 a2 a3 a4)

/-- The propagation step applied to `hop2` (the contents of `main_v41`). -/
def hop3 (a0 : FVec F S100000x64 .f32) (a1 : FVec F S50000x64 .f32) (a2 : FVec F S3000000 .f32) (a3 : IVec S3000000 32) (a4 : IVec S3000000 32) : FVec F S150000x64 .f32 :=
  Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (hop2 a0 a1 a2 a3 a4) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4))))

/-- The mean of the stacked tables and their three successive propagation steps: their sum divided by 4, as one composed term of the arguments (the contents of `main_v44`; it reads `a0 … a4` only). -/
def final (a0 : FVec F S100000x64 .f32) (a1 : FVec F S50000x64 .f32) (a2 : FVec F S3000000 .f32) (a3 : IVec S3000000 32) (a4 : IVec S3000000 32) (a5 : IVec S16384 32) (a6 : IVec S16384 32) (a7 : IVec S16384 32) : FVec F S150000x64 .f32 :=
  Host.divf (addf (addf (addf (concatenate S150000x64 0 [⟨S100000x64, a0⟩, ⟨S50000x64, a1⟩] concatenates_S100000x64_S50000x64_S150000x64_d0) (Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (concatenate S150000x64 0 [⟨S100000x64, a0⟩, ⟨S50000x64, a1⟩] concatenates_S100000x64_S50000x64_S150000x64_d0) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4)))))) (Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (concatenate S150000x64 0 [⟨S100000x64, a0⟩, ⟨S50000x64, a1⟩] concatenates_S100000x64_S50000x64_S150000x64_d0) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4))))) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4)))))) (Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) (mulf (broadcastInDim S3000000x64 ![0, 1] bcast_S3000000x1_S3000000x64_0_1 (broadcastInDim S3000000x1 ![0] bcast_S3000000_S3000000x1_0 a2)) (Host.gather gather_S150000x64_S3000000x1_S3000000x64_1_0_n_n_0_1_164 (concatenate S150000x64 0 [⟨S100000x64, a0⟩, ⟨S50000x64, a1⟩] concatenates_S100000x64_S50000x64_S150000x64_d0) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4))))) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4))))) (broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4)))))) (broadcastInDim S150000x64 ![] bcast_S_S150000x64 (constant (F := F) S_ .f32 0x40800000#32))

/-- Rows `a5` (negative entries counted from the end) of the first 100000 rows of `final`: the contents of `main_v53`. -/
def ue (a0 : FVec F S100000x64 .f32) (a1 : FVec F S50000x64 .f32) (a2 : FVec F S3000000 .f32) (a3 : IVec S3000000 32) (a4 : IVec S3000000 32) (a5 : IVec S16384 32) (a6 : IVec S16384 32) (a7 : IVec S16384 32) : FVec F S16384x64 .f32 :=
  Host.gather gather_S100000x64_S16384x1_S16384x64_1_0_n_n_0_1_164 (extractStridedSlice S100000x64 ![0, 0] (final a0 a1 a2 a3 a4 a5 a6 a7) slices_S150000x64_S100000x64_0_0) (broadcastInDim S16384x1 ![0] bcast_S16384_S16384x1_0 (select (cmpi .slt a5 (broadcastInDim S16384 ![] bcast_S_S16384 (constantI S_ 32 0#32))) (addi a5 (broadcastInDim S16384 ![] bcast_S_S16384 (constantI S_ 32 100000#32))) a5))

/-- Rows `a6` (negative entries counted from the end) of the last 50000 rows of `final`: the contents of `main_v60`. -/
def pe (a0 : FVec F S100000x64 .f32) (a1 : FVec F S50000x64 .f32) (a2 : FVec F S3000000 .f32) (a3 : IVec S3000000 32) (a4 : IVec S3000000 32) (a5 : IVec S16384 32) (a6 : IVec S16384 32) (a7 : IVec S16384 32) : FVec F S16384x64 .f32 :=
  Host.gather gather_S50000x64_S16384x1_S16384x64_1_0_n_n_0_1_164 (extractStridedSlice S50000x64 ![100000, 0] (final a0 a1 a2 a3 a4 a5 a6 a7) slices_S150000x64_S50000x64_100000_0) (broadcastInDim S16384x1 ![0] bcast_S16384_S16384x1_0 (select (cmpi .slt a6 (broadcastInDim S16384 ![] bcast_S_S16384 (constantI S_ 32 0#32))) (addi a6 (broadcastInDim S16384 ![] bcast_S_S16384 (constantI S_ 32 50000#32))) a6))

/-- Rows `a7` (negative entries counted from the end) of the last 50000 rows of `final`: the contents of `main_v67`. -/
def ne (a0 : FVec F S100000x64 .f32) (a1 : FVec F S50000x64 .f32) (a2 : FVec F S3000000 .f32) (a3 : IVec S3000000 32) (a4 : IVec S3000000 32) (a5 : IVec S16384 32) (a6 : IVec S16384 32) (a7 : IVec S16384 32) : FVec F S16384x64 .f32 :=
  Host.gather gather_S50000x64_S16384x1_S16384x64_1_0_n_n_0_1_164 (extractStridedSlice S50000x64 ![100000, 0] (final a0 a1 a2 a3 a4 a5 a6 a7) slices_S150000x64_S50000x64_100000_0) (broadcastInDim S16384x1 ![0] bcast_S16384_S16384x1_0 (select (cmpi .slt a7 (broadcastInDim S16384 ![] bcast_S_S16384 (constantI S_ 32 0#32))) (addi a7 (broadcastInDim S16384 ![] bcast_S_S16384 (constantI S_ 32 50000#32))) a7))

/-- The log-sigmoid of the row-wise score difference `Σ_k u·p − Σ_k u·n` over the 64 columns, in the stable form the
    program computes it: `−softplus(−x)`, `softplus y = max(y, 0) + log1p(exp(−|y − 0|))` with the not-a-number case selected
    apart (the contents of `main_v73`). -/
def lsig (u p n : FVec F S16384x64 .f32) : FVec F S16384 .f32 :=
  Host.negf (select (cmpf .une (subf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32))) (subf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32)))) (addf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32))) (addf (maximumf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32))) (Host.log1p (Host.exp (Host.negf (Host.absf (subf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32)))))))))

/-- The scalar result from the three gathered arrays, as one composed term of operations %68 … %90: minus the mean over the
    16384 rows of the log-sigmoid of the score difference, plus `0x38D1B717` (the f32 nearest 1e-4) times the sum of the three
    half squared norms divided by 16384 (the contents of `main_v90`). -/
def tail (u p n : FVec F S16384x64 .f32) : FVec F S_ .f32 :=
  addf (Host.negf (Host.divf (Host.reduceAdd (Host.negf (select (cmpf .une (subf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32))) (subf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32)))) (addf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32))) (addf (maximumf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32))) (Host.log1p (Host.exp (Host.negf (Host.absf (subf (Host.negf (subf (Host.reduceAdd (mulf u p) (constant (F := F) S_ .f32 0x00000000#32) reducesTo_S16384x64_S16384_d1 h_S_) (Host.reduceAdd (mulf u n) (constant (F := F) S_ .f32 0x00000000#32) reducesTo_S16384x64_S16384_d1 h_S_))) (broadcastInDim S16384 ![] bcast_S_S16384 (constant (F := F) S_ .f32 0x00000000#32)))))))))) (constant (F := F) S_ .f32 0x00000000#32) reducesTo_S16384_S_d0 h_S_) (constant (F := F) S_ .f32 0x46800000#32))) (mulf (constant (F := F) S_ .f32 0x38D1B717#32) (Host.divf (addf (addf (Host.divf (Host.reduceAdd (mulf u u) (constant (F := F) S_ .f32 0x00000000#32) reducesTo_S16384x64_S_d0_1 h_S_) (constant (F := F) S_ .f32 0x40000000#32)) (Host.divf (Host.reduceAdd (mulf p p) (constant (F := F) S_ .f32 0x00000000#32) reducesTo_S16384x64_S_d0_1 h_S_) (constant (F := F) S_ .f32 0x40000000#32))) (Host.divf (Host.reduceAdd (mulf n n) (constant (F := F) S_ .f32 0x00000000#32) reducesTo_S16384x64_S_d0_1 h_S_) (constant (F := F) S_ .f32 0x40000000#32))) (constant (F := F) S_ .f32 0x46800000#32)))

/-- `tail` with the log-sigmoid stage named. -/
theorem tail_eq_lsig (u p n : FVec F S16384x64 .f32) : tail u p n = addf (Host.negf (Host.divf (Host.reduceAdd (lsig u p n) (constant (F := F) S_ .f32 0x00000000#32) reducesTo_S16384_S_d0 h_S_) (constant (F := F) S_ .f32 0x46800000#32))) (mulf (constant (F := F) S_ .f32 0x38D1B717#32) (Host.divf (addf (addf (Host.divf (Host.reduceAdd (mulf u u) (constant (F := F) S_ .f32 0x00000000#32) reducesTo_S16384x64_S_d0_1 h_S_) (constant (F := F) S_ .f32 0x40000000#32)) (Host.divf (Host.reduceAdd (mulf p p) (constant (F := F) S_ .f32 0x00000000#32) reducesTo_S16384x64_S_d0_1 h_S_) (constant (F := F) S_ .f32 0x40000000#32))) (Host.divf (Host.reduceAdd (mulf n n) (constant (F := F) S_ .f32 0x00000000#32) reducesTo_S16384x64_S_d0_1 h_S_) (constant (F := F) S_ .f32 0x40000000#32))) (constant (F := F) S_ .f32 0x46800000#32))) := rfl

/-- `final` with the propagation steps named. -/
theorem final_eq_hops (a0 : FVec F S100000x64 .f32) (a1 : FVec F S50000x64 .f32) (a2 : FVec F S3000000 .f32) (a3 : IVec S3000000 32) (a4 : IVec S3000000 32) (a5 : IVec S16384 32) (a6 : IVec S16384 32) (a7 : IVec S16384 32) : final a0 a1 a2 a3 a4 a5 a6 a7 = Host.divf (addf (acc2 a0 a1 a2 a3 a4) (hop3 a0 a1 a2 a3 a4)) (broadcastInDim S150000x64 ![] bcast_S_S150000x64 (constant (F := F) S_ .f32 0x40800000#32)) := rfl

/-! ## The operations -/

/-- @main's operations 1 … 17 of 134: the stacked tables and the first propagation step. -/
abbrev w1 : List (HloOp τ sig (Elt F)) :=
  [ binary main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg2 main_v1 (broadcastInDim S3000000x1 ![0] bcast_S3000000_S3000000x1_0 : (⟨S3000000, .f32⟩ : BufTy).Contents (Elt F) → (⟨S3000000x1, .f32⟩ : BufTy).Contents (Elt F)),
    nullary main_c (constantI S_ 32 0#32),
    unary main_c main_v2 (broadcastInDim S3000000 ![] bcast_S_S3000000 : (⟨S_, .i32⟩ : BufTy).Contents (Elt F) → (⟨S3000000, .i32⟩ : BufTy).Contents (Elt F)),
    binary main_arg4 main_v2 main_v3 (cmpi .slt : (⟨S3000000, .i32⟩ : BufTy).Contents (Elt F) → (⟨S3000000, .i32⟩ : BufTy).Contents (Elt F) → (⟨S3000000, .i1⟩ : BufTy).Contents (Elt F)),
    nullary main_c_0 (constantI S_ 32 150000#32),
    unary main_c_0 main_v4 (broadcastInDim S3000000 ![] bcast_S_S3000000 : (⟨S_, .i32⟩ : BufTy).Contents (Elt F) → (⟨S3000000, .i32⟩ : BufTy).Contents (Elt F)),
    binary main_arg4 main_v4 main_v5 (addi : (⟨S3000000, .i32⟩ : BufTy).Contents (Elt F) → (⟨S3000000, .i32⟩ : BufTy).Contents (Elt F) → (⟨S3000000, .i32⟩ : BufTy).Contents (Elt F)),
    ternary main_v3 main_v5 main_arg4 main_v6 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v6 main_v7 (broadcastInDim S3000000x1 ![0] bcast_S3000000_S3000000x1_0 : (⟨S3000000, .i32⟩ : BufTy).Contents (Elt F) → (⟨S3000000x1, .i32⟩ : BufTy).Contents (Elt F)),
    binary main_v0 main_v7 main_v8 ((fun x i => Host.gather gather_S150000x64_S3000000x1_S3000000x64_1_0_n_n_0_1_164 x i) : (⟨S150000x64, .f32⟩ : BufTy).Contents (Elt F) → (⟨S3000000x1, .i32⟩ : BufTy).Contents (Elt F) → (⟨S3000000x64, .f32⟩ : BufTy).Contents (Elt F)),
    unary main_v1 main_v9 (broadcastInDim S3000000x64 ![0, 1] bcast_S3000000x1_S3000000x64_0_1 : (⟨S3000000x1, .f32⟩ : BufTy).Contents (Elt F) → (⟨S3000000x64, .f32⟩ : BufTy).Contents (Elt F)),
    binary main_v9 main_v8 main_v10 (mulf : (⟨S3000000x64, .f32⟩ : BufTy).Contents (Elt F) → (⟨S3000000x64, .f32⟩ : BufTy).Contents (Elt F) → (⟨S3000000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg3 main_v12 (broadcastInDim S3000000x1 ![0] bcast_S3000000_S3000000x1_0 : (⟨S3000000, .i32⟩ : BufTy).Contents (Elt F) → (⟨S3000000x1, .i32⟩ : BufTy).Contents (Elt F)),
    ternary main_v11 main_v12 main_v10 main_v13 ((fun x i u => Host.scatterAdd scatter_S150000x64_S3000000x1_S3000000x64_1_0_0_1 x i u) : (⟨S150000x64, .f32⟩ : BufTy).Contents (Elt F) → (⟨S3000000x1, .i32⟩ : BufTy).Contents (Elt F) → (⟨S3000000x64, .f32⟩ : BufTy).Contents (Elt F) → (⟨S150000x64, .f32⟩ : BufTy).Contents (Elt F)) ]

/-- @main's operations 18 … 34 of 134: the first sum and the second propagation step. -/
abbrev w2 : List (HloOp τ sig (Elt F)) :=
  [ binary main_v0 main_v13 main_v14 (addf : (⟨S150000x64, .f32⟩ : BufTy).Contents (Elt F) → (⟨S150000x64, .f32⟩ : BufTy).Contents (Elt F) → (⟨S150000x64, .f32⟩ : BufTy).Contents (Elt F)),
    unary main_arg2 main_v15 (broadcastInDim S3000000x1 ![0] bcast_S3000000_S3000000x1_0 : (⟨S3000000, .f32⟩ : BufTy).Contents (Elt F) → (⟨S3000000x1, .f32⟩ : BufTy).Contents (Elt F)),
    nullary main_c_1 (constantI S_ 32 0#32),
    unary main_c_1 main_v16 (broadcastInDim S3000000 ![] bcast_S_S3000000 : (⟨S_, .i32⟩ : BufTy).Contents (Elt F) → (⟨S3000000, .i32⟩ : BufTy).Contents (Elt F)),
    binary main_arg4 main_v16 main_v17 (cmpi .slt : (⟨S3000000, .i32⟩ : BufTy).Contents (Elt F) → (⟨S3000000, .i32⟩ : BufTy).Contents (Elt F) → (⟨S3000000, .i1⟩ : BufTy).Contents (Elt F)),
    nullary main_c_2 (constantI S_ 32 150000#32),
    unary main_c_2 main_v18 (broadcastInDim S3000000 ![] bcast_S_S3000000 : (⟨S_, .i32⟩ : BufTy).Contents (Elt F) → (⟨S3000000, .i32⟩ : BufTy).Contents (Elt F)),
    binary main_arg4 main_v18 main_v19 (addi : (⟨S3000000, .i32⟩ : BufTy).Contents (Elt F) → (⟨S3000000, .i32⟩ : BufTy).Contents (Elt F) → (⟨S3000000, .i32⟩ : BufTy).Contents (Elt F)),
    ternary main_v17 main_v19 main_arg4 main_v20 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v20 main_v21 (broadcastInDim S3000000x1 ![0] bcast_S3000000_S3000000x1_0 : (⟨S3000000, .i32⟩ : BufTy).Contents (Elt F) → (⟨S3000000x1, .i32⟩ : BufTy).Contents (Elt F)),
    binary main_v13 main_v21 main_v22 ((fun x i => Host.gather gather_S150000x64_S3000000x1_S3000000x64_1_0_n_n_0_1_164 x i) : (⟨S150000x64, .f32⟩ : BufTy).Contents (Elt F) → (⟨S3000000x1, .i32⟩ : BufTy).Contents (Elt F) → (⟨S3000000x64, .f32⟩ : BufTy).Contents (Elt F)),
    unary main_v15 main_v23 (broadcastInDim S3000000x64 ![0, 1] bcast_S3000000x1_S3000000x64_0_1 : (⟨S3000000x1, .f32⟩ : BufTy).Contents (Elt F) → (⟨S3000000x64, .f32⟩ : BufTy).Contents (Elt F)),
    binary main_v23 main_v22 main_v24 (mulf : (⟨S3000000x64, .f32⟩ : BufTy).Contents (Elt F) → (⟨S3000000x64, .f32⟩ : BufTy).Contents (Elt F) → (⟨S3000000x64, .f32⟩ : BufTy).Contents (Elt F)),
    nullary main_cst_3 (constant S_ .f32 0x00000000#32),
    unary main_cst_3 main_v25 (broadcastInDim S150000x64 ![] bcast_S_S150000x64 : (⟨S_, .f32⟩ : BufTy).Contents (Elt F) → (⟨S150000x64, .f32⟩ : BufTy).Contents (Elt F)),
    unary main_arg3 main_v26 (broadcastInDim S3000000x1 ![0] bcast_S3000000_S3000000x1_0 : (⟨S3000000, .i32⟩ : BufTy).Contents (Elt F) → (⟨S3000000x1, .i32⟩ : BufTy).Contents (Elt F)),
    ternary main_v25 main_v26 main_v24 main_v27 ((fun x i u => Host.scatterAdd scatter_S150000x64_S3000000x1_S3000000x64_1_0_0_1 x i u) : (⟨S150000x64, .f32⟩ : BufTy).Contents (Elt F) → (⟨S3000000x1, .i32⟩ : BufTy).Contents (Elt F) → (⟨S3000000x64, .f32⟩ : BufTy).Contents (Elt F) → (⟨S150000x64, .f32⟩ : BufTy).Contents (Elt F)) ]

/-- @main's operations 35 … 51 of 134: the second sum and the third propagation step. -/
abbrev w3 : List (HloOp τ sig (Elt F)) :=
  [ binary main_v14 main_v27 main_v28 (addf : (⟨S150000x64, .f32⟩ : BufTy).Contents (Elt F) → (⟨S150000x64, .f32⟩ : BufTy).Contents (Elt F) → (⟨S150000x64, .f32⟩ : BufTy).Contents (Elt F)),
    unary main_arg2 main_v29 (broadcastInDim S3000000x1 ![0] bcast_S3000000_S3000000x1_0 : (⟨S3000000, .f32⟩ : BufTy).Contents (Elt F) → (⟨S3000000x1, .f32⟩ : BufTy).Contents (Elt F)),
    nullary main_c_4 (constantI S_ 32 0#32),
    unary main_c_4 main_v30 (broadcastInDim S3000000 ![] bcast_S_S3000000 : (⟨S_, .i32⟩ : BufTy).Contents (Elt F) → (⟨S3000000, .i32⟩ : BufTy).Contents (Elt F)),
    binary main_arg4 main_v30 main_v31 (cmpi .slt : (⟨S3000000, .i32⟩ : BufTy).Contents (Elt F) → (⟨S3000000, .i32⟩ : BufTy).Contents (Elt F) → (⟨S3000000, .i1⟩ : BufTy).Contents (Elt F)),
    nullary main_c_5 (constantI S_ 32 150000#32),
    unary main_c_5 main_v32 (broadcastInDim S3000000 ![] bcast_S_S3000000 : (⟨S_, .i32⟩ : BufTy).Contents (Elt F) → (⟨S3000000, .i32⟩ : BufTy).Contents (Elt F)),
    binary main_arg4 main_v32 main_v33 (addi : (⟨S3000000, .i32⟩ : BufTy).Contents (Elt F) → (⟨S3000000, .i32⟩ : BufTy).Contents (Elt F) → (⟨S3000000, .i32⟩ : BufTy).Contents (Elt F)),
    ternary main_v31 main_v33 main_arg4 main_v34 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v34 main_v35 (broadcastInDim S3000000x1 ![0] bcast_S3000000_S3000000x1_0 : (⟨S3000000, .i32⟩ : BufTy).Contents (Elt F) → (⟨S3000000x1, .i32⟩ : BufTy).Contents (Elt F)),
    binary main_v27 main_v35 main_v36 ((fun x i => Host.gather gather_S150000x64_S3000000x1_S3000000x64_1_0_n_n_0_1_164 x i) : (⟨S150000x64, .f32⟩ : BufTy).Contents (Elt F) → (⟨S3000000x1, .i32⟩ : BufTy).Contents (Elt F) → (⟨S3000000x64, .f32⟩ : BufTy).Contents (Elt F)),
    unary main_v29 main_v37 (broadcastInDim S3000000x64 ![0, 1] bcast_S3000000x1_S3000000x64_0_1 : (⟨S3000000x1, .f32⟩ : BufTy).Contents (Elt F) → (⟨S3000000x64, .f32⟩ : BufTy).Contents (Elt F)),
    binary main_v37 main_v36 main_v38 (mulf : (⟨S3000000x64, .f32⟩ : BufTy).Contents (Elt F) → (⟨S3000000x64, .f32⟩ : BufTy).Contents (Elt F) → (⟨S3000000x64, .f32⟩ : BufTy).Contents (Elt F)),
    nullary main_cst_6 (constant S_ .f32 0x00000000#32),
    unary main_cst_6 main_v39 (broadcastInDim S150000x64 ![] bcast_S_S150000x64 : (⟨S_, .f32⟩ : BufTy).Contents (Elt F) → (⟨S150000x64, .f32⟩ : BufTy).Contents (Elt F)),
    unary main_arg3 main_v40 (broadcastInDim S3000000x1 ![0] bcast_S3000000_S3000000x1_0 : (⟨S3000000, .i32⟩ : BufTy).Contents (Elt F) → (⟨S3000000x1, .i32⟩ : BufTy).Contents (Elt F)),
    ternary main_v39 main_v40 main_v38 main_v41 ((fun x i u => Host.scatterAdd scatter_S150000x64_S3000000x1_S3000000x64_1_0_0_1 x i u) : (⟨S150000x64, .f32⟩ : BufTy).Contents (Elt F) → (⟨S3000000x1, .i32⟩ : BufTy).Contents (Elt F) → (⟨S3000000x64, .f32⟩ : BufTy).Contents (Elt F) → (⟨S150000x64, .f32⟩ : BufTy).Contents (Elt F)) ]

/-- @main's operations 52 … 60 of 134: the third sum, the division by 4, the two slices and the first comparison of the row indices. -/
abbrev w4 : List (HloOp τ sig (Elt F)) :=
  [ binary main_v28 main_v41 main_v42 (addf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x40800000#32),
    unary main_cst_7 main_v43 (broadcastInDim S150000x64 ![] bcast_S_S150000x64 : (⟨S_, .f32⟩ : BufTy).Contents (Elt F) → (⟨S150000x64, .f32⟩ : BufTy).Contents (Elt F)),
    binary main_v42 main_v43 main_v44 (Host.divf : (⟨S150000x64, .f32⟩ : BufTy).Contents (Elt F) → (⟨S150000x64, .f32⟩ : BufTy).Contents (Elt F) → (⟨S150000x64, .f32⟩ : BufTy).Contents (Elt F)),
    unary main_v44 main_v45 ((extractStridedSlice S100000x64 ![0, 0] · slices_S150000x64_S100000x64_0_0) : (⟨S150000x64, .f32⟩ : BufTy).Contents (Elt F) → (⟨S100000x64, .f32⟩ : BufTy).Contents (Elt F)),
    unary main_v44 main_v46 ((extractStridedSlice S50000x64 ![100000, 0] · slices_S150000x64_S50000x64_100000_0) : (⟨S150000x64, .f32⟩ : BufTy).Contents (Elt F) → (⟨S50000x64, .f32⟩ : BufTy).Contents (Elt F)),
    nullary main_c_8 (constantI S_ 32 0#32),
    unary main_c_8 main_v47 (broadcastInDim S16384 ![] bcast_S_S16384 : (⟨S_, .i32⟩ : BufTy).Contents (Elt F) → (⟨S16384, .i32⟩ : BufTy).Contents (Elt F)),
    binary main_arg5 main_v47 main_v48 (cmpi .slt : (⟨S16384, .i32⟩ : BufTy).Contents (Elt F) → (⟨S16384, .i32⟩ : BufTy).Contents (Elt F) → (⟨S16384, .i1⟩ : BufTy).Contents (Elt F)) ]

/-- @main's operations 61 … 84 of 134: the three row gathers. -/
abbrev w5 : List (HloOp τ sig (Elt F)) :=
  [ nullary main_c_9 (constantI S_ 32 100000#32),
    unary main_c_9 main_v49 (broadcastInDim S16384 ![] bcast_S_S16384 : (⟨S_, .i32⟩ : BufTy).Contents (Elt F) → (⟨S16384, .i32⟩ : BufTy).Contents (Elt F)),
    binary main_arg5 main_v49 main_v50 (addi : (⟨S16384, .i32⟩ : BufTy).Contents (Elt F) → (⟨S16384, .i32⟩ : BufTy).Contents (Elt F) → (⟨S16384, .i32⟩ : BufTy).Contents (Elt F)),
    ternary main_v48 main_v50 main_arg5 main_v51 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v51 main_v52 (broadcastInDim S16384x1 ![0] bcast_S16384_S16384x1_0 : (⟨S16384, .i32⟩ : BufTy).Contents (Elt F) → (⟨S16384x1, .i32⟩ : BufTy).Contents (Elt F)),
    binary main_v45 main_v52 main_v53 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    nullary main_c_10 (constantI S_ 32 0#32),
    unary main_c_10 main_v54 (broadcastInDim S16384 ![] bcast_S_S16384 : (⟨S_, .i32⟩ : BufTy).Contents (Elt F) → (⟨S16384, .i32⟩ : BufTy).Contents (Elt F)),
    binary main_arg6 main_v54 main_v55 (cmpi .slt : (⟨S16384, .i32⟩ : BufTy).Contents (Elt F) → (⟨S16384, .i32⟩ : BufTy).Contents (Elt F) → (⟨S16384, .i1⟩ : BufTy).Contents (Elt F)),
    nullary main_c_11 (constantI S_ 32 50000#32),
    unary main_c_11 main_v56 (broadcastInDim S16384 ![] bcast_S_S16384 : (⟨S_, .i32⟩ : BufTy).Contents (Elt F) → (⟨S16384, .i32⟩ : BufTy).Contents (Elt F)),
    binary main_arg6 main_v56 main_v57 (addi : (⟨S16384, .i32⟩ : BufTy).Contents (Elt F) → (⟨S16384, .i32⟩ : BufTy).Contents (Elt F) → (⟨S16384, .i32⟩ : BufTy).Contents (Elt F)),
    ternary main_v55 main_v57 main_arg6 main_v58 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v58 main_v59 (broadcastInDim S16384x1 ![0] bcast_S16384_S16384x1_0 : (⟨S16384, .i32⟩ : BufTy).Contents (Elt F) → (⟨S16384x1, .i32⟩ : BufTy).Contents (Elt F)),
    binary main_v46 main_v59 main_v60 ((fun x i => Host.gather gather_S50000x64_S16384x1_S16384x64_1_0_n_n_0_1_164 x i) : (⟨S50000x64, .f32⟩ : BufTy).Contents (Elt F) → (⟨S16384x1, .i32⟩ : BufTy).Contents (Elt F) → (⟨S16384x64, .f32⟩ : BufTy).Contents (Elt F)),
    nullary main_c_12 (constantI S_ 32 0#32),
    unary main_c_12 main_v61 (broadcastInDim S16384 ![] bcast_S_S16384 : (⟨S_, .i32⟩ : BufTy).Contents (Elt F) → (⟨S16384, .i32⟩ : BufTy).Contents (Elt F)),
    binary main_arg7 main_v61 main_v62 (cmpi .slt : (⟨S16384, .i32⟩ : BufTy).Contents (Elt F) → (⟨S16384, .i32⟩ : BufTy).Contents (Elt F) → (⟨S16384, .i1⟩ : BufTy).Contents (Elt F)),
    nullary main_c_13 (constantI S_ 32 50000#32),
    unary main_c_13 main_v63 (broadcastInDim S16384 ![] bcast_S_S16384 : (⟨S_, .i32⟩ : BufTy).Contents (Elt F) → (⟨S16384, .i32⟩ : BufTy).Contents (Elt F)),
    binary main_arg7 main_v63 main_v64 (addi : (⟨S16384, .i32⟩ : BufTy).Contents (Elt F) → (⟨S16384, .i32⟩ : BufTy).Contents (Elt F) → (⟨S16384, .i32⟩ : BufTy).Contents (Elt F)),
    ternary main_v62 main_v64 main_arg7 main_v65 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v65 main_v66 (broadcastInDim S16384x1 ![0] bcast_S16384_S16384x1_0 : (⟨S16384, .i32⟩ : BufTy).Contents (Elt F) → (⟨S16384x1, .i32⟩ : BufTy).Contents (Elt F)),
    binary main_v46 main_v66 main_v67 ((fun x i => Host.gather gather_S50000x64_S16384x1_S16384x64_1_0_n_n_0_1_164 x i) : (⟨S50000x64, .f32⟩ : BufTy).Contents (Elt F) → (⟨S16384x1, .i32⟩ : BufTy).Contents (Elt F) → (⟨S16384x64, .f32⟩ : BufTy).Contents (Elt F)) ]

/-- @main's operations 85 … 107 of 134: the row-wise scores and the log-sigmoid, the called functions' operations at the call's buffers. -/
abbrev w6 : List (HloOp τ sig (Elt F)) :=
  [ binary main_v53 main_v60 main_v68 (mulf : (⟨S16384x64, .f32⟩ : BufTy).Contents (Elt F) → (⟨S16384x64, .f32⟩ : BufTy).Contents (Elt F) → (⟨S16384x64, .f32⟩ : BufTy).Contents (Elt F)),
    nullary main_cst_14 (constant S_ .f32 0x00000000#32),
    binary main_v68 main_cst_14 main_v69 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v53 main_v67 main_v70 (mulf : (⟨S16384x64, .f32⟩ : BufTy).Contents (Elt F) → (⟨S16384x64, .f32⟩ : BufTy).Contents (Elt F) → (⟨S16384x64, .f32⟩ : BufTy).Contents (Elt F)),
    nullary main_cst_15 (constant S_ .f32 0x00000000#32),
    binary main_v70 main_cst_15 main_v71 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v69 main_v71 main_v72 (subf : (⟨S16384, .f32⟩ : BufTy).Contents (Elt F) → (⟨S16384, .f32⟩ : BufTy).Contents (Elt F) → (⟨S16384, .f32⟩ : BufTy).Contents (Elt F)),
    TRef.unary (.of main_v72 : TRef sig ⟨S16384, .f32⟩) main_call0.v0 Host.negf,
    TRef.nullary main_call0.call0.cst (constant S_ .f32 0x00000000#32),
    TRef.unary main_call0.call0.cst main_call0.call0.v0 (broadcastInDim S16384 ![] bcast_S_S16384),
    TRef.binary main_call0.v0 main_call0.call0.v0 main_call0.call0.v1 maximumf,
    TRef.unary main_call0.call0.cst main_call0.call0.v2 (broadcastInDim S16384 ![] bcast_S_S16384),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S16384 ![] bcast_S_S16384),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf ]

/-- @main's operations 108 … 134 of 134: the means, the squared norms and the result. -/
abbrev w7 : List (HloOp τ sig (Elt F)) :=
  [ nullary main_cst_16 (constant S_ .f32 0x00000000#32),
    binary main_v73 main_cst_16 main_v74 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_17 (constant S_ .f32 0x46800000#32),
    binary main_v74 main_cst_17 main_v75 (Host.divf : (⟨S_, .f32⟩ : BufTy).Contents (Elt F) → (⟨S_, .f32⟩ : BufTy).Contents (Elt F) → (⟨S_, .f32⟩ : BufTy).Contents (Elt F)),
    unary main_v75 main_v76 (Host.negf : (⟨S_, .f32⟩ : BufTy).Contents (Elt F) → (⟨S_, .f32⟩ : BufTy).Contents (Elt F)),
    binary main_v53 main_v53 main_v77 (mulf : (⟨S16384x64, .f32⟩ : BufTy).Contents (Elt F) → (⟨S16384x64, .f32⟩ : BufTy).Contents (Elt F) → (⟨S16384x64, .f32⟩ : BufTy).Contents (Elt F)),
    nullary main_cst_18 (constant S_ .f32 0x00000000#32),
    binary main_v77 main_cst_18 main_v78 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_19 (constant S_ .f32 0x40000000#32),
    binary main_v78 main_cst_19 main_v79 (Host.divf : (⟨S_, .f32⟩ : BufTy).Contents (Elt F) → (⟨S_, .f32⟩ : BufTy).Contents (Elt F) → (⟨S_, .f32⟩ : BufTy).Contents (Elt F)),
    binary main_v60 main_v60 main_v80 (mulf : (⟨S16384x64, .f32⟩ : BufTy).Contents (Elt F) → (⟨S16384x64, .f32⟩ : BufTy).Contents (Elt F) → (⟨S16384x64, .f32⟩ : BufTy).Contents (Elt F)),
    nullary main_cst_20 (constant S_ .f32 0x00000000#32),
    binary main_v80 main_cst_20 main_v81 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_21 (constant S_ .f32 0x40000000#32),
    binary main_v81 main_cst_21 main_v82 (Host.divf : (⟨S_, .f32⟩ : BufTy).Contents (Elt F) → (⟨S_, .f32⟩ : BufTy).Contents (Elt F) → (⟨S_, .f32⟩ : BufTy).Contents (Elt F)),
    binary main_v79 main_v82 main_v83 (addf : (⟨S_, .f32⟩ : BufTy).Contents (Elt F) → (⟨S_, .f32⟩ : BufTy).Contents (Elt F) → (⟨S_, .f32⟩ : BufTy).Contents (Elt F)),
    binary main_v67 main_v67 main_v84 (mulf : (⟨S16384x64, .f32⟩ : BufTy).Contents (Elt F) → (⟨S16384x64, .f32⟩ : BufTy).Contents (Elt F) → (⟨S16384x64, .f32⟩ : BufTy).Contents (Elt F)),
    nullary main_cst_22 (constant S_ .f32 0x00000000#32),
    binary main_v84 main_cst_22 main_v85 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_23 (constant S_ .f32 0x40000000#32),
    binary main_v85 main_cst_23 main_v86 (Host.divf : (⟨S_, .f32⟩ : BufTy).Contents (Elt F) → (⟨S_, .f32⟩ : BufTy).Contents (Elt F) → (⟨S_, .f32⟩ : BufTy).Contents (Elt F)),
    binary main_v83 main_v86 main_v87 (addf : (⟨S_, .f32⟩ : BufTy).Contents (Elt F) → (⟨S_, .f32⟩ : BufTy).Contents (Elt F) → (⟨S_, .f32⟩ : BufTy).Contents (Elt F)),
    nullary main_cst_24 (constant S_ .f32 0x46800000#32),
    binary main_v87 main_cst_24 main_v88 (Host.divf : (⟨S_, .f32⟩ : BufTy).Contents (Elt F) → (⟨S_, .f32⟩ : BufTy).Contents (Elt F) → (⟨S_, .f32⟩ : BufTy).Contents (Elt F)),
    nullary main_cst_25 (constant S_ .f32 0x38D1B717#32),
    binary main_cst_25 main_v88 main_v89 (mulf : (⟨S_, .f32⟩ : BufTy).Contents (Elt F) → (⟨S_, .f32⟩ : BufTy).Contents (Elt F) → (⟨S_, .f32⟩ : BufTy).Contents (Elt F)),
    binary main_v76 main_v89 main_v90 (addf : (⟨S_, .f32⟩ : BufTy).Contents (Elt F) → (⟨S_, .f32⟩ : BufTy).Contents (Elt F) → (⟨S_, .f32⟩ : BufTy).Contents (Elt F)) ]

/-- The operations of @main's first printed window. -/
abbrev ops0 : List (HloOp τ sig (Elt F)) := w1 ++ (w2 ++ (w3 ++ w4))
/-- The operations of @main's second printed window, the call written out. -/
abbrev ops1 : List (HloOp τ sig (Elt F)) := w5 ++ (w6 ++ w7)
/-- @main's 134 operations, in order. -/
abbrev ops : List (HloOp τ sig (Elt F)) := w1 ++ (w2 ++ (w3 ++ (w4 ++ (w5 ++ (w6 ++ w7)))))

theorem ops_eq : (ops : List (HloOp τ sig (Elt F))) = ops0 ++ ops1 := by
  simp only [ops, ops0, ops1, List.append_assoc]

set_option maxRecDepth 8192 in
set_option maxHeartbeats 4000000 in
theorem main_part0_eq (c : Dev nD) : main_part0 (F := F) c = seq ops0 := rfl

set_option maxRecDepth 8192 in
set_option maxHeartbeats 4000000 in
/-- The second window is its straight line: the two called functions' definitions unfolded at their calls, both sides are one
    chain of steps once the sequencing is reassociated. -/
theorem main_part1_eq (c : Dev nD) : main_part1 (F := F) c = seq ops1 := by
  simp only [main_part1, fn_log_sigmoid.body, fn_softplus.body, bind_assoc, pure_bind]
  rfl

theorem main_eq (c : Dev nD) : main (F := F) c = seq ops := by
  rw [ops_eq, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem w1_sub : (w1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem w2_sub : (w2 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem w3_sub : (w3 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem w4_sub : (w4 : List (HloOp τ sig (Elt F))).Forall fun op => op.bufs ⊆ tcRefs τ sig :=
  ⟨binary_bufs_sub .., nullary_bufs_sub .., unary_bufs_sub .., binary_bufs_sub .., unary_bufs_sub .., unary_bufs_sub .., nullary_bufs_sub .., unary_bufs_sub .., binary_bufs_sub ..⟩
set_option maxRecDepth 8192 in
theorem w5_sub : (w5 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem w6_sub : (w6 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
set_option maxRecDepth 8192 in
theorem w7_sub : (w7 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h]

/-- The fold over two lists in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The buffers after each stretch -/

/-- The device's buffer contents after the first 1 stretch. -/
def val1 (V0 : Valuation τ sig (Elt F)) : Valuation τ sig (Elt F) := after w1 V0
/-- The buffers the operations of stretch 1 write. -/
abbrev w1_W : List (Ref sig .tc) := [main_v0, main_v1, main_c, main_v2, main_v3, main_c_0, main_v4, main_v5, main_v6, main_v7, main_v8, main_v9, main_v10, main_cst, main_v11, main_v12, main_v13]
set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 1 does not write keeps its contents through it. -/
theorem val1_keep (V0 : Valuation τ sig (Elt F)) (r : Ref sig .tc) (h : r ∉ w1_W) :
    val1 V0 (Proc.devRef .tc r) = V0 (Proc.devRef .tc r) :=
  after_of_writes_sub w1 _ w1_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)
theorem val1_main_arg6 (V0 : Valuation τ sig (Elt F)) : val1 V0 (no_index (Proc.devRef .tc main_arg6)) = V0 (Proc.devRef .tc main_arg6) :=
  val1_keep V0 main_arg6 (by decide)
theorem val1_main_arg7 (V0 : Valuation τ sig (Elt F)) : val1 V0 (no_index (Proc.devRef .tc main_arg7)) = V0 (Proc.devRef .tc main_arg7) :=
  val1_keep V0 main_arg7 (by decide)
set_option maxRecDepth 8192 in
set_option maxHeartbeats 3400000 in
theorem val1_main_v0 (V0 : Valuation τ sig (Elt F)) : val1 V0 (no_index (Proc.devRef .tc main_v0)) = stacked (V0 (Proc.devRef .tc main_arg0)) (V0 (Proc.devRef .tc main_arg1)) := by
  unfold val1
  simp only [w1]
  after_results_simp
  all_goals rfl
set_option maxRecDepth 8192 in
set_option maxHeartbeats 3400000 in
theorem val1_main_v13 (V0 : Valuation τ sig (Elt F)) : val1 V0 (no_index (Proc.devRef .tc main_v13)) = hop1 (V0 (Proc.devRef .tc main_arg0)) (V0 (Proc.devRef .tc main_arg1)) (V0 (Proc.devRef .tc main_arg2)) (V0 (Proc.devRef .tc main_arg3)) (V0 (Proc.devRef .tc main_arg4)) := by
  unfold val1
  simp only [w1]
  after_results_simp
  all_goals rfl

/-- The device's buffer contents after the first 2 stretches. -/
def val2 (V0 : Valuation τ sig (Elt F)) : Valuation τ sig (Elt F) := after w2 (val1 V0)
/-- The buffers the operations of stretch 2 write. -/
abbrev w2_W : List (Ref sig .tc) := [main_v14, main_v15, main_c_1, main_v16, main_v17, main_c_2, main_v18, main_v19, main_v20, main_v21, main_v22, main_v23, main_v24, main_cst_3, main_v25, main_v26, main_v27]
set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 2 does not write keeps its contents through it. -/
theorem val2_keep (V0 : Valuation τ sig (Elt F)) (r : Ref sig .tc) (h : r ∉ w2_W) :
    val2 V0 (Proc.devRef .tc r) = val1 V0 (Proc.devRef .tc r) :=
  after_of_writes_sub w2 _ w2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
set_option maxRecDepth 8192 in
set_option maxHeartbeats 3400000 in
theorem val2_main_v14 (V0 : Valuation τ sig (Elt F)) : val2 V0 (no_index (Proc.devRef .tc main_v14)) = acc1 (V0 (Proc.devRef .tc main_arg0)) (V0 (Proc.devRef .tc main_arg1)) (V0 (Proc.devRef .tc main_arg2)) (V0 (Proc.devRef .tc main_arg3)) (V0 (Proc.devRef .tc main_arg4)) := by
  unfold val2
  simp only [w2]
  after_results_simp
  simp only [val1_main_v13, val1_main_v0]
  all_goals rfl
set_option maxRecDepth 8192 in
set_option maxHeartbeats 3400000 in
theorem val2_main_v27 (V0 : Valuation τ sig (Elt F)) : val2 V0 (no_index (Proc.devRef .tc main_v27)) = hop2 (V0 (Proc.devRef .tc main_arg0)) (V0 (Proc.devRef .tc main_arg1)) (V0 (Proc.devRef .tc main_arg2)) (V0 (Proc.devRef .tc main_arg3)) (V0 (Proc.devRef .tc main_arg4)) := by
  unfold val2
  simp only [w2]
  after_results_simp
  simp only [val1_main_arg4, val1_main_v13, val1_main_arg2, val1_main_arg3]
  all_goals rfl

/-- The device's buffer contents after the first 3 stretches. -/
def val3 (V0 : Valuation τ sig (Elt F)) : Valuation τ sig (Elt F) := after w3 (val2 V0)
/-- The buffers the operations of stretch 3 write. -/
abbrev w3_W : List (Ref sig .tc) := [main_v28, main_v29, main_c_4, main_v30, main_v31, main_c_5, main_v32, main_v33, main_v34, main_v35, main_v36, main_v37, main_v38, main_cst_6, main_v39, main_v40, main_v41]
set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 3 does not write keeps its contents through it. -/
theorem val3_keep (V0 : Valuation τ sig (Elt F)) (r : Ref sig .tc) (h : r ∉ w3_W) :
    val3 V0 (Proc.devRef .tc r) = val2 V0 (Proc.devRef .tc r) :=
  after_of_writes_sub w3 _ w3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
set_option maxRecDepth 8192 in
set_option maxHeartbeats 3400000 in
theorem val3_main_v28 (V0 : Valuation τ sig (Elt F)) : val3 V0 (no_index (Proc.devRef .tc main_v28)) = acc2 (V0 (Proc.devRef .tc main_arg0)) (V0 (Proc.devRef .tc main_arg1)) (V0 (Proc.devRef .tc main_arg2)) (V0 (Proc.devRef .tc main_arg3)) (V0 (Proc.devRef .tc main_arg4)) := by
  unfold val3
  simp only [w3]
  after_results_simp
  simp only [val2_main_v27, val2_main_v14]
  all_goals rfl
set_option maxRecDepth 8192 in
set_option maxHeartbeats 3400000 in
theorem val3_main_v41 (V0 : Valuation τ sig (Elt F)) : val3 V0 (no_index (Proc.devRef .tc main_v41)) = hop3 (V0 (Proc.devRef .tc main_arg0)) (V0 (Proc.devRef .tc main_arg1)) (V0 (Proc.devRef .tc main_arg2)) (V0 (Proc.devRef .tc main_arg3)) (V0 (Proc.devRef .tc main_arg4)) := by
  unfold val3
  simp only [w3]
  after_results_simp
  simp only [val2_main_arg4, val2_main_v27, val2_main_arg2, val2_main_arg3]
  all_goals rfl

/-- The device's buffer contents after the first 4 stretches. -/
def val4 (V0 : Valuation τ sig (Elt F)) : Valuation τ sig (Elt F) := after w4 (val3 V0)
/-- The buffers the operations of stretch 4 write. -/
abbrev w4_W : List (Ref sig .tc) := [main_v42, main_cst_7, main_v43, main_v44, main_v45, main_v46, main_c_8, main_v47, main_v48]
set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 4 does not write keeps its contents through it. -/
theorem val4_keep (V0 : Valuation τ sig (Elt F)) (r : Ref sig .tc) (h : r ∉ w4_W) :
    val4 V0 (Proc.devRef .tc r) = val3 V0 (Proc.devRef .tc r) :=
  after_of_writes_sub w4 _ w4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
set_option maxRecDepth 8192 in
set_option maxHeartbeats 1800000 in
theorem val4_main_v45 (V0 : Valuation τ sig (Elt F)) : val4 V0 (no_index (Proc.devRef .tc main_v45)) = extractStridedSlice S100000x64 ![0, 0] ((final (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)))) slices_S150000x64_S100000x64_0_0 := by
  unfold val4
  simp only [w4]
  after_results_simp
  simp only [val3_main_v41, val3_main_v28]
  all_goals rfl
set_option maxRecDepth 8192 in
set_option maxHeartbeats 1800000 in
theorem val4_main_v46 (V0 : Valuation τ sig (Elt F)) : val4 V0 (no_index (Proc.devRef .tc main_v46)) = extractStridedSlice S50000x64 ![100000, 0] ((final (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)))) slices_S150000x64_S50000x64_100000_0 := by
  unfold val4
  simp only [w4]
  after_results_simp
  simp only [val3_main_v41, val3_main_v28]
  all_goals rfl
set_option maxRecDepth 8192 in
set_option maxHeartbeats 1800000 in
theorem val4_main_v48 (V0 : Valuation τ sig (Elt F)) : val4 V0 (no_index (Proc.devRef .tc main_v48)) = cmpi .slt ((V0 (Proc.devRef .tc main_arg5))) (broadcastInDim S16384 ![] bcast_S_S16384 (constantI S_ 32 0#32)) := by
  unfold val4
  simp only [w4]
  after_results_simp
  simp only [val3_main_arg5]
  all_goals rfl

/-- The device's buffer contents after the first 5 stretches. -/
def val5 (V0 : Valuation τ sig (Elt F)) : Valuation τ sig (Elt F) := after w5 (val4 V0)
/-- The buffers the operations of stretch 5 write. -/
abbrev w5_W : List (Ref sig .tc) := [main_c_9, main_v49, main_v50, main_v51, main_v52, main_v53, main_c_10, main_v54, main_v55, main_c_11, main_v56, main_v57, main_v58, main_v59, main_v60, main_c_12, main_v61, main_v62, main_c_13, main_v63, main_v64, main_v65, main_v66, main_v67]
set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 5 does not write keeps its contents through it. -/
theorem val5_keep (V0 : Valuation τ sig (Elt F)) (r : Ref sig .tc) (h : r ∉ w5_W) :
    val5 V0 (Proc.devRef .tc r) = val4 V0 (Proc.devRef .tc r) :=
  after_of_writes_sub w5 _ w5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
set_option maxRecDepth 8192 in
set_option maxHeartbeats 4000000 in
theorem val5_main_v53 (V0 : Valuation τ sig (Elt F)) : val5 V0 (no_index (Proc.devRef .tc main_v53)) = ue (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val5
  simp only [w5]
  after_results_simp
  simp only [val4_main_arg5, val4_main_v48, val4_main_v45]
  all_goals rfl
set_option maxRecDepth 8192 in
set_option maxHeartbeats 4000000 in
theorem val5_main_v60 (V0 : Valuation τ sig (Elt F)) : val5 V0 (no_index (Proc.devRef .tc main_v60)) = pe (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val5
  simp only [w5]
  after_results_simp
  simp only [val4_main_arg6, val4_main_v46]
  all_goals rfl
set_option maxRecDepth 8192 in
set_option maxHeartbeats 4000000 in
theorem val5_main_v67 (V0 : Valuation τ sig (Elt F)) : val5 V0 (no_index (Proc.devRef .tc main_v67)) = ne (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val5
  simp only [w5]
  after_results_simp
  simp only [val4_main_arg7, val4_main_v46]
  all_goals rfl

/-- The device's buffer contents after the first 6 stretches. -/
def val6 (V0 : Valuation τ sig (Elt F)) : Valuation τ sig (Elt F) := after w6 (val5 V0)
/-- The buffers the operations of stretch 6 write. -/
abbrev w6_W : List (Ref sig .tc) := [main_v68, main_cst_14, main_v69, main_v70, main_cst_15, main_v71, main_v72, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v73]
set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 6 does not write keeps its contents through it. -/
theorem val6_keep (V0 : Valuation τ sig (Elt F)) (r : Ref sig .tc) (h : r ∉ w6_W) :
    val6 V0 (Proc.devRef .tc r) = val5 V0 (Proc.devRef .tc r) :=
  after_of_writes_sub w6 _ w6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_v53 (V0 : Valuation τ sig (Elt F)) : val6 V0 (no_index (Proc.devRef .tc main_v53)) = ue (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val6_keep V0 main_v53 (by decide)).trans (val5_main_v53 V0)
theorem val6_main_v60 (V0 : Valuation τ sig (Elt F)) : val6 V0 (no_index (Proc.devRef .tc main_v60)) = pe (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val6_keep V0 main_v60 (by decide)).trans (val5_main_v60 V0)
theorem val6_main_v67 (V0 : Valuation τ sig (Elt F)) : val6 V0 (no_index (Proc.devRef .tc main_v67)) = ne (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val6_keep V0 main_v67 (by decide)).trans (val5_main_v67 V0)
set_option maxRecDepth 8192 in
set_option maxHeartbeats 4000000 in
theorem val6_main_v73 (V0 : Valuation τ sig (Elt F)) : val6 V0 (no_index (Proc.devRef .tc main_v73)) = lsig (ue (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (pe (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (ne (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := by
  unfold val6
  simp only [w6]
  after_results_simp
  simp only [val5_main_v67, val5_main_v53, val5_main_v60]
  all_goals rfl

/-- The device's buffer contents after the first 7 stretches. -/
def val7 (V0 : Valuation τ sig (Elt F)) : Valuation τ sig (Elt F) := after w7 (val6 V0)
/-- The buffers the operations of stretch 7 write. -/
abbrev w7_W : List (Ref sig .tc) := [main_cst_16, main_v74, main_cst_17, main_v75, main_v76, main_v77, main_cst_18, main_v78, main_cst_19, main_v79, main_v80, main_cst_20, main_v81, main_cst_21, main_v82, main_v83, main_v84, main_cst_22, main_v85, main_cst_23, main_v86, main_v87, main_cst_24, main_v88, main_cst_25, main_v89, main_v90]
set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 7 does not write keeps its contents through it. -/
theorem val7_keep (V0 : Valuation τ sig (Elt F)) (r : Ref sig .tc) (h : r ∉ w7_W) :
    val7 V0 (Proc.devRef .tc r) = val6 V0 (Proc.devRef .tc r) :=
  after_of_writes_sub w7 _ w7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
set_option maxRecDepth 8192 in
set_option maxHeartbeats 4000000 in
theorem val7_main_v90 (V0 : Valuation τ sig (Elt F)) : val7 V0 (no_index (Proc.devRef .tc main_v90)) = tail (ue (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (pe (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (ne (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := by
  unfold val7
  simp only [w7]
  after_results_simp
  simp only [val6_main_v67, val6_main_v60, val6_main_v53, val6_main_v73]
  all_goals rfl

theorem after_ops (V0 : Valuation τ sig (Elt F)) : after ops V0 = val7 V0 := by
  simp only [ops, after_app]
  rfl

/-! ## The run -/

/-- On every device, for any float values, from any memory with zero counters: every weakly fair execution of @main
    terminates with the result buffer at `tail` of the three gathered arrays `ue`, `pe`, `ne` of the arguments' launch
    contents, and the eight arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v90) = tail (ue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (pe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (ne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v90).trans (by simp only [after_ops]; exact val7_main_v90 (launchContents m c)),
      (h c main_arg0).trans (by simp only [after_ops]; exact val7_main_arg0 (launchContents m c)),
      (h c main_arg1).trans (by simp only [after_ops]; exact val7_main_arg1 (launchContents m c)),
      (h c main_arg2).trans (by simp only [after_ops]; exact val7_main_arg2 (launchContents m c)),
      (h c main_arg3).trans (by simp only [after_ops]; exact val7_main_arg3 (launchContents m c)),
      (h c main_arg4).trans (by simp only [after_ops]; exact val7_main_arg4 (launchContents m c)),
      (h c main_arg5).trans (by simp only [after_ops]; exact val7_main_arg5 (launchContents m c)),
      (h c main_arg6).trans (by simp only [after_ops]; exact val7_main_arg6 (launchContents m c)),
      (h c main_arg7).trans (by simp only [after_ops]; exact val7_main_arg7 (launchContents m c))⟩)
    (run_seq scopedRefs_eq scopedSems_eq defs main (fun _ => ops) main_eq (fun _ => ops_sub) m ρ)

end Cert.ReferenceIdeal.RefRun

end
-- ==== Proof.KFront.lean ====
/- The kernel program's buffers before its last region, read as the reference's composed terms. Stage by stage the
   kernel program's host operations are the reference's, except that the edge weights are cast to a column where the
   reference lays them out by a broadcast, and that each product "weights times gathered rows" is computed by a region:
   its output array is, entry by entry, the weight of the row's edge times the gathered entry, which is the
   reference's product. So the stacked tables, the three propagation steps, their running sums, the mean and the three
   gathered arrays are the reference's `stacked`, `hop1` … `hop3`, `acc1`, `acc2`, `final`, `ue`, `pe`, `ne` of the
   arguments' launch contents. -/
import proofs.«178663_j17334488007154_2_alg».proof.Proof.KRun
import proofs.«178663_j17334488007154_2_alg».proof.Proof.EdgeValue
import proofs.«178663_j17334488007154_2_alg».proof.Proof.RefRun
import proofs.«178663_j17334488007154_2_alg».proof.Proof.LibKeepdims

set_option pp.maxSteps 5000
set_option pp.deepTerms false
set_option Elab.async false

noncomputable section

/-! ## The reference's composed terms, by stage

The reference's propagation step written as three named stages — the gather of the operand's rows at the edges' source
indices, the product with the edge weights, the sum of the products into the rows at the destination indices — and its
composed terms restated over them: each restatement unfolds definitions only. -/

namespace Cert.ReferenceIdeal.RefRun

section
open Cert.ReferenceIdeal Cert.ReferenceIdeal.Gen Idealize.ShloMosaic

variable {F : FTy → Type} [FloatOps F]

/-- The edges' source indices as a column, a negative entry counted from the end of the 150000 rows. -/
def wrapE (a4 : IVec S3000000 32) : IVec S3000000x1 32 :=
  broadcastInDim S3000000x1 ![0] bcast_S3000000_S3000000x1_0 (select (cmpi .slt a4 (broadcastInDim S3000000 ![] bcast_S_S3000000 (constantI S_ 32 0#32))) (addi a4 (broadcastInDim S3000000 ![] bcast_S_S3000000 (constantI S_ 32 150000#32))) a4)

/-- Row `src e` of `x` for every edge `e`. -/
def gathR (x : FVec F S150000x64 .f32) (a4 : IVec S3000000 32) : FVec F S3000000x64 .f32 :=
  Host.gather gather_S150000x64_S3000000x1_S3000000x64_1_0_n_n_0_1_164 x ((wrapE a4))

/-- Every gathered row `e` times the edge's weight `a2 e`, the weights laid out as a column and repeated along the 64 columns. -/
def edgeR (a2 : FVec F S3000000 .f32) (g : FVec F S3000000x64 .f32) : FVec F S3000000x64 .f32 :=
  mulf (broadcastInDim S3000000x64 ![0, 1] bcast_S3000000x1_S3000000x64_0_1 (broadcastInDim S3000000x1 ![0] bcast_S3000000_S3000000x1_0 a2)) g

/-- The weighted rows summed into a zero array at the edges' destination rows. -/
def scatR (a3 : IVec S3000000 32) (e : FVec F S3000000x64 .f32) : FVec F S150000x64 .f32 :=
  Host.scatterAdd scatter_S150000x64_S3000000x1_S3000000x64_1_0_0_1 (broadcastInDim S150000x64 ![] bcast_S_S150000x64 (constant (F := F) S_ .f32 0x00000000#32)) (broadcastInDim S3000000x1 ![0] bcast_S3000000_S3000000x1_0 a3) e

theorem hop1_eq (a0 : FVec F S100000x64 .f32) (a1 : FVec F S50000x64 .f32) (a2 : FVec F S3000000 .f32) (a3 : IVec S3000000 32) (a4 : IVec S3000000 32) : hop1 a0 a1 a2 a3 a4 = scatR a3 (edgeR a2 (gathR (stacked a0 a1) a4)) := rfl
theorem hop2_eq (a0 : FVec F S100000x64 .f32) (a1 : FVec F S50000x64 .f32) (a2 : FVec F S3000000 .f32) (a3 : IVec S3000000 32) (a4 : IVec S3000000 32) : hop2 a0 a1 a2 a3 a4 = scatR a3 (edgeR a2 (gathR (hop1 a0 a1 a2 a3 a4) a4)) := rfl
theorem hop3_eq (a0 : FVec F S100000x64 .f32) (a1 : FVec F S50000x64 .f32) (a2 : FVec F S3000000 .f32) (a3 : IVec S3000000 32) (a4 : IVec S3000000 32) : hop3 a0 a1 a2 a3 a4 = scatR a3 (edgeR a2 (gathR (hop2 a0 a1 a2 a3 a4) a4)) := rfl
theorem acc1_eq (a0 : FVec F S100000x64 .f32) (a1 : FVec F S50000x64 .f32) (a2 : FVec F S3000000 .f32) (a3 : IVec S3000000 32) (a4 : IVec S3000000 32) : acc1 a0 a1 a2 a3 a4 = addf (stacked a0 a1) (hop1 a0 a1 a2 a3 a4) := rfl
theorem acc2_eq (a0 : FVec F S100000x64 .f32) (a1 : FVec F S50000x64 .f32) (a2 : FVec F S3000000 .f32) (a3 : IVec S3000000 32) (a4 : IVec S3000000 32) : acc2 a0 a1 a2 a3 a4 = addf (acc1 a0 a1 a2 a3 a4) (hop2 a0 a1 a2 a3 a4) := rfl
theorem ue_eq (a0 : FVec F S100000x64 .f32) (a1 : FVec F S50000x64 .f32) (a2 : FVec F S3000000 .f32) (a3 : IVec S3000000 32) (a4 : IVec S3000000 32) (a5 : IVec S16384 32) (a6 : IVec S16384 32) (a7 : IVec S16384 32) : ue a0 a1 a2 a3 a4 a5 a6 a7 = Host.gather gather_S100000x64_S16384x1_S16384x64_1_0_n_n_0_1_164 (extractStridedSlice S100000x64 ![0, 0] ((Host.divf (addf (acc2 a0 a1 a2 a3 a4) (hop3 a0 a1 a2 a3 a4)) (broadcastInDim S150000x64 ![] bcast_S_S150000x64 (constant (F := F) S_ .f32 0x40800000#32)))) slices_S150000x64_S100000x64_0_0) (broadcastInDim S16384x1 ![0] bcast_S16384_S16384x1_0 (select (cmpi .slt a5 (broadcastInDim S16384 ![] bcast_S_S16384 (constantI S_ 32 0#32))) (addi a5 (broadcastInDim S16384 ![] bcast_S_S16384 (constantI S_ 32 100000#32))) a5)) := rfl
theorem pe_eq (a0 : FVec F S100000x64 .f32) (a1 : FVec F S50000x64 .f32) (a2 : FVec F S3000000 .f32) (a3 : IVec S3000000 32) (a4 : IVec S3000000 32) (a5 : IVec S16384 32) (a6 : IVec S16384 32) (a7 : IVec S16384 32) : pe a0 a1 a2 a3 a4 a5 a6 a7 = Host.gather gather_S50000x64_S16384x1_S16384x64_1_0_n_n_0_1_164 (extractStridedSlice S50000x64 ![100000, 0] ((Host.divf (addf (acc2 a0 a1 a2 a3 a4) (hop3 a0 a1 a2 a3 a4)) (broadcastInDim S150000x64 ![] bcast_S_S150000x64 (constant (F := F) S_ .f32 0x40800000#32)))) slices_S150000x64_S50000x64_100000_0) (broadcastInDim S16384x1 ![0] bcast_S16384_S16384x1_0 (select (cmpi .slt a6 (broadcastInDim S16384 ![] bcast_S_S16384 (constantI S_ 32 0#32))) (addi a6 (broadcastInDim S16384 ![] bcast_S_S16384 (constantI S_ 32 50000#32))) a6)) := rfl
theorem ne_eq (a0 : FVec F S100000x64 .f32) (a1 : FVec F S50000x64 .f32) (a2 : FVec F S3000000 .f32) (a3 : IVec S3000000 32) (a4 : IVec S3000000 32) (a5 : IVec S16384 32) (a6 : IVec S16384 32) (a7 : IVec S16384 32) : ne a0 a1 a2 a3 a4 a5 a6 a7 = Host.gather gather_S50000x64_S16384x1_S16384x64_1_0_n_n_0_1_164 (extractStridedSlice S50000x64 ![100000, 0] ((Host.divf (addf (acc2 a0 a1 a2 a3 a4) (hop3 a0 a1 a2 a3 a4)) (broadcastInDim S150000x64 ![] bcast_S_S150000x64 (constant (F := F) S_ .f32 0x40800000#32)))) slices_S150000x64_S50000x64_100000_0) (broadcastInDim S16384x1 ![0] bcast_S16384_S16384x1_0 (select (cmpi .slt a7 (broadcastInDim S16384 ![] bcast_S_S16384 (constantI S_ 32 0#32))) (addi a7 (broadcastInDim S16384 ![] bcast_S_S16384 (constantI S_ 32 50000#32))) a7)) := rfl

end

end Cert.ReferenceIdeal.RefRun

namespace Cert.KernelIdeal.Hand

open Cert.KernelIdeal Cert.KernelIdeal.Gen Idealize.ShloMosaic Idealize.ShloMosaic.TcCoe Idealize.SL.Sem
open Idealize.ShloMosaic.ValueIdx

/-- The region's product read as the reference's: the weight column `[3000000, 1]` is the weight vector cast to a column,
    the reference's is the same vector laid out as a column and repeated along the 64 columns; at entry (e, k) both
    read the weight of edge e, and the product of extended reals is taken entry by entry. -/
theorem edgeG_col (a2 : FVec Ideal S3000000 .f32) (g : FVec Ideal S3000000x64 .f32) :
    edgeG (shapeCast S3000000x1 a2 shapeCasts_S3000000_S3000000x1) g = Cert.ReferenceIdeal.RefRun.edgeR a2 g := by
  funext i
  have hL : shapeCast S3000000x1 a2 shapeCasts_S3000000_S3000000x1 (ix2 (n0 := 3000000) (n1 := 1) (i 0) 0)
      = a2 (ix1 (n := 3000000) (i 0)) := shapeCast_a_a1_apply a2 _ (i 0) 0
  have hR : broadcastInDim Cert.ReferenceIdeal.S3000000x64 ![0, 1] Cert.ReferenceIdeal.Gen.bcast_S3000000x1_S3000000x64_0_1
        (broadcastInDim Cert.ReferenceIdeal.S3000000x1 ![0] Cert.ReferenceIdeal.Gen.bcast_S3000000_S3000000x1_0 a2) i
      = a2 (ix1 (n := 3000000) (i 0)) := by
    rw [broadcastInDim_apply ![0, 1] _ _ i (ix2 (n0 := 3000000) (n1 := 1) (i 0) 0)
      (fun a => by match a with | ⟨0, _⟩ => rfl | ⟨1, _⟩ => rfl)]
    exact broadcastInDim_apply (s := Cert.ReferenceIdeal.S3000000) (t := Cert.ReferenceIdeal.S3000000x1) ![0] _ a2
      (ix2 (n0 := 3000000) (n1 := 1) (i 0) 0) (ix1 (n := 3000000) (i 0)) (fun a => by match a with | ⟨0, _⟩ => rfl)
  show shapeCast S3000000x1 a2 shapeCasts_S3000000_S3000000x1 (ix2 (n0 := 3000000) (n1 := 1) (i 0) 0) * g i
    = broadcastInDim Cert.ReferenceIdeal.S3000000x64 ![0, 1] Cert.ReferenceIdeal.Gen.bcast_S3000000x1_S3000000x64_0_1
        (broadcastInDim Cert.ReferenceIdeal.S3000000x1 ![0] Cert.ReferenceIdeal.Gen.bcast_S3000000_S3000000x1_0 a2) i * g i
  rw [hL, hR]

variable (m : (ℓ : Loc nD τ sig) → Buf (Elt Ideal) ℓ) (c : Dev nD)

/-! ## Before region 0 -/

set_option maxRecDepth 65536 in
set_option maxHeartbeats 4000000 in
theorem B1_main_v0 : B1 (F := Ideal) m c (no_index (Proc.devRef .tc main_v0)) = Cert.ReferenceIdeal.RefRun.stacked (F := Ideal) (m ((c.tc : Thread nD τ).loc main_arg0)) (m ((c.tc : Thread nD τ).loc main_arg1)) := by
  show StableHlo.after hostOps0 (B0 (F := Ideal) m c) (Proc.devRef .tc main_v0) = _
  simp only [hostOps0]
  after_results_simp
  rfl
set_option maxRecDepth 65536 in
set_option maxHeartbeats 4000000 in
theorem B1_main_v1 : B1 (F := Ideal) m c (no_index (Proc.devRef .tc main_v1)) = shapeCast S3000000x1 (m ((c.tc : Thread nD τ).loc main_arg2)) shapeCasts_S3000000_S3000000x1 := by
  show StableHlo.after hostOps0 (B0 (F := Ideal) m c) (Proc.devRef .tc main_v1) = _
  simp only [hostOps0]
  after_results_simp
  rfl
set_option maxRecDepth 65536 in
set_option maxHeartbeats 4000000 in
theorem B1_main_v8 : B1 (F := Ideal) m c (no_index (Proc.devRef .tc main_v8)) = Cert.ReferenceIdeal.RefRun.gathR (F := Ideal) (Cert.ReferenceIdeal.RefRun.stacked (F := Ideal) (m ((c.tc : Thread nD τ).loc main_arg0)) (m ((c.tc : Thread nD τ).loc main_arg1))) (m ((c.tc : Thread nD τ).loc main_arg4)) := by
  show StableHlo.after hostOps0 (B0 (F := Ideal) m c) (Proc.devRef .tc main_v8) = _
  simp only [hostOps0]
  after_results_simp
  rfl
theorem B1_main_arg3 : B1 (F := Ideal) m c (no_index (Proc.devRef .tc main_arg3)) = m ((c.tc : Thread nD τ).loc main_arg3) :=
  StableHlo.after_of_writes_sub hostOps0 _ hostOps0_writes (r := main_arg3) (by decide)
theorem B1_main_arg4 : B1 (F := Ideal) m c (no_index (Proc.devRef .tc main_arg4)) = m ((c.tc : Thread nD τ).loc main_arg4) :=
  StableHlo.after_of_writes_sub hostOps0 _ hostOps0_writes (r := main_arg4) (by decide)
theorem B1_main_arg5 : B1 (F := Ideal) m c (no_index (Proc.devRef .tc main_arg5)) = m ((c.tc : Thread nD τ).loc main_arg5) :=
  StableHlo.after_of_writes_sub hostOps0 _ hostOps0_writes (r := main_arg5) (by decide)
theorem B1_main_arg6 : B1 (F := Ideal) m c (no_index (Proc.devRef .tc main_arg6)) = m ((c.tc : Thread nD τ).loc main_arg6) :=
  StableHlo.after_of_writes_sub hostOps0 _ hostOps0_writes (r := main_arg6) (by decide)
theorem B1_main_arg7 : B1 (F := Ideal) m c (no_index (Proc.devRef .tc main_arg7)) = m ((c.tc : Thread nD τ).loc main_arg7) :=
  StableHlo.after_of_writes_sub hostOps0 _ hostOps0_writes (r := main_arg7) (by decide)

/-! ## Region 0 -/

/-- The output array of region 0: every gathered row times its edge's weight. -/
theorem B2_main_v9 : B2 (F := Ideal) m c (no_index (Proc.devRef .tc main_v9)) = Cert.ReferenceIdeal.RefRun.edgeR (F := Ideal) (m ((c.tc : Thread nD τ).loc main_arg2)) (Cert.ReferenceIdeal.RefRun.gathR (F := Ideal) (Cert.ReferenceIdeal.RefRun.stacked (F := Ideal) (m ((c.tc : Thread nD τ).loc main_arg0)) (m ((c.tc : Thread nD τ).loc main_arg1))) (m ((c.tc : Thread nD τ).loc main_arg4))) :=
  (B2_arr (F := Ideal) m c 2).trans <| (edge_arrAt0 (En1 (F := Ideal) m) c).trans <| by
    show edgeG (B1 (F := Ideal) m c (Proc.devRef .tc main_v1)) (B1 (F := Ideal) m c (Proc.devRef .tc main_v8)) = _
    rw [B1_main_v1, B1_main_v8]
    exact edgeG_col _ _
theorem B2_main_v0 : B2 (F := Ideal) m c (no_index (Proc.devRef .tc main_v0)) = Cert.ReferenceIdeal.RefRun.stacked (F := Ideal) (m ((c.tc : Thread nD τ).loc main_arg0)) (m ((c.tc : Thread nD τ).loc main_arg1)) :=
  (B2_of_ne (F := Ideal) m c main_v0 (by decide)).trans (B1_main_v0 m c)
/-- An input array of region 0 leaves it as it entered. -/
theorem B2_main_v1 : B2 (F := Ideal) m c (no_index (Proc.devRef .tc main_v1)) = shapeCast S3000000x1 (m ((c.tc : Thread nD τ).loc main_arg2)) shapeCasts_S3000000_S3000000x1 :=
  (B2_arr (F := Ideal) m c 0).trans <| ((dat0 (En1 (F := Ideal) m) c).arrAt_in 0 (by rfl) cfg0.N).trans <|
    (A_eq0 (En1 (F := Ideal) m) c 0).trans (B1_main_v1 m c)
theorem B2_main_arg3 : B2 (F := Ideal) m c (no_index (Proc.devRef .tc main_arg3)) = m ((c.tc : Thread nD τ).loc main_arg3) :=
  (B2_of_ne (F := Ideal) m c main_arg3 (by decide)).trans (B1_main_arg3 m c)
theorem B2_main_arg4 : B2 (F := Ideal) m c (no_index (Proc.devRef .tc main_arg4)) = m ((c.tc : Thread nD τ).loc main_arg4) :=
  (B2_of_ne (F := Ideal) m c main_arg4 (by decide)).trans (B1_main_arg4 m c)
theorem B2_main_arg5 : B2 (F := Ideal) m c (no_index (Proc.devRef .tc main_arg5)) = m ((c.tc : Thread nD τ).loc main_arg5) :=
  (B2_of_ne (F := Ideal) m c main_arg5 (by decide)).trans (B1_main_arg5 m c)
theorem B2_main_arg6 : B2 (F := Ideal) m c (no_index (Proc.devRef .tc main_arg6)) = m ((c.tc : Thread nD τ).loc main_arg6) :=
  (B2_of_ne (F := Ideal) m c main_arg6 (by decide)).trans (B1_main_arg6 m c)
theorem B2_main_arg7 : B2 (F := Ideal) m c (no_index (Proc.devRef .tc main_arg7)) = m ((c.tc : Thread nD τ).loc main_arg7) :=
  (B2_of_ne (F := Ideal) m c main_arg7 (by decide)).trans (B1_main_arg7 m c)

/-! ## Between regions 0 and 1 -/

set_option maxRecDepth 65536 in
set_option maxHeartbeats 4000000 in
theorem B3_main_v12 : B3 (F := Ideal) m c (no_index (Proc.devRef .tc main_v12)) = Cert.ReferenceIdeal.RefRun.hop1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (B2 (F := Ideal) m c) (Proc.devRef .tc main_v12) = _
  simp only [hostOps1]
  after_results_simp
  simp only [B2_main_v9, B2_main_arg3]
  rw [Cert.ReferenceIdeal.RefRun.hop1_eq]
  rfl
set_option maxRecDepth 65536 in
set_option maxHeartbeats 4000000 in
theorem B3_main_v13 : B3 (F := Ideal) m c (no_index (Proc.devRef .tc main_v13)) = Cert.ReferenceIdeal.RefRun.acc1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (B2 (F := Ideal) m c) (Proc.devRef .tc main_v13) = _
  simp only [hostOps1]
  after_results_simp
  simp only [B2_main_v0, B2_main_v9, B2_main_arg3]
  rw [Cert.ReferenceIdeal.RefRun.acc1_eq, Cert.ReferenceIdeal.RefRun.hop1_eq]
  rfl
set_option maxRecDepth 65536 in
set_option maxHeartbeats 4000000 in
theorem B3_main_v20 : B3 (F := Ideal) m c (no_index (Proc.devRef .tc main_v20)) = Cert.ReferenceIdeal.RefRun.gathR (F := Ideal) (Cert.ReferenceIdeal.RefRun.hop1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg4)) := by
  show StableHlo.after hostOps1 (B2 (F := Ideal) m c) (Proc.devRef .tc main_v20) = _
  simp only [hostOps1]
  after_results_simp
  simp only [B2_main_v9, B2_main_arg3, B2_main_arg4]
  rw [Cert.ReferenceIdeal.RefRun.hop1_eq]
  rfl
theorem B3_main_v1 : B3 (F := Ideal) m c (no_index (Proc.devRef .tc main_v1)) = shapeCast S3000000x1 (m ((c.tc : Thread nD τ).loc main_arg2)) shapeCasts_S3000000_S3000000x1 :=
  (StableHlo.after_of_writes_sub hostOps1 _ hostOps1_writes (r := main_v1) (by decide)).trans (B2_main_v1 m c)
theorem B3_main_arg3 : B3 (F := Ideal) m c (no_index (Proc.devRef .tc main_arg3)) = m ((c.tc : Thread nD τ).loc main_arg3) :=
  (StableHlo.after_of_writes_sub hostOps1 _ hostOps1_writes (r := main_arg3) (by decide)).trans (B2_main_arg3 m c)
theorem B3_main_arg4 : B3 (F := Ideal) m c (no_index (Proc.devRef .tc main_arg4)) = m ((c.tc : Thread nD τ).loc main_arg4) :=
  (StableHlo.after_of_writes_sub hostOps1 _ hostOps1_writes (r := main_arg4) (by decide)).trans (B2_main_arg4 m c)
theorem B3_main_arg5 : B3 (F := Ideal) m c (no_index (Proc.devRef .tc main_arg5)) = m ((c.tc : Thread nD τ).loc main_arg5) :=
  (StableHlo.after_of_writes_sub hostOps1 _ hostOps1_writes (r := main_arg5) (by decide)).trans (B2_main_arg5 m c)
theorem B3_main_arg6 : B3 (F := Ideal) m c (no_index (Proc.devRef .tc main_arg6)) = m ((c.tc : Thread nD τ).loc main_arg6) :=
  (StableHlo.after_of_writes_sub hostOps1 _ hostOps1_writes (r := main_arg6) (by decide)).trans (B2_main_arg6 m c)
theorem B3_main_arg7 : B3 (F := Ideal) m c (no_index (Proc.devRef .tc main_arg7)) = m ((c.tc : Thread nD τ).loc main_arg7) :=
  (StableHlo.after_of_writes_sub hostOps1 _ hostOps1_writes (r := main_arg7) (by decide)).trans (B2_main_arg7 m c)

/-! ## Region 1 -/

/-- The output array of region 1: every gathered row times its edge's weight. -/
theorem B4_main_v21 : B4 (F := Ideal) m c (no_index (Proc.devRef .tc main_v21)) = Cert.ReferenceIdeal.RefRun.edgeR (F := Ideal) (m ((c.tc : Thread nD τ).loc main_arg2)) (Cert.ReferenceIdeal.RefRun.gathR (F := Ideal) (Cert.ReferenceIdeal.RefRun.hop1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg4))) :=
  (B4_arr (F := Ideal) m c 2).trans <| (edge_arrAt1 (En3 (F := Ideal) m) c).trans <| by
    show edgeG (B3 (F := Ideal) m c (Proc.devRef .tc main_v1)) (B3 (F := Ideal) m c (Proc.devRef .tc main_v20)) = _
    rw [B3_main_v1, B3_main_v20]
    exact edgeG_col _ _
theorem B4_main_v13 : B4 (F := Ideal) m c (no_index (Proc.devRef .tc main_v13)) = Cert.ReferenceIdeal.RefRun.acc1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (B4_of_ne (F := Ideal) m c main_v13 (by decide)).trans (B3_main_v13 m c)
/-- An input array of region 1 leaves it as it entered. -/
theorem B4_main_v1 : B4 (F := Ideal) m c (no_index (Proc.devRef .tc main_v1)) = shapeCast S3000000x1 (m ((c.tc : Thread nD τ).loc main_arg2)) shapeCasts_S3000000_S3000000x1 :=
  (B4_arr (F := Ideal) m c 0).trans <| ((dat1 (En3 (F := Ideal) m) c).arrAt_in 0 (by rfl) cfg1.N).trans <|
    (A_eq1 (En3 (F := Ideal) m) c 0).trans (B3_main_v1 m c)
theorem B4_main_arg3 : B4 (F := Ideal) m c (no_index (Proc.devRef .tc main_arg3)) = m ((c.tc : Thread nD τ).loc main_arg3) :=
  (B4_of_ne (F := Ideal) m c main_arg3 (by decide)).trans (B3_main_arg3 m c)
theorem B4_main_arg4 : B4 (F := Ideal) m c (no_index (Proc.devRef .tc main_arg4)) = m ((c.tc : Thread nD τ).loc main_arg4) :=
  (B4_of_ne (F := Ideal) m c main_arg4 (by decide)).trans (B3_main_arg4 m c)
theorem B4_main_arg5 : B4 (F := Ideal) m c (no_index (Proc.devRef .tc main_arg5)) = m ((c.tc : Thread nD τ).loc main_arg5) :=
  (B4_of_ne (F := Ideal) m c main_arg5 (by decide)).trans (B3_main_arg5 m c)
theorem B4_main_arg6 : B4 (F := Ideal) m c (no_index (Proc.devRef .tc main_arg6)) = m ((c.tc : Thread nD τ).loc main_arg6) :=
  (B4_of_ne (F := Ideal) m c main_arg6 (by decide)).trans (B3_main_arg6 m c)
theorem B4_main_arg7 : B4 (F := Ideal) m c (no_index (Proc.devRef .tc main_arg7)) = m ((c.tc : Thread nD τ).loc main_arg7) :=
  (B4_of_ne (F := Ideal) m c main_arg7 (by decide)).trans (B3_main_arg7 m c)

/-! ## Between regions 1 and 2 -/

set_option maxRecDepth 65536 in
set_option maxHeartbeats 4000000 in
theorem B5_main_v24 : B5 (F := Ideal) m c (no_index (Proc.devRef .tc main_v24)) = Cert.ReferenceIdeal.RefRun.hop2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (B4 (F := Ideal) m c) (Proc.devRef .tc main_v24) = _
  simp only [hostOps2]
  after_results_simp
  simp only [B4_main_v21, B4_main_arg3]
  rw [Cert.ReferenceIdeal.RefRun.hop2_eq]
  rfl
set_option maxRecDepth 65536 in
set_option maxHeartbeats 4000000 in
theorem B5_main_v25 : B5 (F := Ideal) m c (no_index (Proc.devRef .tc main_v25)) = Cert.ReferenceIdeal.RefRun.acc2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (B4 (F := Ideal) m c) (Proc.devRef .tc main_v25) = _
  simp only [hostOps2]
  after_results_simp
  simp only [B4_main_v13, B4_main_v21, B4_main_arg3]
  rw [Cert.ReferenceIdeal.RefRun.acc2_eq, Cert.ReferenceIdeal.RefRun.hop2_eq]
  rfl
set_option maxRecDepth 65536 in
set_option maxHeartbeats 4000000 in
theorem B5_main_v32 : B5 (F := Ideal) m c (no_index (Proc.devRef .tc main_v32)) = Cert.ReferenceIdeal.RefRun.gathR (F := Ideal) (Cert.ReferenceIdeal.RefRun.hop2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg4)) := by
  show StableHlo.after hostOps2 (B4 (F := Ideal) m c) (Proc.devRef .tc main_v32) = _
  simp only [hostOps2]
  after_results_simp
  simp only [B4_main_v21, B4_main_arg3, B4_main_arg4]
  rw [Cert.ReferenceIdeal.RefRun.hop2_eq]
  rfl
theorem B5_main_v1 : B5 (F := Ideal) m c (no_index (Proc.devRef .tc main_v1)) = shapeCast S3000000x1 (m ((c.tc : Thread nD τ).loc main_arg2)) shapeCasts_S3000000_S3000000x1 :=
  (StableHlo.after_of_writes_sub hostOps2 _ hostOps2_writes (r := main_v1) (by decide)).trans (B4_main_v1 m c)
theorem B5_main_arg3 : B5 (F := Ideal) m c (no_index (Proc.devRef .tc main_arg3)) = m ((c.tc : Thread nD τ).loc main_arg3) :=
  (StableHlo.after_of_writes_sub hostOps2 _ hostOps2_writes (r := main_arg3) (by decide)).trans (B4_main_arg3 m c)
theorem B5_main_arg4 : B5 (F := Ideal) m c (no_index (Proc.devRef .tc main_arg4)) = m ((c.tc : Thread nD τ).loc main_arg4) :=
  (StableHlo.after_of_writes_sub hostOps2 _ hostOps2_writes (r := main_arg4) (by decide)).trans (B4_main_arg4 m c)
theorem B5_main_arg5 : B5 (F := Ideal) m c (no_index (Proc.devRef .tc main_arg5)) = m ((c.tc : Thread nD τ).loc main_arg5) :=
  (StableHlo.after_of_writes_sub hostOps2 _ hostOps2_writes (r := main_arg5) (by decide)).trans (B4_main_arg5 m c)
theorem B5_main_arg6 : B5 (F := Ideal) m c (no_index (Proc.devRef .tc main_arg6)) = m ((c.tc : Thread nD τ).loc main_arg6) :=
  (StableHlo.after_of_writes_sub hostOps2 _ hostOps2_writes (r := main_arg6) (by decide)).trans (B4_main_arg6 m c)
theorem B5_main_arg7 : B5 (F := Ideal) m c (no_index (Proc.devRef .tc main_arg7)) = m ((c.tc : Thread nD τ).loc main_arg7) :=
  (StableHlo.after_of_writes_sub hostOps2 _ hostOps2_writes (r := main_arg7) (by decide)).trans (B4_main_arg7 m c)

/-! ## Region 2 -/

/-- The output array of region 2: every gathered row times its edge's weight. -/
theorem B6_main_v33 : B6 (F := Ideal) m c (no_index (Proc.devRef .tc main_v33)) = Cert.ReferenceIdeal.RefRun.edgeR (F := Ideal) (m ((c.tc : Thread nD τ).loc main_arg2)) (Cert.ReferenceIdeal.RefRun.gathR (F := Ideal) (Cert.ReferenceIdeal.RefRun.hop2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg4))) :=
  (B6_arr (F := Ideal) m c 2).trans <| (edge_arrAt2 (En5 (F := Ideal) m) c).trans <| by
    show edgeG (B5 (F := Ideal) m c (Proc.devRef .tc main_v1)) (B5 (F := Ideal) m c (Proc.devRef .tc main_v32)) = _
    rw [B5_main_v1, B5_main_v32]
    exact edgeG_col _ _
theorem B6_main_v25 : B6 (F := Ideal) m c (no_index (Proc.devRef .tc main_v25)) = Cert.ReferenceIdeal.RefRun.acc2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (B6_of_ne (F := Ideal) m c main_v25 (by decide)).trans (B5_main_v25 m c)
theorem B6_main_arg3 : B6 (F := Ideal) m c (no_index (Proc.devRef .tc main_arg3)) = m ((c.tc : Thread nD τ).loc main_arg3) :=
  (B6_of_ne (F := Ideal) m c main_arg3 (by decide)).trans (B5_main_arg3 m c)
theorem B6_main_arg4 : B6 (F := Ideal) m c (no_index (Proc.devRef .tc main_arg4)) = m ((c.tc : Thread nD τ).loc main_arg4) :=
  (B6_of_ne (F := Ideal) m c main_arg4 (by decide)).trans (B5_main_arg4 m c)
theorem B6_main_arg5 : B6 (F := Ideal) m c (no_index (Proc.devRef .tc main_arg5)) = m ((c.tc : Thread nD τ).loc main_arg5) :=
  (B6_of_ne (F := Ideal) m c main_arg5 (by decide)).trans (B5_main_arg5 m c)
theorem B6_main_arg6 : B6 (F := Ideal) m c (no_index (Proc.devRef .tc main_arg6)) = m ((c.tc : Thread nD τ).loc main_arg6) :=
  (B6_of_ne (F := Ideal) m c main_arg6 (by decide)).trans (B5_main_arg6 m c)
theorem B6_main_arg7 : B6 (F := Ideal) m c (no_index (Proc.devRef .tc main_arg7)) = m ((c.tc : Thread nD τ).loc main_arg7) :=
  (B6_of_ne (F := Ideal) m c main_arg7 (by decide)).trans (B5_main_arg7 m c)

/-! ## After region 2: the three gathered arrays -/

set_option maxRecDepth 65536 in
set_option maxHeartbeats 4000000 in
theorem B7_main_v48 : B7 (F := Ideal) m c (no_index (Proc.devRef .tc main_v48)) = Cert.ReferenceIdeal.RefRun.ue (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (B6 (F := Ideal) m c) (Proc.devRef .tc main_v48) = _
  simp only [hostOps3]
  after_results_simp
  simp only [B6_main_v25, B6_main_v33, B6_main_arg3, B6_main_arg5]
  rw [Cert.ReferenceIdeal.RefRun.ue_eq, Cert.ReferenceIdeal.RefRun.hop3_eq]
  rfl
set_option maxRecDepth 65536 in
set_option maxHeartbeats 4000000 in
theorem B7_main_v55 : B7 (F := Ideal) m c (no_index (Proc.devRef .tc main_v55)) = Cert.ReferenceIdeal.RefRun.pe (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (B6 (F := Ideal) m c) (Proc.devRef .tc main_v55) = _
  simp only [hostOps3]
  after_results_simp
  simp only [B6_main_v25, B6_main_v33, B6_main_arg3, B6_main_arg6]
  rw [Cert.ReferenceIdeal.RefRun.pe_eq, Cert.ReferenceIdeal.RefRun.hop3_eq]
  rfl
set_option maxRecDepth 65536 in
set_option maxHeartbeats 4000000 in
theorem B7_main_v62 : B7 (F := Ideal) m c (no_index (Proc.devRef .tc main_v62)) = Cert.ReferenceIdeal.RefRun.ne (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (B6 (F := Ideal) m c) (Proc.devRef .tc main_v62) = _
  simp only [hostOps3]
  after_results_simp
  simp only [B6_main_v25, B6_main_v33, B6_main_arg3, B6_main_arg7]
  rw [Cert.ReferenceIdeal.RefRun.ne_eq, Cert.ReferenceIdeal.RefRun.hop3_eq]
  rfl

/-- Before the last region the kernel program's first gathered array is the reference's `ue` of the arguments' launch contents. -/
theorem kernel_ue : B7 (F := Ideal) m c (Proc.devRef .tc main_v48) = Cert.ReferenceIdeal.RefRun.ue (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  B7_main_v48 m c
/-- Before the last region the kernel program's second gathered array is the reference's `pe` of the arguments' launch contents. -/
theorem kernel_pe : B7 (F := Ideal) m c (Proc.devRef .tc main_v55) = Cert.ReferenceIdeal.RefRun.pe (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  B7_main_v55 m c
/-- Before the last region the kernel program's third gathered array is the reference's `ne` of the arguments' launch contents. -/
theorem kernel_ne : B7 (F := Ideal) m c (Proc.devRef .tc main_v62) = Cert.ReferenceIdeal.RefRun.ne (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  B7_main_v62 m c

end Cert.KernelIdeal.Hand

end
-- ==== Proof.RefTail.lean ====
/- The reference program's closing scalar read at the ideal instance (a float an extended real) as plain sums.
   The host's sum over one axis is its initial value plus the finite sum over that axis; over every axis, the initial
   value plus the sum over every index. The row term is minus the stable softplus of minus the difference of two
   row-wise dot products (a value compared with itself for "unequal" is never so among extended reals, so the guarded
   branch is never taken). The scalar is minus the mean of the row terms plus a small constant times the sum of the three
   half squared norms divided by the number of rows. -/
import proofs.«178663_j17334488007154_2_alg».proof.Proof.RefRun
import Idealize.ShloMosaic.Lib.ValueIdx
import Idealize.ShloMosaic.PureOps.Ideal
import Idealize.ShloMosaic.PureOps.Ideal.Laws

noncomputable section

open scoped BigOperators

namespace Cert.ReferenceIdeal.RefTail

open Cert.ReferenceIdeal Cert.ReferenceIdeal.Gen Cert.ReferenceIdeal.RefRun Idealize.ShloMosaic Idealize.ShloMosaic.ValueIdx

/-- An extended real is never unequal to itself. -/
theorem cmp_une_self (d : EReal) : Ideal.cmp .une d d = 0#1 := by
  unfold Ideal.cmp
  simp

/-! ## Sums over a rank-1 index set -/

/-- A rank-1 index set is its one coordinate's range … -/
def idxEquiv1 {n : Nat} : (⟨1, ![n]⟩ : Shape).Idx ≃ Fin n where
  toFun j := j 0
  invFun := ix1
  left_inv j := (eq_ix1 j).symm
  right_inv _ := rfl

/-- … so a sum over it is the sum over the coordinate. -/
theorem sum_idx1 {n : Nat} (f : (⟨1, ![n]⟩ : Shape).Idx → EReal) : ∑ j, f j = ∑ i : Fin n, f (ix1 i) := by
  rw [← Equiv.sum_comp (idxEquiv1 (n := n)).symm f]
  rfl

/-! ## The host's three kinds of sum at an index -/

/-- The sum of a [16384, 64] array over its columns, at row `i`: the initial zero plus the sum over the 64 columns. -/
theorem hostRowsum_apply (v : FVec Ideal S16384x64 .f32) (i : Fin 16384) :
    Host.reduceAdd v (constant (F := Ideal) S_ .f32 0x00000000#32) reducesTo_S16384x64_S16384_d1 h_S_ (ix1 i)
      = Ideal.ofBits .f32 0x00000000#32 + ∑ k : Fin 64, v (ix2 i k) :=
  (Ideal.hostReduceAdd_single reducesTo_S16384x64_S16384_d1 (by decide : S16384x64.Reduces [1] S16384) v (Ideal.ofBits .f32 0x00000000#32) (ix1 i)).trans
    (congrArg (Ideal.ofBits .f32 0x00000000#32 + ·) (Finset.sum_congr rfl fun k _ => congrArg v (funext fun a => Fin.ext (by
      match a with
      | ⟨0, _⟩ => rfl
      | ⟨1, _⟩ => rfl))))

/-- The sum of a [16384] vector over its one axis: the initial zero plus the sum over the 16384 entries. -/
theorem hostColsum_apply (w : FVec Ideal S16384 .f32) :
    Host.reduceAdd w (constant (F := Ideal) S_ .f32 0x00000000#32) reducesTo_S16384_S_d0 h_S_ ix0 = Ideal.ofBits .f32 0x00000000#32 + ∑ i : Fin 16384, w (ix1 i) :=
  (Ideal.hostReduceAdd_total reducesTo_S16384_S_d0 (fun b => b.elim0) w (Ideal.ofBits .f32 0x00000000#32) ix0).trans
    (congrArg (Ideal.ofBits .f32 0x00000000#32 + ·) (sum_idx1 w))

/-- The sum of a [16384, 64] array over both axes: the initial zero plus the sum over every index. -/
theorem hostTotal_apply (v : FVec Ideal S16384x64 .f32) :
    Host.reduceAdd v (constant (F := Ideal) S_ .f32 0x00000000#32) reducesTo_S16384x64_S_d0_1 h_S_ ix0 = Ideal.ofBits .f32 0x00000000#32 + ∑ j : S16384x64.Idx, v j :=
  Ideal.hostReduceAdd_total reducesTo_S16384x64_S_d0_1 (fun b => b.elim0) v (Ideal.ofBits .f32 0x00000000#32) ix0

/-! ## The row term -/

/-- The row term from the row's two dot products (each with its initial zero): minus the stable softplus of
    `x = -(d₁ - d₂)`, `softplus x = max x 0 + log (1 + exp (-|x - 0|))`. -/
def lsRow (d1 d2 : EReal) : EReal :=
  -(max (-(d1 - d2)) (Ideal.ofBits .f32 0x00000000#32) + Ideal.log1p (Ideal.exp (-(max (-(d1 - d2) - Ideal.ofBits .f32 0x00000000#32) (-(-(d1 - d2) - Ideal.ofBits .f32 0x00000000#32))))))

/-- The reference's row term at row `i` of the three gathered arrays. -/
def lsR (u p n : FVec Ideal S16384x64 .f32) (i : Fin 16384) : EReal :=
  lsRow (Ideal.ofBits .f32 0x00000000#32 + ∑ k : Fin 64, u (ix2 i k) * p (ix2 i k)) (Ideal.ofBits .f32 0x00000000#32 + ∑ k : Fin 64, u (ix2 i k) * n (ix2 i k))

/-- The pointwise part of the log-sigmoid stage, from the two vectors of row sums. -/
def lsigPt (r1 r2 : FVec Ideal S16384 .f32) : FVec Ideal S16384 .f32 :=
  let z : FVec Ideal S16384 .f32 := broadcastInDim S16384 ![] bcast_S_S16384 (constant (F := Ideal) S_ .f32 0x00000000#32)
  let x : FVec Ideal S16384 .f32 := Host.negf (subf r1 r2)
  let q : FVec Ideal S16384 .f32 := subf x z
  Host.negf (select (cmpf .une q q) (addf x z) (addf (maximumf x z) (Host.log1p (Host.exp (Host.negf (Host.absf q))))))

theorem lsigPt_apply (r1 r2 : FVec Ideal S16384 .f32) (j : S16384.Idx) : lsigPt r1 r2 j = lsRow (r1 j) (r2 j) := by
  show -(Scalar.select (Ideal.cmp .une (-(r1 j - r2 j) - Ideal.ofBits .f32 0x00000000#32) (-(r1 j - r2 j) - Ideal.ofBits .f32 0x00000000#32)) (-(r1 j - r2 j) + Ideal.ofBits .f32 0x00000000#32)
      (max (-(r1 j - r2 j)) (Ideal.ofBits .f32 0x00000000#32) + Ideal.log1p (Ideal.exp (-(max (-(r1 j - r2 j) - Ideal.ofBits .f32 0x00000000#32) (-(-(r1 j - r2 j) - Ideal.ofBits .f32 0x00000000#32))))))) = _
  rw [cmp_une_self, select_zero]
  rfl

/-- The log-sigmoid stage is that pointwise part of the two vectors of row-wise dot products. -/
theorem lsig_eq (u p n : FVec Ideal S16384x64 .f32) :
    lsig (F := Ideal) u p n = lsigPt (Host.reduceAdd (mulf u p) (constant (F := Ideal) S_ .f32 0x00000000#32) reducesTo_S16384x64_S16384_d1 h_S_)
      (Host.reduceAdd (mulf u n) (constant (F := Ideal) S_ .f32 0x00000000#32) reducesTo_S16384x64_S16384_d1 h_S_) := rfl

/-- The log-sigmoid stage at row `i` is the row term. -/
theorem lsig_apply (u p n : FVec Ideal S16384x64 .f32) (i : Fin 16384) : lsig (F := Ideal) u p n (ix1 i) = lsR u p n i := by
  rw [lsig_eq, lsigPt_apply, hostRowsum_apply, hostRowsum_apply]
  rfl

/-! ## The closing scalar -/

/-- The reference's scalar: minus the mean of the row terms, plus the small constant times the sum of the three half
    squared norms divided by the number of rows; every sum with its initial zero, every literal its printed word. -/
theorem tail_apply (u p n : FVec Ideal S16384x64 .f32) :
    tail (F := Ideal) u p n ix0
      = -(Ideal.div (Ideal.ofBits .f32 0x00000000#32 + ∑ i : Fin 16384, lsR u p n i) (Ideal.ofBits .f32 0x46800000#32))
        + Ideal.ofBits .f32 0x38D1B717#32 * Ideal.div
            ((Ideal.div (Ideal.ofBits .f32 0x00000000#32 + ∑ j : S16384x64.Idx, u j * u j) (Ideal.ofBits .f32 0x40000000#32)
                + Ideal.div (Ideal.ofBits .f32 0x00000000#32 + ∑ j : S16384x64.Idx, p j * p j) (Ideal.ofBits .f32 0x40000000#32))
              + Ideal.div (Ideal.ofBits .f32 0x00000000#32 + ∑ j : S16384x64.Idx, n j * n j) (Ideal.ofBits .f32 0x40000000#32))
            (Ideal.ofBits .f32 0x46800000#32) := by
  rw [tail_eq_lsig]
  show -(Ideal.div (Host.reduceAdd (lsig (F := Ideal) u p n) (constant (F := Ideal) S_ .f32 0x00000000#32) reducesTo_S16384_S_d0 h_S_ ix0) (Ideal.ofBits .f32 0x46800000#32))
      + Ideal.ofBits .f32 0x38D1B717#32 * Ideal.div
          ((Ideal.div (Host.reduceAdd (mulf u u) (constant (F := Ideal) S_ .f32 0x00000000#32) reducesTo_S16384x64_S_d0_1 h_S_ ix0) (Ideal.ofBits .f32 0x40000000#32)
              + Ideal.div (Host.reduceAdd (mulf p p) (constant (F := Ideal) S_ .f32 0x00000000#32) reducesTo_S16384x64_S_d0_1 h_S_ ix0) (Ideal.ofBits .f32 0x40000000#32))
            + Ideal.div (Host.reduceAdd (mulf n n) (constant (F := Ideal) S_ .f32 0x00000000#32) reducesTo_S16384x64_S_d0_1 h_S_ ix0) (Ideal.ofBits .f32 0x40000000#32))
          (Ideal.ofBits .f32 0x46800000#32) = _
  rw [hostColsum_apply, hostTotal_apply, hostTotal_apply, hostTotal_apply]
  simp only [lsig_apply]
  rfl

end Cert.ReferenceIdeal.RefTail

end
-- ==== Proof.Bridge.lean ====
/-
  The two programs meet. The reference's scalar, read at its one index, is the reference arrangement of the loss over
  the rows of its three gathered arrays. The kernel program's result buffer is the closing term of the loss region,
  which is the kernel arrangement over the rows of the three arrays that region finds — and those arrays are the
  reference's own three gathered arrays of the same arguments (the kernel program's host operations are the
  reference's, and each edge-weighting region computes the product the reference computes on the host). The two
  arrangements are one extended real. So from memories agreeing on the arguments both runs end with equal results.
-/
import proofs.«178663_j17334488007154_2_alg».proof.Defs
import proofs.«178663_j17334488007154_2_alg».proof.Proof.Gen.Pre_finite_inputs
import proofs.«178663_j17334488007154_2_alg».proof.Proof.KLoss
import proofs.«178663_j17334488007154_2_alg».proof.Proof.KFront
import proofs.«178663_j17334488007154_2_alg».proof.Proof.RefTail

set_option maxRecDepth 16384

noncomputable section

open scoped BigOperators

namespace Cert.Bridge

open Idealize.ShloMosaic Idealize.ShloMosaic.TcCoe Idealize.SL.Sem Idealize.ShloMosaic.ValueIdx
open Cert.LossAlgebra Cert.KernelIdeal.Hand
open Cert.ReferenceIdeal.RefRun (tail ue pe ne)

/-- The reference's scalar is the reference arrangement over the rows of the three arrays. -/
theorem tail_value (u p n : FVec Ideal Cert.ReferenceIdeal.S16384x64 .f32) :
    tail (F := Ideal) u p n ix0 = lossR (rowsOf u) (rowsOf p) (rowsOf n) := by
  rw [Cert.ReferenceIdeal.RefTail.tail_apply]
  rw [sum_idx2 (fun j => u j * u j), sum_idx2 (fun j => p j * p j), sum_idx2 (fun j => n j * n j)]
  simp only [ofBits_zero, ofBits_16384, ofBits_reg, ofBits_two, Cert.ReferenceIdeal.RefTail.lsR, Cert.ReferenceIdeal.RefTail.lsRow]
  rfl

theorem seven_lt : 7 < Cert.KernelIdeal.cfg3.N := by
  have := Cert.KernelIdeal.Gen.N_3
  show 7 < Cert.KernelIdeal.grid3.N
  omega

/-- The kernel program's result buffer holds the reference's scalar of the same arguments. -/
theorem kernel_value (m : (ℓ : Loc Cert.KernelIdeal.nD Cert.KernelIdeal.τ Cert.KernelIdeal.sig) → Buf (Elt Ideal) ℓ) (c : Dev Cert.KernelIdeal.nD) :
    B9 (F := Ideal) m c (Proc.devRef .tc Cert.KernelIdeal.main_v64)
      = tail (F := Ideal) (ue (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (pe (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (ne (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) := by
  funext j
  obtain rfl := eq_ix0 j
  rw [tail_value, ← lossK_eq_lossR, B9_main_v64]
  refine (shapeCast_apply _ _ ix0 (ix2 (n0 := 1) (n1 := 1) 0 0) (by rfl)).trans ?_
  rw [B8_main_v63 m c seven_lt, region3_value (En7 m) c seven_lt]
  have eu : uR (En7 m) c = rowsOf (ue (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) := congrArg rowsOf (kernel_ue m c)
  have ep : pR (En7 m) c = rowsOf (pe (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) := congrArg rowsOf (kernel_pe m c)
  have en : nR (En7 m) c = rowsOf (ne (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) := congrArg rowsOf (kernel_ne m c)
  rw [eu, ep, en]

/-- THE ALGEBRAIC CLAIM. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => B9 (F := Ideal) m c (Proc.devRef .tc Cert.KernelIdeal.main_v64), ?_, ?_⟩
  · exact (θ_run Cert.KernelIdeal.defs _ _).mono (fun r h c =>
      ⟨h c _ (mem_ucH Cert.KernelIdeal.main_v64 (by decide)),
       (h c _ (mem_ucH Cert.KernelIdeal.main_arg0 (by decide))).trans (B9_main_arg0 m c),
       (h c _ (mem_ucH Cert.KernelIdeal.main_arg1 (by decide))).trans (B9_main_arg1 m c),
       (h c _ (mem_ucH Cert.KernelIdeal.main_arg2 (by decide))).trans (B9_main_arg2 m c),
       (h c _ (mem_ucH Cert.KernelIdeal.main_arg3 (by decide))).trans (B9_main_arg3 m c),
       (h c _ (mem_ucH Cert.KernelIdeal.main_arg4 (by decide))).trans (B9_main_arg4 m c),
       (h c _ (mem_ucH Cert.KernelIdeal.main_arg5 (by decide))).trans (B9_main_arg5 m c),
       (h c _ (mem_ucH Cert.KernelIdeal.main_arg6 (by decide))).trans (B9_main_arg6 m c),
       (h c _ (mem_ucH Cert.KernelIdeal.main_arg7 (by decide))).trans (B9_main_arg7 m c)⟩)
      (run_all (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (kernel_value m c).symm

end Cert.Bridge

end
-- ==== Proof.lean ====
/-
  The five claims. The kernel program — host gathers and scatter-adds around three edge-weighting regions and one loss
  region — runs, faults nowhere and leaves its arguments unchanged, at the word level and at the ideal values: its
  @main is a list of host stretches and regions whose thread states chain, each region's body proved at every grid
  point (the loss region carrying its two accumulators from point to point). The reference is a straight line of host
  operations, read back as one composed term. The idealization rewrote nothing. At the ideal values both programs
  compute, from the same three gathered arrays, one extended real: the kernel adds tile by tile and scales by a folded
  constant what the reference sums at once and scales afterwards.
-/
import proofs.«178663_j17334488007154_2_alg».proof.Defs
import proofs.«178663_j17334488007154_2_alg».proof.Proof.Gen.Kernel
import proofs.«178663_j17334488007154_2_alg».proof.Proof.Gen.KernelIdeal
import proofs.«178663_j17334488007154_2_alg».proof.Proof.Gen.ReferenceIdeal
import proofs.«178663_j17334488007154_2_alg».proof.Proof.Gen.Pre_finite_inputs
import proofs.«178663_j17334488007154_2_alg».proof.Proof.KRunK
import proofs.«178663_j17334488007154_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Hand.frameH (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frameH (F := Ideal) m ρ

/-- The reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
